-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel

variable [Facts]

def fn {F : FTy → Type} [FloatOps F] (main_arg0 : FVec F S16x1x1024x1024 .f32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  main_v3
-- ==== Kernel.lean ====
abbrev S16x1x1024x1024 : Shape := ⟨4, ![16, 1, 1024, 1024]⟩
abbrev S1x1x1024x1024 : Shape := ⟨4, ![1, 1, 1024, 1024]⟩
abbrev S1x1x1x1024 : Shape := ⟨4, ![1, 1, 1, 1024]⟩
abbrev S1x1x1023x1024 : Shape := ⟨4, ![1, 1, 1023, 1024]⟩
abbrev S1x1x1024x1 : Shape := ⟨4, ![1, 1, 1024, 1]⟩
abbrev S1x1x1024x1023 : Shape := ⟨4, ![1, 1, 1024, 1023]⟩
abbrev S_ : Shape := ⟨0, ![]⟩
abbrev S16777216 : Shape := ⟨1, ![16777216]⟩
abbrev S3355443 : Shape := ⟨1, ![3355443]⟩
abbrev S16777216x1 : Shape := ⟨2, ![16777216, 1]⟩
abbrev S1x3355443 : Shape := ⟨2, ![1, 3355443]⟩
abbrev S2x3355443 : Shape := ⟨2, ![2, 3355443]⟩

abbrev nBuf : Space → Nat
  | .hbm => 211
  | .vmem => 4
  | .smem => 0
  | _ => 0

abbrev hbmTy0_0 (i : Nat) : BufTy := match i % 128 with
  | 0 => ⟨S16x1x1024x1024, .f32⟩
  | 1 => ⟨S16x1x1024x1024, .i32⟩
  | 2 => ⟨S_, .i32⟩
  | 3 => ⟨S16x1x1024x1024, .i32⟩
  | 4 => ⟨S16x1x1024x1024, .i1⟩
  | 5 => ⟨S16777216, .i1⟩
  | 6 => ⟨S16777216, .i32⟩
  | 7 => ⟨S_, .i32⟩
  | 8 => ⟨S_, .i32⟩
  | 9 => ⟨S16777216, .i32⟩
  | 10 => ⟨S_, .i32⟩
  | 11 => ⟨S3355443, .i32⟩
  | 12 => ⟨S_, .i32⟩
  | 13 => ⟨S_, .i32⟩
  | 14 => ⟨S16777216, .i32⟩
  | 15 => ⟨S16777216, .i32⟩
  | 16 => ⟨S_, .i32⟩
  | 17 => ⟨S16777216, .i32⟩
  | 18 => ⟨S16777216, .i1⟩
  | 19 => ⟨S_, .i32⟩
  | 20 => ⟨S16777216, .i32⟩
  | 21 => ⟨S16777216, .i32⟩
  | 22 => ⟨S16777216, .i32⟩
  | 23 => ⟨S16777216x1, .i32⟩
  | 24 => ⟨S_, .i32⟩
  | 25 => ⟨S16777216, .i32⟩
  | 26 => ⟨S3355443, .i32⟩
  | 27 => ⟨S_, .i32⟩
  | 28 => ⟨S_, .i32⟩
  | 29 => ⟨S3355443, .i32⟩
  | 30 => ⟨S_, .i32⟩
  | 31 => ⟨S3355443, .i32⟩
  | 32 => ⟨S3355443, .i32⟩
  | 33 => ⟨S3355443, .i32⟩
  | 34 => ⟨S_, .i32⟩
  | 35 => ⟨S3355443, .i32⟩
  | 36 => ⟨S3355443, .i1⟩
  | 37 => ⟨S3355443, .i32⟩
  | 38 => ⟨S3355443, .i32⟩
  | 39 => ⟨S_, .i32⟩
  | 40 => ⟨S3355443, .i32⟩
  | 41 => ⟨S3355443, .i1⟩
  | 42 => ⟨S3355443, .i1⟩
  | 43 => ⟨S_, .i32⟩
  | 44 => ⟨S3355443, .i32⟩
  | 45 => ⟨S3355443, .i32⟩
  | 46 => ⟨S3355443, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S3355443, .i32⟩
  | 54 => ⟨S3355443, .i32⟩
  | 55 => ⟨S_, .i32⟩
  | 56 => ⟨S3355443, .i32⟩
  | 57 => ⟨S3355443, .i1⟩
  | 58 => ⟨S_, .i32⟩
  | 59 => ⟨S3355443, .i32⟩
  | 60 => ⟨S3355443, .i1⟩
  | 61 => ⟨S_, .i32⟩
  | 62 => ⟨S_, .i1⟩
  | 63 => ⟨S3355443, .i1⟩
  | 64 => ⟨S3355443, .i1⟩
  | 65 => ⟨S3355443, .i1⟩
  | 66 => ⟨S3355443, .i32⟩
  | 67 => ⟨S3355443, .i32⟩
  | 68 => ⟨S3355443, .i32⟩
  | 69 => ⟨S_, .i32⟩
  | 70 => ⟨S3355443, .i32⟩
  | 71 => ⟨S3355443, .i32⟩
  | 72 => ⟨S3355443, .i32⟩
  | 73 => ⟨S_, .i32⟩
  | 74 => ⟨S3355443, .i32⟩
  | 75 => ⟨S3355443, .i1⟩
  | 76 => ⟨S3355443, .i32⟩
  | 77 => ⟨S3355443, .i32⟩
  | 78 => ⟨S_, .i32⟩
  | 79 => ⟨S3355443, .i32⟩
  | 80 => ⟨S3355443, .i1⟩
  | 81 => ⟨S3355443, .i1⟩
  | 82 => ⟨S_, .i32⟩
  | 83 => ⟨S3355443, .i32⟩
  | 84 => ⟨S3355443, .i32⟩
  | 85 => ⟨S3355443, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S3355443, .i32⟩
  | 93 => ⟨S3355443, .i32⟩
  | 94 => ⟨S_, .i32⟩
  | 95 => ⟨S3355443, .i32⟩
  | 96 => ⟨S3355443, .i1⟩
  | 97 => ⟨S_, .i32⟩
  | 98 => ⟨S3355443, .i32⟩
  | 99 => ⟨S3355443, .i1⟩
  | 100 => ⟨S_, .i32⟩
  | 101 => ⟨S_, .i1⟩
  | 102 => ⟨S3355443, .i1⟩
  | 103 => ⟨S3355443, .i1⟩
  | 104 => ⟨S3355443, .i1⟩
  | 105 => ⟨S3355443, .i32⟩
  | 106 => ⟨S3355443, .i32⟩
  | 107 => ⟨S3355443, .i32⟩
  | 108 => ⟨S_, .i32⟩
  | 109 => ⟨S3355443, .i32⟩
  | 110 => ⟨S3355443, .i32⟩
  | 111 => ⟨S3355443, .i32⟩
  | 112 => ⟨S_, .i32⟩
  | 113 => ⟨S3355443, .i32⟩
  | 114 => ⟨S3355443, .i1⟩
  | 115 => ⟨S3355443, .i32⟩
  | 116 => ⟨S3355443, .i32⟩
  | 117 => ⟨S_, .i32⟩
  | 118 => ⟨S3355443, .i32⟩
  | 119 => ⟨S3355443, .i1⟩
  | 120 => ⟨S3355443, .i1⟩
  | 121 => ⟨S_, .i32⟩
  | 122 => ⟨S3355443, .i32⟩
  | 123 => ⟨S3355443, .i32⟩
  | 124 => ⟨S3355443, .i32⟩
  | 125 => ⟨S_, .i32⟩
  | 126 => ⟨S_, .i32⟩
  | 127 => ⟨S_, .i32⟩
  | _ => ⟨S16x1x1024x1024, .f32⟩

abbrev hbmTy0_1 (i : Nat) : BufTy := match i % 128 with
  | 0 => ⟨S_, .i1⟩
  | 1 => ⟨S_, .i32⟩
  | 2 => ⟨S_, .i32⟩
  | 3 => ⟨S3355443, .i32⟩
  | 4 => ⟨S3355443, .i32⟩
  | 5 => ⟨S_, .i32⟩
  | 6 => ⟨S3355443, .i32⟩
  | 7 => ⟨S3355443, .i1⟩
  | 8 => ⟨S_, .i32⟩
  | 9 => ⟨S3355443, .i32⟩
  | 10 => ⟨S3355443, .i1⟩
  | 11 => ⟨S_, .i32⟩
  | 12 => ⟨S_, .i1⟩
  | 13 => ⟨S3355443, .i1⟩
  | 14 => ⟨S3355443, .i1⟩
  | 15 => ⟨S3355443, .i1⟩
  | 16 => ⟨S3355443, .i32⟩
  | 17 => ⟨S3355443, .i32⟩
  | 18 => ⟨S3355443, .i32⟩
  | 19 => ⟨S_, .i32⟩
  | 20 => ⟨S3355443, .i32⟩
  | 21 => ⟨S3355443, .i32⟩
  | 22 => ⟨S3355443, .i32⟩
  | 23 => ⟨S_, .i32⟩
  | 24 => ⟨S3355443, .i32⟩
  | 25 => ⟨S3355443, .i1⟩
  | 26 => ⟨S3355443, .i32⟩
  | 27 => ⟨S3355443, .i32⟩
  | 28 => ⟨S_, .i32⟩
  | 29 => ⟨S3355443, .i32⟩
  | 30 => ⟨S3355443, .i1⟩
  | 31 => ⟨S3355443, .i1⟩
  | 32 => ⟨S_, .i32⟩
  | 33 => ⟨S3355443, .i32⟩
  | 34 => ⟨S3355443, .i32⟩
  | 35 => ⟨S3355443, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S3355443, .i32⟩
  | 43 => ⟨S3355443, .i32⟩
  | 44 => ⟨S_, .i32⟩
  | 45 => ⟨S3355443, .i32⟩
  | 46 => ⟨S3355443, .i1⟩
  | 47 => ⟨S_, .i32⟩
  | 48 => ⟨S3355443, .i32⟩
  | 49 => ⟨S3355443, .i1⟩
  | 50 => ⟨S_, .i32⟩
  | 51 => ⟨S_, .i1⟩
  | 52 => ⟨S3355443, .i1⟩
  | 53 => ⟨S3355443, .i1⟩
  | 54 => ⟨S3355443, .i1⟩
  | 55 => ⟨S3355443, .i32⟩
  | 56 => ⟨S3355443, .i32⟩
  | 57 => ⟨S3355443, .i32⟩
  | 58 => ⟨S3355443, .i32⟩
  | 59 => ⟨S16x1x1024x1024, .i32⟩
  | 60 => ⟨S_, .i32⟩
  | 61 => ⟨S_, .i32⟩
  | 62 => ⟨S3355443, .i32⟩
  | 63 => ⟨S3355443, .i1⟩
  | 64 => ⟨S_, .i32⟩
  | 65 => ⟨S_, .i32⟩
  | 66 => ⟨S3355443, .i32⟩
  | 67 => ⟨S3355443, .i32⟩
  | 68 => ⟨S_, .i32⟩
  | 69 => ⟨S_, .i32⟩
  | 70 => ⟨S3355443, .i32⟩
  | 71 => ⟨S3355443, .i32⟩
  | 72 => ⟨S_, .i32⟩
  | 73 => ⟨S_, .i32⟩
  | 74 => ⟨S3355443, .i32⟩
  | 75 => ⟨S3355443, .i32⟩
  | 76 => ⟨S_, .i32⟩
  | 77 => ⟨S_, .i32⟩
  | 78 => ⟨S3355443, .i32⟩
  | 79 => ⟨S3355443, .i32⟩
  | 80 => ⟨S1x3355443, .i32⟩
  | 81 => ⟨S1x3355443, .i32⟩
  | 82 => ⟨S2x3355443, .i32⟩
  | _ => ⟨S16x1x1024x1024, .f32⟩

abbrev hbmTy (i : Nat) : BufTy := match i / 128 with
  | 0 => hbmTy0_0 i
  | 1 => hbmTy0_1 i
  | _ => ⟨S16x1x1024x1024, .f32⟩

abbrev bufTy : (tb : Table) → Fin (tcTables nBuf tb) → BufTy
  | .hbm, ⟨i, _⟩ => hbmTy i
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .i32⟩
  | .local _ .vmem, ⟨3, _⟩ => ⟨S1x1x1024x1024, .i32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_call0_c : Ref sig .tc := ⟨.hbm, 7, rfl⟩
abbrev main_call0_call0_v0 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_c_1 : Ref sig .tc := ⟨.hbm, 12, rfl⟩
abbrev main_call1_v0 : Ref sig .tc := ⟨.hbm, 13, rfl⟩
abbrev main_call1_v1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_call2_call0_c : Ref sig .tc := ⟨.hbm, 27, rfl⟩
abbrev main_call2_call0_v0 : Ref sig .tc := ⟨.hbm, 28, rfl⟩
abbrev main_v14 : Ref sig .tc := ⟨.hbm, 29, rfl⟩
abbrev main_c_5 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_call3_v5 : Ref sig .tc := ⟨.hbm, 36, rfl⟩
abbrev main_call3_v6 : Ref sig .tc := ⟨.hbm, 37, rfl⟩
abbrev main_call3_v7 : Ref sig .tc := ⟨.hbm, 38, rfl⟩
abbrev main_call3_c : Ref sig .tc := ⟨.hbm, 39, rfl⟩
abbrev main_call3_v8 : Ref sig .tc := ⟨.hbm, 40, rfl⟩
abbrev main_call3_v9 : Ref sig .tc := ⟨.hbm, 41, rfl⟩
abbrev main_call3_v10 : Ref sig .tc := ⟨.hbm, 42, rfl⟩
abbrev main_call3_c_0 : Ref sig .tc := ⟨.hbm, 43, rfl⟩
abbrev main_call3_v11 : Ref sig .tc := ⟨.hbm, 44, rfl⟩
abbrev main_call3_v12 : Ref sig .tc := ⟨.hbm, 45, rfl⟩
abbrev main_v15 : Ref sig .tc := ⟨.hbm, 46, rfl⟩
abbrev main_c_6 : Ref sig .tc := ⟨.hbm, 47, rfl⟩
abbrev main_call4_v0 : Ref sig .tc := ⟨.hbm, 48, rfl⟩
abbrev main_call4_c : Ref sig .tc := ⟨.hbm, 49, rfl⟩
abbrev main_call4_v1 : Ref sig .tc := ⟨.hbm, 50, rfl⟩
abbrev main_call4_c_0 : Ref sig .tc := ⟨.hbm, 51, rfl⟩
abbrev main_call4_v2 : Ref sig .tc := ⟨.hbm, 52, rfl⟩
abbrev main_call4_v3 : Ref sig .tc := ⟨.hbm, 53, rfl⟩
abbrev main_call4_v4 : Ref sig .tc := ⟨.hbm, 54, rfl⟩
abbrev main_call4_c_1 : Ref sig .tc := ⟨.hbm, 55, rfl⟩
abbrev main_call4_v5 : Ref sig .tc := ⟨.hbm, 56, rfl⟩
abbrev main_call4_v6 : Ref sig .tc := ⟨.hbm, 57, rfl⟩
abbrev main_call4_c_2 : Ref sig .tc := ⟨.hbm, 58, rfl⟩
abbrev main_call4_v7 : Ref sig .tc := ⟨.hbm, 59, rfl⟩
abbrev main_call4_v8 : Ref sig .tc := ⟨.hbm, 60, rfl⟩
abbrev main_call4_c_3 : Ref sig .tc := ⟨.hbm, 61, rfl⟩
abbrev main_call4_v9 : Ref sig .tc := ⟨.hbm, 62, rfl⟩
abbrev main_call4_v10 : Ref sig .tc := ⟨.hbm, 63, rfl⟩
abbrev main_call4_v11 : Ref sig .tc := ⟨.hbm, 64, rfl⟩
abbrev main_call4_v12 : Ref sig .tc := ⟨.hbm, 65, rfl⟩
abbrev main_call4_v13 : Ref sig .tc := ⟨.hbm, 66, rfl⟩
abbrev main_call4_v14 : Ref sig .tc := ⟨.hbm, 67, rfl⟩
abbrev main_v16 : Ref sig .tc := ⟨.hbm, 68, rfl⟩
abbrev main_c_7 : Ref sig .tc := ⟨.hbm, 69, rfl⟩
abbrev main_call5_v0 : Ref sig .tc := ⟨.hbm, 70, rfl⟩
abbrev main_call5_v1 : Ref sig .tc := ⟨.hbm, 71, rfl⟩
abbrev main_call5_v2 : Ref sig .tc := ⟨.hbm, 72, rfl⟩
abbrev main_call5_v3 : Ref sig .tc := ⟨.hbm, 73, rfl⟩
abbrev main_call5_v4 : Ref sig .tc := ⟨.hbm, 74, rfl⟩
abbrev main_call5_v5 : Ref sig .tc := ⟨.hbm, 75, rfl⟩
abbrev main_call5_v6 : Ref sig .tc := ⟨.hbm, 76, rfl⟩
abbrev main_call5_v7 : Ref sig .tc := ⟨.hbm, 77, rfl⟩
abbrev main_call5_c : Ref sig .tc := ⟨.hbm, 78, rfl⟩
abbrev main_call5_v8 : Ref sig .tc := ⟨.hbm, 79, rfl⟩
abbrev main_call5_v9 : Ref sig .tc := ⟨.hbm, 80, rfl⟩
abbrev main_call5_v10 : Ref sig .tc := ⟨.hbm, 81, rfl⟩
abbrev main_call5_c_0 : Ref sig .tc := ⟨.hbm, 82, rfl⟩
abbrev main_call5_v11 : Ref sig .tc := ⟨.hbm, 83, rfl⟩
abbrev main_call5_v12 : Ref sig .tc := ⟨.hbm, 84, rfl⟩
abbrev main_v17 : Ref sig .tc := ⟨.hbm, 85, rfl⟩
abbrev main_c_8 : Ref sig .tc := ⟨.hbm, 86, rfl⟩
abbrev main_call6_v0 : Ref sig .tc := ⟨.hbm, 87, rfl⟩
abbrev main_call6_c : Ref sig .tc := ⟨.hbm, 88, rfl⟩
abbrev main_call6_v1 : Ref sig .tc := ⟨.hbm, 89, rfl⟩
abbrev main_call6_c_0 : Ref sig .tc := ⟨.hbm, 90, rfl⟩
abbrev main_call6_v2 : Ref sig .tc := ⟨.hbm, 91, rfl⟩
abbrev main_call6_v3 : Ref sig .tc := ⟨.hbm, 92, rfl⟩
abbrev main_call6_v4 : Ref sig .tc := ⟨.hbm, 93, rfl⟩
abbrev main_call6_c_1 : Ref sig .tc := ⟨.hbm, 94, rfl⟩
abbrev main_call6_v5 : Ref sig .tc := ⟨.hbm, 95, rfl⟩
abbrev main_call6_v6 : Ref sig .tc := ⟨.hbm, 96, rfl⟩
abbrev main_call6_c_2 : Ref sig .tc := ⟨.hbm, 97, rfl⟩
abbrev main_call6_v7 : Ref sig .tc := ⟨.hbm, 98, rfl⟩
abbrev main_call6_v8 : Ref sig .tc := ⟨.hbm, 99, rfl⟩
abbrev main_call6_c_3 : Ref sig .tc := ⟨.hbm, 100, rfl⟩
abbrev main_call6_v9 : Ref sig .tc := ⟨.hbm, 101, rfl⟩
abbrev main_call6_v10 : Ref sig .tc := ⟨.hbm, 102, rfl⟩
abbrev main_call6_v11 : Ref sig .tc := ⟨.hbm, 103, rfl⟩
abbrev main_call6_v12 : Ref sig .tc := ⟨.hbm, 104, rfl⟩
abbrev main_call6_v13 : Ref sig .tc := ⟨.hbm, 105, rfl⟩
abbrev main_call6_v14 : Ref sig .tc := ⟨.hbm, 106, rfl⟩
abbrev main_v18 : Ref sig .tc := ⟨.hbm, 107, rfl⟩
abbrev main_c_9 : Ref sig .tc := ⟨.hbm, 108, rfl⟩
abbrev main_call7_v0 : Ref sig .tc := ⟨.hbm, 109, rfl⟩
abbrev main_call7_v1 : Ref sig .tc := ⟨.hbm, 110, rfl⟩
abbrev main_call7_v2 : Ref sig .tc := ⟨.hbm, 111, rfl⟩
abbrev main_call7_v3 : Ref sig .tc := ⟨.hbm, 112, rfl⟩
abbrev main_call7_v4 : Ref sig .tc := ⟨.hbm, 113, rfl⟩
abbrev main_call7_v5 : Ref sig .tc := ⟨.hbm, 114, rfl⟩
abbrev main_call7_v6 : Ref sig .tc := ⟨.hbm, 115, rfl⟩
abbrev main_call7_v7 : Ref sig .tc := ⟨.hbm, 116, rfl⟩
abbrev main_call7_c : Ref sig .tc := ⟨.hbm, 117, rfl⟩
abbrev main_call7_v8 : Ref sig .tc := ⟨.hbm, 118, rfl⟩
abbrev main_call7_v9 : Ref sig .tc := ⟨.hbm, 119, rfl⟩
abbrev main_call7_v10 : Ref sig .tc := ⟨.hbm, 120, rfl⟩
abbrev main_call7_c_0 : Ref sig .tc := ⟨.hbm, 121, rfl⟩
abbrev main_call7_v11 : Ref sig .tc := ⟨.hbm, 122, rfl⟩
abbrev main_call7_v12 : Ref sig .tc := ⟨.hbm, 123, rfl⟩
abbrev main_v19 : Ref sig .tc := ⟨.hbm, 124, rfl⟩
abbrev main_c_10 : Ref sig .tc := ⟨.hbm, 125, rfl⟩
abbrev main_call8_v0 : Ref sig .tc := ⟨.hbm, 126, rfl⟩
abbrev main_call8_c : Ref sig .tc := ⟨.hbm, 127, rfl⟩
abbrev main_call8_v1 : Ref sig .tc := ⟨.hbm, 128, rfl⟩
abbrev main_call8_c_0 : Ref sig .tc := ⟨.hbm, 129, rfl⟩
abbrev main_call8_v2 : Ref sig .tc := ⟨.hbm, 130, rfl⟩
abbrev main_call8_v3 : Ref sig .tc := ⟨.hbm, 131, rfl⟩
abbrev main_call8_v4 : Ref sig .tc := ⟨.hbm, 132, rfl⟩
abbrev main_call8_c_1 : Ref sig .tc := ⟨.hbm, 133, rfl⟩
abbrev main_call8_v5 : Ref sig .tc := ⟨.hbm, 134, rfl⟩
abbrev main_call8_v6 : Ref sig .tc := ⟨.hbm, 135, rfl⟩
abbrev main_call8_c_2 : Ref sig .tc := ⟨.hbm, 136, rfl⟩
abbrev main_call8_v7 : Ref sig .tc := ⟨.hbm, 137, rfl⟩
abbrev main_call8_v8 : Ref sig .tc := ⟨.hbm, 138, rfl⟩
abbrev main_call8_c_3 : Ref sig .tc := ⟨.hbm, 139, rfl⟩
abbrev main_call8_v9 : Ref sig .tc := ⟨.hbm, 140, rfl⟩
abbrev main_call8_v10 : Ref sig .tc := ⟨.hbm, 141, rfl⟩
abbrev main_call8_v11 : Ref sig .tc := ⟨.hbm, 142, rfl⟩
abbrev main_call8_v12 : Ref sig .tc := ⟨.hbm, 143, rfl⟩
abbrev main_call8_v13 : Ref sig .tc := ⟨.hbm, 144, rfl⟩
abbrev main_call8_v14 : Ref sig .tc := ⟨.hbm, 145, rfl⟩
abbrev main_v20 : Ref sig .tc := ⟨.hbm, 146, rfl⟩
abbrev main_c_11 : Ref sig .tc := ⟨.hbm, 147, rfl⟩
abbrev main_call9_v0 : Ref sig .tc := ⟨.hbm, 148, rfl⟩
abbrev main_call9_v1 : Ref sig .tc := ⟨.hbm, 149, rfl⟩
abbrev main_call9_v2 : Ref sig .tc := ⟨.hbm, 150, rfl⟩
abbrev main_call9_v3 : Ref sig .tc := ⟨.hbm, 151, rfl⟩
abbrev main_call9_v4 : Ref sig .tc := ⟨.hbm, 152, rfl⟩
abbrev main_call9_v5 : Ref sig .tc := ⟨.hbm, 153, rfl⟩
abbrev main_call9_v6 : Ref sig .tc := ⟨.hbm, 154, rfl⟩
abbrev main_call9_v7 : Ref sig .tc := ⟨.hbm, 155, rfl⟩
abbrev main_call9_c : Ref sig .tc := ⟨.hbm, 156, rfl⟩
abbrev main_call9_v8 : Ref sig .tc := ⟨.hbm, 157, rfl⟩
abbrev main_call9_v9 : Ref sig .tc := ⟨.hbm, 158, rfl⟩
abbrev main_call9_v10 : Ref sig .tc := ⟨.hbm, 159, rfl⟩
abbrev main_call9_c_0 : Ref sig .tc := ⟨.hbm, 160, rfl⟩
abbrev main_call9_v11 : Ref sig .tc := ⟨.hbm, 161, rfl⟩
abbrev main_call9_v12 : Ref sig .tc := ⟨.hbm, 162, rfl⟩
abbrev main_v21 : Ref sig .tc := ⟨.hbm, 163, rfl⟩
abbrev main_c_12 : Ref sig .tc := ⟨.hbm, 164, rfl⟩
abbrev main_call10_v0 : Ref sig .tc := ⟨.hbm, 165, rfl⟩
abbrev main_call10_c : Ref sig .tc := ⟨.hbm, 166, rfl⟩
abbrev main_call10_v1 : Ref sig .tc := ⟨.hbm, 167, rfl⟩
abbrev main_call10_c_0 : Ref sig .tc := ⟨.hbm, 168, rfl⟩
abbrev main_call10_v2 : Ref sig .tc := ⟨.hbm, 169, rfl⟩
abbrev main_call10_v3 : Ref sig .tc := ⟨.hbm, 170, rfl⟩
abbrev main_call10_v4 : Ref sig .tc := ⟨.hbm, 171, rfl⟩
abbrev main_call10_c_1 : Ref sig .tc := ⟨.hbm, 172, rfl⟩
abbrev main_call10_v5 : Ref sig .tc := ⟨.hbm, 173, rfl⟩
abbrev main_call10_v6 : Ref sig .tc := ⟨.hbm, 174, rfl⟩
abbrev main_call10_c_2 : Ref sig .tc := ⟨.hbm, 175, rfl⟩
abbrev main_call10_v7 : Ref sig .tc := ⟨.hbm, 176, rfl⟩
abbrev main_call10_v8 : Ref sig .tc := ⟨.hbm, 177, rfl⟩
abbrev main_call10_c_3 : Ref sig .tc := ⟨.hbm, 178, rfl⟩
abbrev main_call10_v9 : Ref sig .tc := ⟨.hbm, 179, rfl⟩
abbrev main_call10_v10 : Ref sig .tc := ⟨.hbm, 180, rfl⟩
abbrev main_call10_v11 : Ref sig .tc := ⟨.hbm, 181, rfl⟩
abbrev main_call10_v12 : Ref sig .tc := ⟨.hbm, 182, rfl⟩
abbrev main_call10_v13 : Ref sig .tc := ⟨.hbm, 183, rfl⟩
abbrev main_call10_v14 : Ref sig .tc := ⟨.hbm, 184, rfl⟩
abbrev main_v22 : Ref sig .tc := ⟨.hbm, 185, rfl⟩
abbrev main_v23 : Ref sig .tc := ⟨.hbm, 186, rfl⟩
abbrev main_v24 : Ref sig .tc := ⟨.hbm, 187, rfl⟩
abbrev main_c_13 : Ref sig .tc := ⟨.hbm, 188, rfl⟩
abbrev main_v25 : Ref sig .tc := ⟨.hbm, 189, rfl⟩
abbrev main_v26 : Ref sig .tc := ⟨.hbm, 190, rfl⟩
abbrev main_v27 : Ref sig .tc := ⟨.hbm, 191, rfl⟩
abbrev main_c_14 : Ref sig .tc := ⟨.hbm, 192, rfl⟩
abbrev main_call11_v0 : Ref sig .tc := ⟨.hbm, 193, rfl⟩
abbrev main_call11_v1 : Ref sig .tc := ⟨.hbm, 194, rfl⟩
abbrev main_v28 : Ref sig .tc := ⟨.hbm, 195, rfl⟩
abbrev main_c_15 : Ref sig .tc := ⟨.hbm, 196, rfl⟩
abbrev main_call12_v0 : Ref sig .tc := ⟨.hbm, 197, rfl⟩
abbrev main_call12_v1 : Ref sig .tc := ⟨.hbm, 198, rfl⟩
abbrev main_v29 : Ref sig .tc := ⟨.hbm, 199, rfl⟩
abbrev main_c_16 : Ref sig .tc := ⟨.hbm, 200, rfl⟩
abbrev main_call13_v0 : Ref sig .tc := ⟨.hbm, 201, rfl⟩
abbrev main_call13_v1 : Ref sig .tc := ⟨.hbm, 202, rfl⟩
abbrev main_v30 : Ref sig .tc := ⟨.hbm, 203, rfl⟩
abbrev main_c_17 : Ref sig .tc := ⟨.hbm, 204, rfl⟩
abbrev main_call14_v0 : Ref sig .tc := ⟨.hbm, 205, rfl⟩
abbrev main_call14_v1 : Ref sig .tc := ⟨.hbm, 206, rfl⟩
abbrev main_v31 : Ref sig .tc := ⟨.hbm, 207, rfl⟩
abbrev main_v32 : Ref sig .tc := ⟨.hbm, 208, rfl⟩
abbrev main_v33 : Ref sig .tc := ⟨.hbm, 209, rfl⟩
abbrev main_v34 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  slices_S1x1x1024x1024_o0_0_0_0_S1x1x1023x1024 : S1x1x1024x1024.Slices ![0, 0, 0, 0] S1x1x1023x1024
  concatenates_S1x1x1x1024_S1x1x1023x1024_S1x1x1024x1024_d2 : Shape.Concatenates [S1x1x1x1024, S1x1x1023x1024] S1x1x1024x1024 2
  slices_S1x1x1024x1024_o0_0_1_0_S1x1x1023x1024 : S1x1x1024x1024.Slices ![0, 0, 1, 0] S1x1x1023x1024
  concatenates_S1x1x1023x1024_S1x1x1x1024_S1x1x1024x1024_d2 : Shape.Concatenates [S1x1x1023x1024, S1x1x1x1024] S1x1x1024x1024 2
  slices_S1x1x1024x1024_o0_0_0_0_S1x1x1024x1023 : S1x1x1024x1024.Slices ![0, 0, 0, 0] S1x1x1024x1023
  concatenates_S1x1x1024x1_S1x1x1024x1023_S1x1x1024x1024_d3 : Shape.Concatenates [S1x1x1024x1, S1x1x1024x1023] S1x1x1024x1024 3
  slices_S1x1x1024x1024_o0_0_0_1_S1x1x1024x1023 : S1x1x1024x1024.Slices ![0, 0, 0, 1] S1x1x1024x1023
  concatenates_S1x1x1024x1023_S1x1x1024x1_S1x1x1024x1024_d3 : Shape.Concatenates [S1x1x1024x1023, S1x1x1024x1] S1x1x1024x1024 3
  natLt_1_32 : 1 < 32
  bcast_S_S16x1x1024x1024 : S_.BroadcastsInDim S16x1x1024x1024 (![] : Fin 0 → Fin S16x1x1024x1024.rank)
  shapeCasts_S16x1x1024x1024_S16777216 : S16x1x1024x1024.ShapeCasts S16777216
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  h_S_ : 0 < S_.numel
  bcast_S_S3355443 : S_.BroadcastsInDim S3355443 (![] : Fin 0 → Fin S3355443.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  reduceWindows_S3355443_S3355443_w3355443s1p3355442_0 : S3355443.ReduceWindows (![3355443] : Fin 1 → Nat) ![1] ![3355442] ![0] S3355443
  reducesTo_S16x1x1024x1024_S_d0_1_2_3 : S16x1x1024x1024.ReducesTo [0, 1, 2, 3] S_
  bcast_S3355443_S1x3355443_1 : S3355443.BroadcastsInDim S1x3355443 (![1] : Fin 1 → Fin S1x3355443.rank)
  concatenates_S1x3355443_S1x3355443_S2x3355443_d0 : Shape.Concatenates [S1x3355443, S1x3355443] S2x3355443 0
  scatter_S3355443_S16777216x1_S16777216_n_0_0_1_wf : ScatterDims.WF S3355443 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S16x1x1024x1024.size a
  hwx0_0 : ∀ i : grid0.Coords, EltTy.bits .f32 = 32 ∨ (Rect.block (s := S16x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S16x1x1024x1024.size a
  hwx0_1 : ∀ i : grid0.Coords, EltTy.bits .i32 = 32 ∨ (Rect.block (s := S16x1x1024x1024) S1x1x1024x1024.size (cc0_transform_1 i) (hinb0_1 i)).WholeWords (EltTy.packing .i32)

variable [Facts₀]

def scatter_S3355443_S16777216x1_S16777216_n_0_0_1 : ScatterDims S3355443 S16777216x1 S16777216 where
  updateWindowDims := []
  insertedWindowDims := [0]
  scatterDimsToOperandDims := [0]
  indexVectorDim := 1
  wf := scatter_S3355443_S16777216x1_S16777216_n_0_0_1_wf

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x1x1024x1024 : Shape := ⟨4, ![16, 1, 1024, 1024]⟩
abbrev S_ : Shape := ⟨0, ![]⟩
abbrev S16777216 : Shape := ⟨1, ![16777216]⟩
abbrev S3355443 : Shape := ⟨1, ![3355443]⟩
abbrev S16777216x1 : Shape := ⟨2, ![16777216, 1]⟩
abbrev S1x3355443 : Shape := ⟨2, ![1, 3355443]⟩
abbrev S2x3355443 : Shape := ⟨2, ![2, 3355443]⟩

abbrev nBuf : Space → Nat
  | .hbm => 215
  | .vmem => 0
  | .smem => 0
  | _ => 0

abbrev hbmTy0_0 (i : Nat) : BufTy := match i % 128 with
  | 0 => ⟨S16x1x1024x1024, .f32⟩
  | 1 => ⟨S_, .f32⟩
  | 2 => ⟨S_, .f32⟩
  | 3 => ⟨S16x1x1024x1024, .f32⟩
  | 4 => ⟨S16x1x1024x1024, .i1⟩
  | 5 => ⟨S_, .f32⟩
  | 6 => ⟨S16x1x1024x1024, .f32⟩
  | 7 => ⟨S16x1x1024x1024, .i1⟩
  | 8 => ⟨S16x1x1024x1024, .i1⟩
  | 9 => ⟨S16777216, .i1⟩
  | 10 => ⟨S16777216, .i32⟩
  | 11 => ⟨S_, .i32⟩
  | 12 => ⟨S_, .i32⟩
  | 13 => ⟨S16777216, .i32⟩
  | 14 => ⟨S_, .i32⟩
  | 15 => ⟨S3355443, .i32⟩
  | 16 => ⟨S_, .i32⟩
  | 17 => ⟨S_, .i32⟩
  | 18 => ⟨S16777216, .i32⟩
  | 19 => ⟨S16777216, .i32⟩
  | 20 => ⟨S_, .i32⟩
  | 21 => ⟨S16777216, .i32⟩
  | 22 => ⟨S16777216, .i1⟩
  | 23 => ⟨S_, .i32⟩
  | 24 => ⟨S16777216, .i32⟩
  | 25 => ⟨S16777216, .i32⟩
  | 26 => ⟨S16777216, .i32⟩
  | 27 => ⟨S16777216x1, .i32⟩
  | 28 => ⟨S_, .i32⟩
  | 29 => ⟨S16777216, .i32⟩
  | 30 => ⟨S3355443, .i32⟩
  | 31 => ⟨S_, .i32⟩
  | 32 => ⟨S_, .i32⟩
  | 33 => ⟨S3355443, .i32⟩
  | 34 => ⟨S_, .i32⟩
  | 35 => ⟨S3355443, .i32⟩
  | 36 => ⟨S3355443, .i32⟩
  | 37 => ⟨S3355443, .i32⟩
  | 38 => ⟨S_, .i32⟩
  | 39 => ⟨S3355443, .i32⟩
  | 40 => ⟨S3355443, .i1⟩
  | 41 => ⟨S3355443, .i32⟩
  | 42 => ⟨S3355443, .i32⟩
  | 43 => ⟨S_, .i32⟩
  | 44 => ⟨S3355443, .i32⟩
  | 45 => ⟨S3355443, .i1⟩
  | 46 => ⟨S3355443, .i1⟩
  | 47 => ⟨S_, .i32⟩
  | 48 => ⟨S3355443, .i32⟩
  | 49 => ⟨S3355443, .i32⟩
  | 50 => ⟨S3355443, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S3355443, .i32⟩
  | 58 => ⟨S3355443, .i32⟩
  | 59 => ⟨S_, .i32⟩
  | 60 => ⟨S3355443, .i32⟩
  | 61 => ⟨S3355443, .i1⟩
  | 62 => ⟨S_, .i32⟩
  | 63 => ⟨S3355443, .i32⟩
  | 64 => ⟨S3355443, .i1⟩
  | 65 => ⟨S_, .i32⟩
  | 66 => ⟨S_, .i1⟩
  | 67 => ⟨S3355443, .i1⟩
  | 68 => ⟨S3355443, .i1⟩
  | 69 => ⟨S3355443, .i1⟩
  | 70 => ⟨S3355443, .i32⟩
  | 71 => ⟨S3355443, .i32⟩
  | 72 => ⟨S3355443, .i32⟩
  | 73 => ⟨S_, .i32⟩
  | 74 => ⟨S3355443, .i32⟩
  | 75 => ⟨S3355443, .i32⟩
  | 76 => ⟨S3355443, .i32⟩
  | 77 => ⟨S_, .i32⟩
  | 78 => ⟨S3355443, .i32⟩
  | 79 => ⟨S3355443, .i1⟩
  | 80 => ⟨S3355443, .i32⟩
  | 81 => ⟨S3355443, .i32⟩
  | 82 => ⟨S_, .i32⟩
  | 83 => ⟨S3355443, .i32⟩
  | 84 => ⟨S3355443, .i1⟩
  | 85 => ⟨S3355443, .i1⟩
  | 86 => ⟨S_, .i32⟩
  | 87 => ⟨S3355443, .i32⟩
  | 88 => ⟨S3355443, .i32⟩
  | 89 => ⟨S3355443, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S3355443, .i32⟩
  | 97 => ⟨S3355443, .i32⟩
  | 98 => ⟨S_, .i32⟩
  | 99 => ⟨S3355443, .i32⟩
  | 100 => ⟨S3355443, .i1⟩
  | 101 => ⟨S_, .i32⟩
  | 102 => ⟨S3355443, .i32⟩
  | 103 => ⟨S3355443, .i1⟩
  | 104 => ⟨S_, .i32⟩
  | 105 => ⟨S_, .i1⟩
  | 106 => ⟨S3355443, .i1⟩
  | 107 => ⟨S3355443, .i1⟩
  | 108 => ⟨S3355443, .i1⟩
  | 109 => ⟨S3355443, .i32⟩
  | 110 => ⟨S3355443, .i32⟩
  | 111 => ⟨S3355443, .i32⟩
  | 112 => ⟨S_, .i32⟩
  | 113 => ⟨S3355443, .i32⟩
  | 114 => ⟨S3355443, .i32⟩
  | 115 => ⟨S3355443, .i32⟩
  | 116 => ⟨S_, .i32⟩
  | 117 => ⟨S3355443, .i32⟩
  | 118 => ⟨S3355443, .i1⟩
  | 119 => ⟨S3355443, .i32⟩
  | 120 => ⟨S3355443, .i32⟩
  | 121 => ⟨S_, .i32⟩
  | 122 => ⟨S3355443, .i32⟩
  | 123 => ⟨S3355443, .i1⟩
  | 124 => ⟨S3355443, .i1⟩
  | 125 => ⟨S_, .i32⟩
  | 126 => ⟨S3355443, .i32⟩
  | 127 => ⟨S3355443, .i32⟩
  | _ => ⟨S16x1x1024x1024, .f32⟩

abbrev hbmTy0_1 (i : Nat) : BufTy := match i % 128 with
  | 0 => ⟨S3355443, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S3355443, .i32⟩
  | 8 => ⟨S3355443, .i32⟩
  | 9 => ⟨S_, .i32⟩
  | 10 => ⟨S3355443, .i32⟩
  | 11 => ⟨S3355443, .i1⟩
  | 12 => ⟨S_, .i32⟩
  | 13 => ⟨S3355443, .i32⟩
  | 14 => ⟨S3355443, .i1⟩
  | 15 => ⟨S_, .i32⟩
  | 16 => ⟨S_, .i1⟩
  | 17 => ⟨S3355443, .i1⟩
  | 18 => ⟨S3355443, .i1⟩
  | 19 => ⟨S3355443, .i1⟩
  | 20 => ⟨S3355443, .i32⟩
  | 21 => ⟨S3355443, .i32⟩
  | 22 => ⟨S3355443, .i32⟩
  | 23 => ⟨S_, .i32⟩
  | 24 => ⟨S3355443, .i32⟩
  | 25 => ⟨S3355443, .i32⟩
  | 26 => ⟨S3355443, .i32⟩
  | 27 => ⟨S_, .i32⟩
  | 28 => ⟨S3355443, .i32⟩
  | 29 => ⟨S3355443, .i1⟩
  | 30 => ⟨S3355443, .i32⟩
  | 31 => ⟨S3355443, .i32⟩
  | 32 => ⟨S_, .i32⟩
  | 33 => ⟨S3355443, .i32⟩
  | 34 => ⟨S3355443, .i1⟩
  | 35 => ⟨S3355443, .i1⟩
  | 36 => ⟨S_, .i32⟩
  | 37 => ⟨S3355443, .i32⟩
  | 38 => ⟨S3355443, .i32⟩
  | 39 => ⟨S3355443, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S3355443, .i32⟩
  | 47 => ⟨S3355443, .i32⟩
  | 48 => ⟨S_, .i32⟩
  | 49 => ⟨S3355443, .i32⟩
  | 50 => ⟨S3355443, .i1⟩
  | 51 => ⟨S_, .i32⟩
  | 52 => ⟨S3355443, .i32⟩
  | 53 => ⟨S3355443, .i1⟩
  | 54 => ⟨S_, .i32⟩
  | 55 => ⟨S_, .i1⟩
  | 56 => ⟨S3355443, .i1⟩
  | 57 => ⟨S3355443, .i1⟩
  | 58 => ⟨S3355443, .i1⟩
  | 59 => ⟨S3355443, .i32⟩
  | 60 => ⟨S3355443, .i32⟩
  | 61 => ⟨S3355443, .i32⟩
  | 62 => ⟨S3355443, .i32⟩
  | 63 => ⟨S16x1x1024x1024, .i32⟩
  | 64 => ⟨S_, .i32⟩
  | 65 => ⟨S_, .i32⟩
  | 66 => ⟨S3355443, .i32⟩
  | 67 => ⟨S3355443, .i1⟩
  | 68 => ⟨S_, .i32⟩
  | 69 => ⟨S_, .i32⟩
  | 70 => ⟨S3355443, .i32⟩
  | 71 => ⟨S3355443, .i32⟩
  | 72 => ⟨S_, .i32⟩
  | 73 => ⟨S_, .i32⟩
  | 74 => ⟨S3355443, .i32⟩
  | 75 => ⟨S3355443, .i32⟩
  | 76 => ⟨S_, .i32⟩
  | 77 => ⟨S_, .i32⟩
  | 78 => ⟨S3355443, .i32⟩
  | 79 => ⟨S3355443, .i32⟩
  | 80 => ⟨S_, .i32⟩
  | 81 => ⟨S_, .i32⟩
  | 82 => ⟨S3355443, .i32⟩
  | 83 => ⟨S3355443, .i32⟩
  | 84 => ⟨S1x3355443, .i32⟩
  | 85 => ⟨S1x3355443, .i32⟩
  | 86 => ⟨S2x3355443, .i32⟩
  | _ => ⟨S16x1x1024x1024, .f32⟩

abbrev hbmTy (i : Nat) : BufTy := match i / 128 with
  | 0 => hbmTy0_0 i
  | 1 => hbmTy0_1 i
  | _ => ⟨S16x1x1024x1024, .f32⟩

abbrev bufTy : (tb : Table) → Fin (tcTables nBuf tb) → BufTy
  | .hbm, ⟨i, _⟩ => hbmTy i
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_call0_c : Ref sig .tc := ⟨.hbm, 11, rfl⟩
abbrev main_call0_call0_v0 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_c_1 : Ref sig .tc := ⟨.hbm, 16, rfl⟩
abbrev main_call1_v0 : Ref sig .tc := ⟨.hbm, 17, rfl⟩
abbrev main_call1_v1 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_call2_call0_c : Ref sig .tc := ⟨.hbm, 31, rfl⟩
abbrev main_call2_call0_v0 : Ref sig .tc := ⟨.hbm, 32, rfl⟩
abbrev main_v17 : Ref sig .tc := ⟨.hbm, 33, rfl⟩
abbrev main_c_5 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_v6 : Ref sig .tc := ⟨.hbm, 41, rfl⟩
abbrev main_call3_v7 : Ref sig .tc := ⟨.hbm, 42, rfl⟩
abbrev main_call3_c : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_c_0 : Ref sig .tc := ⟨.hbm, 47, rfl⟩
abbrev main_call3_v11 : Ref sig .tc := ⟨.hbm, 48, rfl⟩
abbrev main_call3_v12 : Ref sig .tc := ⟨.hbm, 49, rfl⟩
abbrev main_v18 : Ref sig .tc := ⟨.hbm, 50, rfl⟩
abbrev main_c_6 : Ref sig .tc := ⟨.hbm, 51, rfl⟩
abbrev main_call4_v0 : Ref sig .tc := ⟨.hbm, 52, rfl⟩
abbrev main_call4_c : Ref sig .tc := ⟨.hbm, 53, rfl⟩
abbrev main_call4_v1 : Ref sig .tc := ⟨.hbm, 54, rfl⟩
abbrev main_call4_c_0 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_call4_c_1 : Ref sig .tc := ⟨.hbm, 59, rfl⟩
abbrev main_call4_v5 : Ref sig .tc := ⟨.hbm, 60, rfl⟩
abbrev main_call4_v6 : Ref sig .tc := ⟨.hbm, 61, rfl⟩
abbrev main_call4_c_2 : Ref sig .tc := ⟨.hbm, 62, rfl⟩
abbrev main_call4_v7 : Ref sig .tc := ⟨.hbm, 63, rfl⟩
abbrev main_call4_v8 : Ref sig .tc := ⟨.hbm, 64, rfl⟩
abbrev main_call4_c_3 : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_v12 : Ref sig .tc := ⟨.hbm, 69, rfl⟩
abbrev main_call4_v13 : Ref sig .tc := ⟨.hbm, 70, rfl⟩
abbrev main_call4_v14 : Ref sig .tc := ⟨.hbm, 71, rfl⟩
abbrev main_v19 : Ref sig .tc := ⟨.hbm, 72, rfl⟩
abbrev main_c_7 : Ref sig .tc := ⟨.hbm, 73, rfl⟩
abbrev main_call5_v0 : Ref sig .tc := ⟨.hbm, 74, rfl⟩
abbrev main_call5_v1 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_v5 : Ref sig .tc := ⟨.hbm, 79, rfl⟩
abbrev main_call5_v6 : Ref sig .tc := ⟨.hbm, 80, rfl⟩
abbrev main_call5_v7 : Ref sig .tc := ⟨.hbm, 81, rfl⟩
abbrev main_call5_c : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_call5_c_0 : Ref sig .tc := ⟨.hbm, 86, rfl⟩
abbrev main_call5_v11 : Ref sig .tc := ⟨.hbm, 87, rfl⟩
abbrev main_call5_v12 : Ref sig .tc := ⟨.hbm, 88, rfl⟩
abbrev main_v20 : Ref sig .tc := ⟨.hbm, 89, rfl⟩
abbrev main_c_8 : Ref sig .tc := ⟨.hbm, 90, rfl⟩
abbrev main_call6_v0 : Ref sig .tc := ⟨.hbm, 91, rfl⟩
abbrev main_call6_c : Ref sig .tc := ⟨.hbm, 92, rfl⟩
abbrev main_call6_v1 : Ref sig .tc := ⟨.hbm, 93, rfl⟩
abbrev main_call6_c_0 : Ref sig .tc := ⟨.hbm, 94, rfl⟩
abbrev main_call6_v2 : Ref sig .tc := ⟨.hbm, 95, rfl⟩
abbrev main_call6_v3 : Ref sig .tc := ⟨.hbm, 96, rfl⟩
abbrev main_call6_v4 : Ref sig .tc := ⟨.hbm, 97, rfl⟩
abbrev main_call6_c_1 : Ref sig .tc := ⟨.hbm, 98, rfl⟩
abbrev main_call6_v5 : Ref sig .tc := ⟨.hbm, 99, rfl⟩
abbrev main_call6_v6 : Ref sig .tc := ⟨.hbm, 100, rfl⟩
abbrev main_call6_c_2 : Ref sig .tc := ⟨.hbm, 101, rfl⟩
abbrev main_call6_v7 : Ref sig .tc := ⟨.hbm, 102, rfl⟩
abbrev main_call6_v8 : Ref sig .tc := ⟨.hbm, 103, rfl⟩
abbrev main_call6_c_3 : Ref sig .tc := ⟨.hbm, 104, rfl⟩
abbrev main_call6_v9 : Ref sig .tc := ⟨.hbm, 105, rfl⟩
abbrev main_call6_v10 : Ref sig .tc := ⟨.hbm, 106, rfl⟩
abbrev main_call6_v11 : Ref sig .tc := ⟨.hbm, 107, rfl⟩
abbrev main_call6_v12 : Ref sig .tc := ⟨.hbm, 108, rfl⟩
abbrev main_call6_v13 : Ref sig .tc := ⟨.hbm, 109, rfl⟩
abbrev main_call6_v14 : Ref sig .tc := ⟨.hbm, 110, rfl⟩
abbrev main_v21 : Ref sig .tc := ⟨.hbm, 111, rfl⟩
abbrev main_c_9 : Ref sig .tc := ⟨.hbm, 112, rfl⟩
abbrev main_call7_v0 : Ref sig .tc := ⟨.hbm, 113, rfl⟩
abbrev main_call7_v1 : Ref sig .tc := ⟨.hbm, 114, rfl⟩
abbrev main_call7_v2 : Ref sig .tc := ⟨.hbm, 115, rfl⟩
abbrev main_call7_v3 : Ref sig .tc := ⟨.hbm, 116, rfl⟩
abbrev main_call7_v4 : Ref sig .tc := ⟨.hbm, 117, rfl⟩
abbrev main_call7_v5 : Ref sig .tc := ⟨.hbm, 118, rfl⟩
abbrev main_call7_v6 : Ref sig .tc := ⟨.hbm, 119, rfl⟩
abbrev main_call7_v7 : Ref sig .tc := ⟨.hbm, 120, rfl⟩
abbrev main_call7_c : Ref sig .tc := ⟨.hbm, 121, rfl⟩
abbrev main_call7_v8 : Ref sig .tc := ⟨.hbm, 122, rfl⟩
abbrev main_call7_v9 : Ref sig .tc := ⟨.hbm, 123, rfl⟩
abbrev main_call7_v10 : Ref sig .tc := ⟨.hbm, 124, rfl⟩
abbrev main_call7_c_0 : Ref sig .tc := ⟨.hbm, 125, rfl⟩
abbrev main_call7_v11 : Ref sig .tc := ⟨.hbm, 126, rfl⟩
abbrev main_call7_v12 : Ref sig .tc := ⟨.hbm, 127, rfl⟩
abbrev main_v22 : Ref sig .tc := ⟨.hbm, 128, rfl⟩
abbrev main_c_10 : Ref sig .tc := ⟨.hbm, 129, rfl⟩
abbrev main_call8_v0 : Ref sig .tc := ⟨.hbm, 130, rfl⟩
abbrev main_call8_c : Ref sig .tc := ⟨.hbm, 131, rfl⟩
abbrev main_call8_v1 : Ref sig .tc := ⟨.hbm, 132, rfl⟩
abbrev main_call8_c_0 : Ref sig .tc := ⟨.hbm, 133, rfl⟩
abbrev main_call8_v2 : Ref sig .tc := ⟨.hbm, 134, rfl⟩
abbrev main_call8_v3 : Ref sig .tc := ⟨.hbm, 135, rfl⟩
abbrev main_call8_v4 : Ref sig .tc := ⟨.hbm, 136, rfl⟩
abbrev main_call8_c_1 : Ref sig .tc := ⟨.hbm, 137, rfl⟩
abbrev main_call8_v5 : Ref sig .tc := ⟨.hbm, 138, rfl⟩
abbrev main_call8_v6 : Ref sig .tc := ⟨.hbm, 139, rfl⟩
abbrev main_call8_c_2 : Ref sig .tc := ⟨.hbm, 140, rfl⟩
abbrev main_call8_v7 : Ref sig .tc := ⟨.hbm, 141, rfl⟩
abbrev main_call8_v8 : Ref sig .tc := ⟨.hbm, 142, rfl⟩
abbrev main_call8_c_3 : Ref sig .tc := ⟨.hbm, 143, rfl⟩
abbrev main_call8_v9 : Ref sig .tc := ⟨.hbm, 144, rfl⟩
abbrev main_call8_v10 : Ref sig .tc := ⟨.hbm, 145, rfl⟩
abbrev main_call8_v11 : Ref sig .tc := ⟨.hbm, 146, rfl⟩
abbrev main_call8_v12 : Ref sig .tc := ⟨.hbm, 147, rfl⟩
abbrev main_call8_v13 : Ref sig .tc := ⟨.hbm, 148, rfl⟩
abbrev main_call8_v14 : Ref sig .tc := ⟨.hbm, 149, rfl⟩
abbrev main_v23 : Ref sig .tc := ⟨.hbm, 150, rfl⟩
abbrev main_c_11 : Ref sig .tc := ⟨.hbm, 151, rfl⟩
abbrev main_call9_v0 : Ref sig .tc := ⟨.hbm, 152, rfl⟩
abbrev main_call9_v1 : Ref sig .tc := ⟨.hbm, 153, rfl⟩
abbrev main_call9_v2 : Ref sig .tc := ⟨.hbm, 154, rfl⟩
abbrev main_call9_v3 : Ref sig .tc := ⟨.hbm, 155, rfl⟩
abbrev main_call9_v4 : Ref sig .tc := ⟨.hbm, 156, rfl⟩
abbrev main_call9_v5 : Ref sig .tc := ⟨.hbm, 157, rfl⟩
abbrev main_call9_v6 : Ref sig .tc := ⟨.hbm, 158, rfl⟩
abbrev main_call9_v7 : Ref sig .tc := ⟨.hbm, 159, rfl⟩
abbrev main_call9_c : Ref sig .tc := ⟨.hbm, 160, rfl⟩
abbrev main_call9_v8 : Ref sig .tc := ⟨.hbm, 161, rfl⟩
abbrev main_call9_v9 : Ref sig .tc := ⟨.hbm, 162, rfl⟩
abbrev main_call9_v10 : Ref sig .tc := ⟨.hbm, 163, rfl⟩
abbrev main_call9_c_0 : Ref sig .tc := ⟨.hbm, 164, rfl⟩
abbrev main_call9_v11 : Ref sig .tc := ⟨.hbm, 165, rfl⟩
abbrev main_call9_v12 : Ref sig .tc := ⟨.hbm, 166, rfl⟩
abbrev main_v24 : Ref sig .tc := ⟨.hbm, 167, rfl⟩
abbrev main_c_12 : Ref sig .tc := ⟨.hbm, 168, rfl⟩
abbrev main_call10_v0 : Ref sig .tc := ⟨.hbm, 169, rfl⟩
abbrev main_call10_c : Ref sig .tc := ⟨.hbm, 170, rfl⟩
abbrev main_call10_v1 : Ref sig .tc := ⟨.hbm, 171, rfl⟩
abbrev main_call10_c_0 : Ref sig .tc := ⟨.hbm, 172, rfl⟩
abbrev main_call10_v2 : Ref sig .tc := ⟨.hbm, 173, rfl⟩
abbrev main_call10_v3 : Ref sig .tc := ⟨.hbm, 174, rfl⟩
abbrev main_call10_v4 : Ref sig .tc := ⟨.hbm, 175, rfl⟩
abbrev main_call10_c_1 : Ref sig .tc := ⟨.hbm, 176, rfl⟩
abbrev main_call10_v5 : Ref sig .tc := ⟨.hbm, 177, rfl⟩
abbrev main_call10_v6 : Ref sig .tc := ⟨.hbm, 178, rfl⟩
abbrev main_call10_c_2 : Ref sig .tc := ⟨.hbm, 179, rfl⟩
abbrev main_call10_v7 : Ref sig .tc := ⟨.hbm, 180, rfl⟩
abbrev main_call10_v8 : Ref sig .tc := ⟨.hbm, 181, rfl⟩
abbrev main_call10_c_3 : Ref sig .tc := ⟨.hbm, 182, rfl⟩
abbrev main_call10_v9 : Ref sig .tc := ⟨.hbm, 183, rfl⟩
abbrev main_call10_v10 : Ref sig .tc := ⟨.hbm, 184, rfl⟩
abbrev main_call10_v11 : Ref sig .tc := ⟨.hbm, 185, rfl⟩
abbrev main_call10_v12 : Ref sig .tc := ⟨.hbm, 186, rfl⟩
abbrev main_call10_v13 : Ref sig .tc := ⟨.hbm, 187, rfl⟩
abbrev main_call10_v14 : Ref sig .tc := ⟨.hbm, 188, rfl⟩
abbrev main_v25 : Ref sig .tc := ⟨.hbm, 189, rfl⟩
abbrev main_v26 : Ref sig .tc := ⟨.hbm, 190, rfl⟩
abbrev main_v27 : Ref sig .tc := ⟨.hbm, 191, rfl⟩
abbrev main_c_13 : Ref sig .tc := ⟨.hbm, 192, rfl⟩
abbrev main_v28 : Ref sig .tc := ⟨.hbm, 193, rfl⟩
abbrev main_v29 : Ref sig .tc := ⟨.hbm, 194, rfl⟩
abbrev main_v30 : Ref sig .tc := ⟨.hbm, 195, rfl⟩
abbrev main_c_14 : Ref sig .tc := ⟨.hbm, 196, rfl⟩
abbrev main_call11_v0 : Ref sig .tc := ⟨.hbm, 197, rfl⟩
abbrev main_call11_v1 : Ref sig .tc := ⟨.hbm, 198, rfl⟩
abbrev main_v31 : Ref sig .tc := ⟨.hbm, 199, rfl⟩
abbrev main_c_15 : Ref sig .tc := ⟨.hbm, 200, rfl⟩
abbrev main_call12_v0 : Ref sig .tc := ⟨.hbm, 201, rfl⟩
abbrev main_call12_v1 : Ref sig .tc := ⟨.hbm, 202, rfl⟩
abbrev main_v32 : Ref sig .tc := ⟨.hbm, 203, rfl⟩
abbrev main_c_16 : Ref sig .tc := ⟨.hbm, 204, rfl⟩
abbrev main_call13_v0 : Ref sig .tc := ⟨.hbm, 205, rfl⟩
abbrev main_call13_v1 : Ref sig .tc := ⟨.hbm, 206, rfl⟩
abbrev main_v33 : Ref sig .tc := ⟨.hbm, 207, rfl⟩
abbrev main_c_17 : Ref sig .tc := ⟨.hbm, 208, rfl⟩
abbrev main_call14_v0 : Ref sig .tc := ⟨.hbm, 209, rfl⟩
abbrev main_call14_v1 : Ref sig .tc := ⟨.hbm, 210, rfl⟩
abbrev main_v34 : Ref sig .tc := ⟨.hbm, 211, rfl⟩
abbrev main_v35 : Ref sig .tc := ⟨.hbm, 212, rfl⟩
abbrev main_v36 : Ref sig .tc := ⟨.hbm, 213, rfl⟩
abbrev main_v37 : Ref sig .tc := ⟨.hbm, 214, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x1x1024x1024_S16x1x1024x1024_w1s1p0_0_w1s1p0_0_w3s1p1_1_w3s1p1_1 : S16x1x1024x1024.ReduceWindows (![1, 1, 3, 3] : Fin 4 → Nat) ![1, 1, 1, 1] ![0, 0, 1, 1] ![0, 0, 1, 1] S16x1x1024x1024
  h_S_ : 0 < S_.numel
  bcast_S_S16x1x1024x1024 : S_.BroadcastsInDim S16x1x1024x1024 (![] : Fin 0 → Fin S16x1x1024x1024.rank)
  shapeCasts_S16x1x1024x1024_S16777216 : S16x1x1024x1024.ShapeCasts S16777216
  natLt_1_32 : 1 < 32
  reduceWindows_S16777216_S16777216_w16777216s1p16777215_0 : S16777216.ReduceWindows (![16777216] : Fin 1 → Nat) ![1] ![16777215] ![0] S16777216
  bcast_S_S3355443 : S_.BroadcastsInDim S3355443 (![] : Fin 0 → Fin S3355443.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  reduceWindows_S3355443_S3355443_w3355443s1p3355442_0 : S3355443.ReduceWindows (![3355443] : Fin 1 → Nat) ![1] ![3355442] ![0] S3355443
  reducesTo_S16x1x1024x1024_S_d0_1_2_3 : S16x1x1024x1024.ReducesTo [0, 1, 2, 3] S_
  bcast_S3355443_S1x3355443_1 : S3355443.BroadcastsInDim S1x3355443 (![1] : Fin 1 → Fin S1x3355443.rank)
  concatenates_S1x3355443_S1x3355443_S2x3355443_d0 : Shape.Concatenates [S1x3355443, S1x3355443] S2x3355443 0
  scatter_S3355443_S16777216x1_S16777216_n_0_0_1_wf : ScatterDims.WF S3355443 S16777216x1 S16777216 [] [0] [0] 1

variable [Facts₀]

def scatter_S3355443_S16777216x1_S16777216_n_0_0_1 : ScatterDims S3355443 S16777216x1 S16777216 where
  updateWindowDims := []
  insertedWindowDims := [0]
  scatterDimsToOperandDims := [0]
  indexVectorDim := 1
  wf := scatter_S3355443_S16777216x1_S16777216_n_0_0_1_wf

class Facts : Prop extends Facts₀ where

variable [Facts]
-- ==== Proof.KFrame.lean ====
/-
  The frame of the program: @main is one kernel region followed by 209 host operations in 31 stretches.

  The region's kernel, at every grid point b (one image of the batch), loads its input block whole, computes one
  value from it, and stores that value over its whole output block; nothing else is touched. So the proof data
  are: each array as the region finds it, the input's staging buffer at its block, the output's at the stored
  value of the input's block. The body's triple is one symbolic run. The host operations after the region read
  the region's arrays and the buffers that bypass it, allocate nothing, and write only their own result buffers,
  none of which is an array of the region: so the run ends with the region's arrays at what the blocks wrote
  back and every other buffer at the fold of the later operations over the contents at the region's exit.
  Everything here is stated for any float instance.
-/
import proofs.«166666_j11261404250300_1_alg».proof.Proof.Gen.Kernel.Launch
import proofs.«166666_j11261404250300_1_alg».proof.Proof.Gen.Kernel.Skeleton
import proofs.«166666_j11261404250300_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations after the region, in order. -/
abbrev opss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30]

/-- Core `c`'s buffer contents when the region is entered: no host operation comes before it, so they are the
    launch contents. -/
abbrev V0 (c : Dev nD) : Valuation τ sig (Elt F) := StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- Every stretch touches TensorCore references only. -/
theorem opss_sub : (opss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub, hostOps1_29_sub, hostOps1_30_sub⟩

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor
theorem hostOps1_22_fresh : (hostOps1_22 : List (HloOp τ sig (Elt F))).Forall fun op => op.fresh = ∅ := by
  simp only [List.Forall]; repeat' constructor
theorem hostOps1_23_fresh : (hostOps1_23 : List (HloOp τ sig (Elt F))).Forall fun op => op.fresh = ∅ := by
  simp only [List.Forall]; repeat' constructor
theorem hostOps1_24_fresh : (hostOps1_24 : List (HloOp τ sig (Elt F))).Forall fun op => op.fresh = ∅ := by
  simp only [List.Forall]; repeat' constructor
theorem hostOps1_25_fresh : (hostOps1_25 : List (HloOp τ sig (Elt F))).Forall fun op => op.fresh = ∅ := by
  simp only [List.Forall]; repeat' constructor
theorem hostOps1_26_fresh : (hostOps1_26 : List (HloOp τ sig (Elt F))).Forall fun op => op.fresh = ∅ := by
  simp only [List.Forall]; repeat' constructor
theorem hostOps1_27_fresh : (hostOps1_27 : List (HloOp τ sig (Elt F))).Forall fun op => op.fresh = ∅ := by
  simp only [List.Forall]; repeat' constructor
theorem hostOps1_28_fresh : (hostOps1_28 : List (HloOp τ sig (Elt F))).Forall fun op => op.fresh = ∅ := by
  simp only [List.Forall]; repeat' constructor
theorem hostOps1_29_fresh : (hostOps1_29 : List (HloOp τ sig (Elt F))).Forall fun op => op.fresh = ∅ := by
  simp only [List.Forall]; repeat' constructor
theorem hostOps1_30_fresh : (hostOps1_30 : List (HloOp τ sig (Elt F))).Forall fun op => op.fresh = ∅ := by
  simp only [List.Forall]; repeat' constructor

/-- No stretch allocates. -/
theorem opss_fresh : (opss : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh, hostOps1_20_fresh, hostOps1_21_fresh, hostOps1_22_fresh, hostOps1_23_fresh, hostOps1_24_fresh, hostOps1_25_fresh, hostOps1_26_fresh, hostOps1_27_fresh, hostOps1_28_fresh, hostOps1_29_fresh, hostOps1_30_fresh⟩

/-- Closes "this literal stretch writes no array of the region": every operation writes the one buffer that holds
    its result, and that buffer is neither of the region's two arrays (the references are compared by evaluation). -/
local macro "keeps_stretch" : tactic =>
  `(tactic| (simp only [List.Forall]
             repeat' apply And.intro
             all_goals (intro w; fin_cases w <;> simp only [StableHlo.nullary_writes, StableHlo.unary_writes, StableHlo.binary_writes,
               StableHlo.ternary_writes, StableHlo.quaternary_writes, StableHlo.reshape_writes, StableHlo.binaryIndexed_writes,
               Finset.mem_singleton] <;> exact StableHlo.devRef_ne_of_ne (by decide))))

theorem hostOps1_keeps : (hostOps1 : List (HloOp τ sig (Elt F))).Forall fun op => ∀ w, Proc.devRef .tc (Pipeline.arrRef spec0 w) ∉ op.writes := by
  keeps_stretch
theorem hostOps1_1_keeps : (hostOps1_1 : List (HloOp τ sig (Elt F))).Forall fun op => ∀ w, Proc.devRef .tc (Pipeline.arrRef spec0 w) ∉ op.writes := by
  keeps_stretch
theorem hostOps1_2_keeps : (hostOps1_2 : List (HloOp τ sig (Elt F))).Forall fun op => ∀ w, Proc.devRef .tc (Pipeline.arrRef spec0 w) ∉ op.writes := by
  keeps_stretch
theorem hostOps1_3_keeps : (hostOps1_3 : List (HloOp τ sig (Elt F))).Forall fun op => ∀ w, Proc.devRef .tc (Pipeline.arrRef spec0 w) ∉ op.writes := by
  keeps_stretch
theorem hostOps1_4_keeps : (hostOps1_4 : List (HloOp τ sig (Elt F))).Forall fun op => ∀ w, Proc.devRef .tc (Pipeline.arrRef spec0 w) ∉ op.writes := by
  keeps_stretch
theorem hostOps1_5_keeps : (hostOps1_5 : List (HloOp τ sig (Elt F))).Forall fun op => ∀ w, Proc.devRef .tc (Pipeline.arrRef spec0 w) ∉ op.writes := by
  keeps_stretch
theorem hostOps1_6_keeps : (hostOps1_6 : List (HloOp τ sig (Elt F))).Forall fun op => ∀ w, Proc.devRef .tc (Pipeline.arrRef spec0 w) ∉ op.writes := by
  keeps_stretch
theorem hostOps1_7_keeps : (hostOps1_7 : List (HloOp τ sig (Elt F))).Forall fun op => ∀ w, Proc.devRef .tc (Pipeline.arrRef spec0 w) ∉ op.writes := by
  keeps_stretch
theorem hostOps1_8_keeps : (hostOps1_8 : List (HloOp τ sig (Elt F))).Forall fun op => ∀ w, Proc.devRef .tc (Pipeline.arrRef spec0 w) ∉ op.writes := by
  keeps_stretch
theorem hostOps1_9_keeps : (hostOps1_9 : List (HloOp τ sig (Elt F))).Forall fun op => ∀ w, Proc.devRef .tc (Pipeline.arrRef spec0 w) ∉ op.writes := by
  keeps_stretch
theorem hostOps1_10_keeps : (hostOps1_10 : List (HloOp τ sig (Elt F))).Forall fun op => ∀ w, Proc.devRef .tc (Pipeline.arrRef spec0 w) ∉ op.writes := by
  keeps_stretch
theorem hostOps1_11_keeps : (hostOps1_11 : List (HloOp τ sig (Elt F))).Forall fun op => ∀ w, Proc.devRef .tc (Pipeline.arrRef spec0 w) ∉ op.writes := by
  keeps_stretch
theorem hostOps1_12_keeps : (hostOps1_12 : List (HloOp τ sig (Elt F))).Forall fun op => ∀ w, Proc.devRef .tc (Pipeline.arrRef spec0 w) ∉ op.writes := by
  keeps_stretch
theorem hostOps1_13_keeps : (hostOps1_13 : List (HloOp τ sig (Elt F))).Forall fun op => ∀ w, Proc.devRef .tc (Pipeline.arrRef spec0 w) ∉ op.writes := by
  keeps_stretch
theorem hostOps1_14_keeps : (hostOps1_14 : List (HloOp τ sig (Elt F))).Forall fun op => ∀ w, Proc.devRef .tc (Pipeline.arrRef spec0 w) ∉ op.writes := by
  keeps_stretch
theorem hostOps1_15_keeps : (hostOps1_15 : List (HloOp τ sig (Elt F))).Forall fun op => ∀ w, Proc.devRef .tc (Pipeline.arrRef spec0 w) ∉ op.writes := by
  keeps_stretch
theorem hostOps1_16_keeps : (hostOps1_16 : List (HloOp τ sig (Elt F))).Forall fun op => ∀ w, Proc.devRef .tc (Pipeline.arrRef spec0 w) ∉ op.writes := by
  keeps_stretch
theorem hostOps1_17_keeps : (hostOps1_17 : List (HloOp τ sig (Elt F))).Forall fun op => ∀ w, Proc.devRef .tc (Pipeline.arrRef spec0 w) ∉ op.writes := by
  keeps_stretch
theorem hostOps1_18_keeps : (hostOps1_18 : List (HloOp τ sig (Elt F))).Forall fun op => ∀ w, Proc.devRef .tc (Pipeline.arrRef spec0 w) ∉ op.writes := by
  keeps_stretch
theorem hostOps1_19_keeps : (hostOps1_19 : List (HloOp τ sig (Elt F))).Forall fun op => ∀ w, Proc.devRef .tc (Pipeline.arrRef spec0 w) ∉ op.writes := by
  keeps_stretch
theorem hostOps1_20_keeps : (hostOps1_20 : List (HloOp τ sig (Elt F))).Forall fun op => ∀ w, Proc.devRef .tc (Pipeline.arrRef spec0 w) ∉ op.writes := by
  keeps_stretch
theorem hostOps1_21_keeps : (hostOps1_21 : List (HloOp τ sig (Elt F))).Forall fun op => ∀ w, Proc.devRef .tc (Pipeline.arrRef spec0 w) ∉ op.writes := by
  keeps_stretch
theorem hostOps1_22_keeps : (hostOps1_22 : List (HloOp τ sig (Elt F))).Forall fun op => ∀ w, Proc.devRef .tc (Pipeline.arrRef spec0 w) ∉ op.writes := by
  keeps_stretch
theorem hostOps1_23_keeps : (hostOps1_23 : List (HloOp τ sig (Elt F))).Forall fun op => ∀ w, Proc.devRef .tc (Pipeline.arrRef spec0 w) ∉ op.writes := by
  keeps_stretch
theorem hostOps1_24_keeps : (hostOps1_24 : List (HloOp τ sig (Elt F))).Forall fun op => ∀ w, Proc.devRef .tc (Pipeline.arrRef spec0 w) ∉ op.writes := by
  keeps_stretch
theorem hostOps1_25_keeps : (hostOps1_25 : List (HloOp τ sig (Elt F))).Forall fun op => ∀ w, Proc.devRef .tc (Pipeline.arrRef spec0 w) ∉ op.writes := by
  keeps_stretch
theorem hostOps1_26_keeps : (hostOps1_26 : List (HloOp τ sig (Elt F))).Forall fun op => ∀ w, Proc.devRef .tc (Pipeline.arrRef spec0 w) ∉ op.writes := by
  keeps_stretch
theorem hostOps1_27_keeps : (hostOps1_27 : List (HloOp τ sig (Elt F))).Forall fun op => ∀ w, Proc.devRef .tc (Pipeline.arrRef spec0 w) ∉ op.writes := by
  keeps_stretch
theorem hostOps1_28_keeps : (hostOps1_28 : List (HloOp τ sig (Elt F))).Forall fun op => ∀ w, Proc.devRef .tc (Pipeline.arrRef spec0 w) ∉ op.writes := by
  keeps_stretch
theorem hostOps1_29_keeps : (hostOps1_29 : List (HloOp τ sig (Elt F))).Forall fun op => ∀ w, Proc.devRef .tc (Pipeline.arrRef spec0 w) ∉ op.writes := by
  keeps_stretch
theorem hostOps1_30_keeps : (hostOps1_30 : List (HloOp τ sig (Elt F))).Forall fun op => ∀ w, Proc.devRef .tc (Pipeline.arrRef spec0 w) ∉ op.writes := by
  keeps_stretch

/-- No stretch writes an array of the region. -/
theorem opss_keeps : (opss : List (List (HloOp τ sig (Elt F)))).Forall fun ops => ops.Forall fun op =>
    ∀ w, Proc.devRef .tc (Pipeline.arrRef spec0 w) ∉ op.writes :=
  ⟨hostOps1_keeps, hostOps1_1_keeps, hostOps1_2_keeps, hostOps1_3_keeps, hostOps1_4_keeps, hostOps1_5_keeps, hostOps1_6_keeps, hostOps1_7_keeps, hostOps1_8_keeps, hostOps1_9_keeps, hostOps1_10_keeps, hostOps1_11_keeps, hostOps1_12_keeps, hostOps1_13_keeps, hostOps1_14_keeps, hostOps1_15_keeps, hostOps1_16_keeps, hostOps1_17_keeps, hostOps1_18_keeps, hostOps1_19_keeps, hostOps1_20_keeps, hostOps1_21_keeps, hostOps1_22_keeps, hostOps1_23_keeps, hostOps1_24_keeps, hostOps1_25_keeps, hostOps1_26_keeps, hostOps1_27_keeps, hostOps1_28_keeps, hostOps1_29_keeps, hostOps1_30_keeps⟩

/-- @main is the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opss (F := F)).map StableHlo.seq)) :=
  Pipeline.hmain_around cfgs 0 defs₀ 𝒱₀ m main [] opss (by simp only [List.Forall]) (by simp only [List.Forall]) main_chain

/-- The later stretches touch the region's arrays and the buffers that bypass it only. -/
theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp opss_sub) ops hops)) op hop)
/-- They allocate nothing. -/
theorem sfx_fresh : ∀ ops ∈ (opss : List (List (HloOp τ sig (Elt F)))), ∀ op ∈ ops, op.fresh = ∅ :=
  fun ops hops op hop => (List.forall_iff_forall_mem.mp ((List.forall_iff_forall_mem.mp opss_fresh) ops hops)) op hop
/-- And write no array of the region. -/
theorem sfx_keeps : ∀ ops ∈ (opss : List (List (HloOp τ sig (Elt F)))), ∀ op ∈ ops,
    ∀ w, Proc.devRef .tc (Pipeline.arrRef spec0 w) ∉ op.writes :=
  fun ops hops op hop => (List.forall_iff_forall_mem.mp ((List.forall_iff_forall_mem.mp opss_keeps) ops hops)) op hop

/-- The region finds `main_arg0` as launched. -/
theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is
    the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev r0_0 : Rect S1x1x1024x1024 := Rect.unit (s := S1x1x1024x1024) ![0, 0, 0, 0] S1x1x1024x1024.size inb_S1x1x1024x1024_S1x1x1024x1024_0_0_0_0

/-- The output window's staging buffer after the body, from the input window's block: the one whole-block store. -/
def out0_1 (x0 : Vec F S1x1x1024x1024 .f32) : Vec F S1x1x1024x1024 .i32 :=
  View.canon [⟨r0_0, k0_pay1 (View.ld x0 r0_0)⟩]

/-- The store's rectangle is the whole buffer, so it covers it. -/
theorem cover0_1 (p0 : Vec F S1x1x1024x1024 .i32) (y : S1x1x1024x1024.Idx) :
    ∃ pc ∈ ([⟨r0_0, p0⟩] : List (View.Piece (Elt F) S1x1x1024x1024 .i32)), y ∈ pc.1.set :=
  View.cover_of_tiled [⟨r0_0, p0⟩] S1x1x1024x1024.size (by rfl) y

set_option maxHeartbeats 1000000 in
/-- The kernel body on whole staging memrefs, the input's at read contents `x0` and the output's at anything, runs to
    the continuation holding the input's as it was and the output's at `out0_1 x0`. -/
theorem sound_kernel (c : Dev nD) (E : Set ℕ) (i : grid0.Coords) (arg1 : Memref sig .tc .vmem S1x1x1024x1024 .f32) (harg1 : arg1.IsWhole) (arg2 : Memref sig .tc .vmem S1x1x1024x1024 .i32) (harg2 : arg2.IsWhole)
    (x0 : Vec F S1x1x1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__nms_mask_kernel i arg1 harg1 arg2 harg2) K := by
  simp only [cc0__nms_mask_kernel_eq_skeleton]; unfold cc0__nms_mask_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- The proof data of the pipeline on core `c`: the arrays as the region finds them; after the body at point `t` the
    input's buffer at its block and the output's at `out0_1` of the input's block; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the region at what the blocks wrote back and every other unscoped buffer as the later stretches leave it. -/
theorem run_main : θ_run defs (onTc (τ := τ) (main (F := F))) (s₀ m ρ) (Pipeline.FramePost cfgs (dats m) 0 (Pipeline.afterTail₀ cfgs (dats m) 0 (V0 m) opss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hΦ := fun _ _ => rfl)

/-- The frame: the argument array is the input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c)))) (run_main m ρ)

end Cert.Kernel.Fr

end
-- ==== Proof.KIFrame.lean ====
/-
  The frame of the program: @main is one kernel region followed by 209 host operations in 31 stretches.

  The region's kernel, at every grid point b (one image of the batch), loads its input block whole, computes one
  value from it, and stores that value over its whole output block; nothing else is touched. So the proof data
  are: each array as the region finds it, the input's staging buffer at its block, the output's at the stored
  value of the input's block. The body's triple is one symbolic run. The host operations after the region read
  the region's arrays and the buffers that bypass it, allocate nothing, and write only their own result buffers,
  none of which is an array of the region: so the run ends with the region's arrays at what the blocks wrote
  back and every other buffer at the fold of the later operations over the contents at the region's exit.
  Everything here is stated for any float instance.
-/
import proofs.«166666_j11261404250300_1_alg».proof.Proof.Gen.KernelIdeal.Launch
import proofs.«166666_j11261404250300_1_alg».proof.Proof.Gen.KernelIdeal.Skeleton
import proofs.«166666_j11261404250300_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations after the region, in order. -/
abbrev opss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30]

/-- Core `c`'s buffer contents when the region is entered: no host operation comes before it, so they are the
    launch contents. -/
abbrev V0 (c : Dev nD) : Valuation τ sig (Elt F) := StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- Every stretch touches TensorCore references only. -/
theorem opss_sub : (opss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub, hostOps1_29_sub, hostOps1_30_sub⟩

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor
theorem hostOps1_22_fresh : (hostOps1_22 : List (HloOp τ sig (Elt F))).Forall fun op => op.fresh = ∅ := by
  simp only [List.Forall]; repeat' constructor
theorem hostOps1_23_fresh : (hostOps1_23 : List (HloOp τ sig (Elt F))).Forall fun op => op.fresh = ∅ := by
  simp only [List.Forall]; repeat' constructor
theorem hostOps1_24_fresh : (hostOps1_24 : List (HloOp τ sig (Elt F))).Forall fun op => op.fresh = ∅ := by
  simp only [List.Forall]; repeat' constructor
theorem hostOps1_25_fresh : (hostOps1_25 : List (HloOp τ sig (Elt F))).Forall fun op => op.fresh = ∅ := by
  simp only [List.Forall]; repeat' constructor
theorem hostOps1_26_fresh : (hostOps1_26 : List (HloOp τ sig (Elt F))).Forall fun op => op.fresh = ∅ := by
  simp only [List.Forall]; repeat' constructor
theorem hostOps1_27_fresh : (hostOps1_27 : List (HloOp τ sig (Elt F))).Forall fun op => op.fresh = ∅ := by
  simp only [List.Forall]; repeat' constructor
theorem hostOps1_28_fresh : (hostOps1_28 : List (HloOp τ sig (Elt F))).Forall fun op => op.fresh = ∅ := by
  simp only [List.Forall]; repeat' constructor
theorem hostOps1_29_fresh : (hostOps1_29 : List (HloOp τ sig (Elt F))).Forall fun op => op.fresh = ∅ := by
  simp only [List.Forall]; repeat' constructor
theorem hostOps1_30_fresh : (hostOps1_30 : List (HloOp τ sig (Elt F))).Forall fun op => op.fresh = ∅ := by
  simp only [List.Forall]; repeat' constructor

/-- No stretch allocates. -/
theorem opss_fresh : (opss : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh, hostOps1_13_fresh, hostOps1_14_fresh, hostOps1_15_fresh, hostOps1_16_fresh, hostOps1_17_fresh, hostOps1_18_fresh, hostOps1_19_fresh, hostOps1_20_fresh, hostOps1_21_fresh, hostOps1_22_fresh, hostOps1_23_fresh, hostOps1_24_fresh, hostOps1_25_fresh, hostOps1_26_fresh, hostOps1_27_fresh, hostOps1_28_fresh, hostOps1_29_fresh, hostOps1_30_fresh⟩

/-- Closes "this literal stretch writes no array of the region": every operation writes the one buffer that holds
    its result, and that buffer is neither of the region's two arrays (the references are compared by evaluation). -/
local macro "keeps_stretch" : tactic =>
  `(tactic| (simp only [List.Forall]
             repeat' apply And.intro
             all_goals (intro w; fin_cases w <;> simp only [StableHlo.nullary_writes, StableHlo.unary_writes, StableHlo.binary_writes,
               StableHlo.ternary_writes, StableHlo.quaternary_writes, StableHlo.reshape_writes, StableHlo.binaryIndexed_writes,
               Finset.mem_singleton] <;> exact StableHlo.devRef_ne_of_ne (by decide))))

theorem hostOps1_keeps : (hostOps1 : List (HloOp τ sig (Elt F))).Forall fun op => ∀ w, Proc.devRef .tc (Pipeline.arrRef spec0 w) ∉ op.writes := by
  keeps_stretch
theorem hostOps1_1_keeps : (hostOps1_1 : List (HloOp τ sig (Elt F))).Forall fun op => ∀ w, Proc.devRef .tc (Pipeline.arrRef spec0 w) ∉ op.writes := by
  keeps_stretch
theorem hostOps1_2_keeps : (hostOps1_2 : List (HloOp τ sig (Elt F))).Forall fun op => ∀ w, Proc.devRef .tc (Pipeline.arrRef spec0 w) ∉ op.writes := by
  keeps_stretch
theorem hostOps1_3_keeps : (hostOps1_3 : List (HloOp τ sig (Elt F))).Forall fun op => ∀ w, Proc.devRef .tc (Pipeline.arrRef spec0 w) ∉ op.writes := by
  keeps_stretch
theorem hostOps1_4_keeps : (hostOps1_4 : List (HloOp τ sig (Elt F))).Forall fun op => ∀ w, Proc.devRef .tc (Pipeline.arrRef spec0 w) ∉ op.writes := by
  keeps_stretch
theorem hostOps1_5_keeps : (hostOps1_5 : List (HloOp τ sig (Elt F))).Forall fun op => ∀ w, Proc.devRef .tc (Pipeline.arrRef spec0 w) ∉ op.writes := by
  keeps_stretch
theorem hostOps1_6_keeps : (hostOps1_6 : List (HloOp τ sig (Elt F))).Forall fun op => ∀ w, Proc.devRef .tc (Pipeline.arrRef spec0 w) ∉ op.writes := by
  keeps_stretch
theorem hostOps1_7_keeps : (hostOps1_7 : List (HloOp τ sig (Elt F))).Forall fun op => ∀ w, Proc.devRef .tc (Pipeline.arrRef spec0 w) ∉ op.writes := by
  keeps_stretch
theorem hostOps1_8_keeps : (hostOps1_8 : List (HloOp τ sig (Elt F))).Forall fun op => ∀ w, Proc.devRef .tc (Pipeline.arrRef spec0 w) ∉ op.writes := by
  keeps_stretch
theorem hostOps1_9_keeps : (hostOps1_9 : List (HloOp τ sig (Elt F))).Forall fun op => ∀ w, Proc.devRef .tc (Pipeline.arrRef spec0 w) ∉ op.writes := by
  keeps_stretch
theorem hostOps1_10_keeps : (hostOps1_10 : List (HloOp τ sig (Elt F))).Forall fun op => ∀ w, Proc.devRef .tc (Pipeline.arrRef spec0 w) ∉ op.writes := by
  keeps_stretch
theorem hostOps1_11_keeps : (hostOps1_11 : List (HloOp τ sig (Elt F))).Forall fun op => ∀ w, Proc.devRef .tc (Pipeline.arrRef spec0 w) ∉ op.writes := by
  keeps_stretch
theorem hostOps1_12_keeps : (hostOps1_12 : List (HloOp τ sig (Elt F))).Forall fun op => ∀ w, Proc.devRef .tc (Pipeline.arrRef spec0 w) ∉ op.writes := by
  keeps_stretch
theorem hostOps1_13_keeps : (hostOps1_13 : List (HloOp τ sig (Elt F))).Forall fun op => ∀ w, Proc.devRef .tc (Pipeline.arrRef spec0 w) ∉ op.writes := by
  keeps_stretch
theorem hostOps1_14_keeps : (hostOps1_14 : List (HloOp τ sig (Elt F))).Forall fun op => ∀ w, Proc.devRef .tc (Pipeline.arrRef spec0 w) ∉ op.writes := by
  keeps_stretch
theorem hostOps1_15_keeps : (hostOps1_15 : List (HloOp τ sig (Elt F))).Forall fun op => ∀ w, Proc.devRef .tc (Pipeline.arrRef spec0 w) ∉ op.writes := by
  keeps_stretch
theorem hostOps1_16_keeps : (hostOps1_16 : List (HloOp τ sig (Elt F))).Forall fun op => ∀ w, Proc.devRef .tc (Pipeline.arrRef spec0 w) ∉ op.writes := by
  keeps_stretch
theorem hostOps1_17_keeps : (hostOps1_17 : List (HloOp τ sig (Elt F))).Forall fun op => ∀ w, Proc.devRef .tc (Pipeline.arrRef spec0 w) ∉ op.writes := by
  keeps_stretch
theorem hostOps1_18_keeps : (hostOps1_18 : List (HloOp τ sig (Elt F))).Forall fun op => ∀ w, Proc.devRef .tc (Pipeline.arrRef spec0 w) ∉ op.writes := by
  keeps_stretch
theorem hostOps1_19_keeps : (hostOps1_19 : List (HloOp τ sig (Elt F))).Forall fun op => ∀ w, Proc.devRef .tc (Pipeline.arrRef spec0 w) ∉ op.writes := by
  keeps_stretch
theorem hostOps1_20_keeps : (hostOps1_20 : List (HloOp τ sig (Elt F))).Forall fun op => ∀ w, Proc.devRef .tc (Pipeline.arrRef spec0 w) ∉ op.writes := by
  keeps_stretch
theorem hostOps1_21_keeps : (hostOps1_21 : List (HloOp τ sig (Elt F))).Forall fun op => ∀ w, Proc.devRef .tc (Pipeline.arrRef spec0 w) ∉ op.writes := by
  keeps_stretch
theorem hostOps1_22_keeps : (hostOps1_22 : List (HloOp τ sig (Elt F))).Forall fun op => ∀ w, Proc.devRef .tc (Pipeline.arrRef spec0 w) ∉ op.writes := by
  keeps_stretch
theorem hostOps1_23_keeps : (hostOps1_23 : List (HloOp τ sig (Elt F))).Forall fun op => ∀ w, Proc.devRef .tc (Pipeline.arrRef spec0 w) ∉ op.writes := by
  keeps_stretch
theorem hostOps1_24_keeps : (hostOps1_24 : List (HloOp τ sig (Elt F))).Forall fun op => ∀ w, Proc.devRef .tc (Pipeline.arrRef spec0 w) ∉ op.writes := by
  keeps_stretch
theorem hostOps1_25_keeps : (hostOps1_25 : List (HloOp τ sig (Elt F))).Forall fun op => ∀ w, Proc.devRef .tc (Pipeline.arrRef spec0 w) ∉ op.writes := by
  keeps_stretch
theorem hostOps1_26_keeps : (hostOps1_26 : List (HloOp τ sig (Elt F))).Forall fun op => ∀ w, Proc.devRef .tc (Pipeline.arrRef spec0 w) ∉ op.writes := by
  keeps_stretch
theorem hostOps1_27_keeps : (hostOps1_27 : List (HloOp τ sig (Elt F))).Forall fun op => ∀ w, Proc.devRef .tc (Pipeline.arrRef spec0 w) ∉ op.writes := by
  keeps_stretch
theorem hostOps1_28_keeps : (hostOps1_28 : List (HloOp τ sig (Elt F))).Forall fun op => ∀ w, Proc.devRef .tc (Pipeline.arrRef spec0 w) ∉ op.writes := by
  keeps_stretch
theorem hostOps1_29_keeps : (hostOps1_29 : List (HloOp τ sig (Elt F))).Forall fun op => ∀ w, Proc.devRef .tc (Pipeline.arrRef spec0 w) ∉ op.writes := by
  keeps_stretch
theorem hostOps1_30_keeps : (hostOps1_30 : List (HloOp τ sig (Elt F))).Forall fun op => ∀ w, Proc.devRef .tc (Pipeline.arrRef spec0 w) ∉ op.writes := by
  keeps_stretch

/-- No stretch writes an array of the region. -/
theorem opss_keeps : (opss : List (List (HloOp τ sig (Elt F)))).Forall fun ops => ops.Forall fun op =>
    ∀ w, Proc.devRef .tc (Pipeline.arrRef spec0 w) ∉ op.writes :=
  ⟨hostOps1_keeps, hostOps1_1_keeps, hostOps1_2_keeps, hostOps1_3_keeps, hostOps1_4_keeps, hostOps1_5_keeps, hostOps1_6_keeps, hostOps1_7_keeps, hostOps1_8_keeps, hostOps1_9_keeps, hostOps1_10_keeps, hostOps1_11_keeps, hostOps1_12_keeps, hostOps1_13_keeps, hostOps1_14_keeps, hostOps1_15_keeps, hostOps1_16_keeps, hostOps1_17_keeps, hostOps1_18_keeps, hostOps1_19_keeps, hostOps1_20_keeps, hostOps1_21_keeps, hostOps1_22_keeps, hostOps1_23_keeps, hostOps1_24_keeps, hostOps1_25_keeps, hostOps1_26_keeps, hostOps1_27_keeps, hostOps1_28_keeps, hostOps1_29_keeps, hostOps1_30_keeps⟩

/-- @main is the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opss (F := F)).map StableHlo.seq)) :=
  Pipeline.hmain_around cfgs 0 defs₀ 𝒱₀ m main [] opss (by simp only [List.Forall]) (by simp only [List.Forall]) main_chain

/-- The later stretches touch the region's arrays and the buffers that bypass it only. -/
theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp opss_sub) ops hops)) op hop)
/-- They allocate nothing. -/
theorem sfx_fresh : ∀ ops ∈ (opss : List (List (HloOp τ sig (Elt F)))), ∀ op ∈ ops, op.fresh = ∅ :=
  fun ops hops op hop => (List.forall_iff_forall_mem.mp ((List.forall_iff_forall_mem.mp opss_fresh) ops hops)) op hop
/-- And write no array of the region. -/
theorem sfx_keeps : ∀ ops ∈ (opss : List (List (HloOp τ sig (Elt F)))), ∀ op ∈ ops,
    ∀ w, Proc.devRef .tc (Pipeline.arrRef spec0 w) ∉ op.writes :=
  fun ops hops op hop => (List.forall_iff_forall_mem.mp ((List.forall_iff_forall_mem.mp opss_keeps) ops hops)) op hop

/-- The region finds `main_arg0` as launched. -/
theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is
    the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev r0_0 : Rect S1x1x1024x1024 := Rect.unit (s := S1x1x1024x1024) ![0, 0, 0, 0] S1x1x1024x1024.size inb_S1x1x1024x1024_S1x1x1024x1024_0_0_0_0

/-- The output window's staging buffer after the body, from the input window's block: the one whole-block store. -/
def out0_1 (x0 : Vec F S1x1x1024x1024 .f32) : Vec F S1x1x1024x1024 .i32 :=
  View.canon [⟨r0_0, k0_pay1 (View.ld x0 r0_0)⟩]

/-- The store's rectangle is the whole buffer, so it covers it. -/
theorem cover0_1 (p0 : Vec F S1x1x1024x1024 .i32) (y : S1x1x1024x1024.Idx) :
    ∃ pc ∈ ([⟨r0_0, p0⟩] : List (View.Piece (Elt F) S1x1x1024x1024 .i32)), y ∈ pc.1.set :=
  View.cover_of_tiled [⟨r0_0, p0⟩] S1x1x1024x1024.size (by rfl) y

set_option maxHeartbeats 1000000 in
/-- The kernel body on whole staging memrefs, the input's at read contents `x0` and the output's at anything, runs to
    the continuation holding the input's as it was and the output's at `out0_1 x0`. -/
theorem sound_kernel (c : Dev nD) (E : Set ℕ) (i : grid0.Coords) (arg1 : Memref sig .tc .vmem S1x1x1024x1024 .f32) (harg1 : arg1.IsWhole) (arg2 : Memref sig .tc .vmem S1x1x1024x1024 .i32) (harg2 : arg2.IsWhole)
    (x0 : Vec F S1x1x1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__nms_mask_kernel i arg1 harg1 arg2 harg2) K := by
  simp only [cc0__nms_mask_kernel_eq_skeleton]; unfold cc0__nms_mask_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- The proof data of the pipeline on core `c`: the arrays as the region finds them; after the body at point `t` the
    input's buffer at its block and the output's at `out0_1` of the input's block; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the region at what the blocks wrote back and every other unscoped buffer as the later stretches leave it. -/
theorem run_main : θ_run defs (onTc (τ := τ) (main (F := F))) (s₀ m ρ) (Pipeline.FramePost cfgs (dats m) 0 (Pipeline.afterTail₀ cfgs (dats m) 0 (V0 m) opss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hΦ := fun _ _ => rfl)

/-- The frame: the argument array is the input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c)))) (run_main m ρ)

end Cert.KernelIdeal.Fr

end
-- ==== Proof.KIValue.lean ====
/-
  From blocks to the array. The kernel's grid has sixteen points, one per image of the batch; at point b the input
  window's block is image b whole (a [1, 1, 1024, 1024] slab at block index (b, 0, 0, 0)) and the output window's block
  is the same slab of the result. So if the body's stored value, read at row r and column c of the block, is a function
  `Gf X` of the whole input array X read at (b, 0, r, c), then what point b writes back is slab b of `Gf X`; the sixteen
  slabs cover the array; hence the result array ends as `Gf X` whole.
-/
import proofs.«166666_j11261404250300_1_alg».proof.Proof.KIFrame
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

theorem hz4 : (![0, 0, 0, 0] : Fin 4 → Nat) = fun _ => 0 := funext fun a => by fin_cases a <;> rfl

/-- The printed index maps, decided over the grid: at point t both windows sit at block index (t, 0, 0, 0). -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

section Blocks

variable (Gf : (S16x1x1024x1024.Idx → Elt F .f32) → S16x1x1024x1024.Idx → BitVec 32)
variable (hpay : ∀ (v0 : Vec F S1x1x1024x1024 .f32) (X : S16x1x1024x1024.Idx → Elt F .f32) (b : Fin 16),
    (∀ r c : Fin 1024, v0 (ix4 (0 : Fin 1) (0 : Fin 1) r c) = X (ix4 b (0 : Fin 1) r c)) →
    ∀ r c : Fin 1024, k0_pay1 v0 (ix4 (0 : Fin 1) (0 : Fin 1) r c) = Gf X (ix4 b (0 : Fin 1) r c))

include hpay in
/-- The body's stored value at any index of the block. -/
theorem pay_block (x0 : Vec F S1x1x1024x1024 .f32) (X : S16x1x1024x1024.Idx → Elt F .f32) (b : Fin 16)
    (hv : ∀ r c : Fin 1024, x0 (ix4 (0 : Fin 1) (0 : Fin 1) r c) = X (ix4 b (0 : Fin 1) r c)) (y : S1x1x1024x1024.Idx) :
    k0_pay1 x0 y = Gf X (ix4 b (0 : Fin 1) (y 2) (y 3)) := by
  obtain ⟨a0, a1, r, cc, rfl⟩ : ∃ (a0 : Fin 1) (a1 : Fin 1) (r cc : Fin 1024), y = ix4 a0 a1 r cc := ⟨y 0, y 1, y 2, y 3, eq_ix4 y⟩
  obtain rfl : a0 = 0 := Subsingleton.elim _ _
  obtain rfl : a1 = 0 := Subsingleton.elim _ _
  exact hpay x0 X b hv r cc

include hpay in
/-- What point t writes back is slab t of `Gf` of the input array as the region finds it. -/
theorem flushed_eq (c : Dev nD) (t : Fin cfg0.N) :
    (dats m 0 c).flushed 1 t = ((cfg0.win 1).blk t).view.read (Elt F) (Gf (V m c main_arg0)) := by
  show (cfg0.win 1).cut (grid0.coords t) ((dats m 0 c).after 1 t) = _
  rw [after0_1]
  unfold out0_1
  rw [View.canon_unit_zero hz4]
  simp only [View.ld_unit_zero (S := S1x1x1024x1024) hz4]
  obtain ⟨e0, e1, e2, e3, f0, f1, f2, f3⟩ := idx_facts t
  have ht : t.val < 16 := by have h := t.isLt; have hN : cfg0.N = 16 := N_0; omega
  funext j
  refine (pay_block Gf hpay (iblk m c 0 t) (V m c main_arg0) ⟨t.val, ht⟩ (fun r cc => ?_) j).trans ?_
  · show V m c main_arg0 (((cfg0.win 0).blk t).view.emb (ix4 (0 : Fin 1) (0 : Fin 1) r cc)) = V m c main_arg0 (ix4 (⟨t.val, ht⟩ : Fin 16) (0 : Fin 1) r cc)
    refine congrArg (V m c main_arg0) ?_
    funext a; apply Fin.ext
    match a with
    | ⟨0, _⟩ => show win0_0.index t (0 : Fin 4) * 1 + 1 * 0 = t.val; omega
    | ⟨1, _⟩ => show win0_0.index t (1 : Fin 4) * 1 + 1 * 0 = 0; omega
    | ⟨2, _⟩ => show win0_0.index t (2 : Fin 4) * 1024 + 1 * r.val = r.val; omega
    | ⟨3, _⟩ => show win0_0.index t (3 : Fin 4) * 1024 + 1 * cc.val = cc.val; omega
  · show Gf (V m c main_arg0) (ix4 (⟨t.val, ht⟩ : Fin 16) (0 : Fin 1) (j 2) (j 3)) = Gf (V m c main_arg0) (((cfg0.win 1).blk t).view.emb j)
    refine congrArg (Gf (V m c main_arg0)) ?_
    funext a; apply Fin.ext
    match a with
    | ⟨0, _⟩ => show t.val = win0_1.index t (0 : Fin 4) * 1 + 1 * (j 0).val; have hj : (j 0).val < 1 := (j 0).isLt; omega
    | ⟨1, _⟩ => show 0 = win0_1.index t (1 : Fin 4) * 1 + 1 * (j 1).val; have hj : (j 1).val < 1 := (j 1).isLt; omega
    | ⟨2, _⟩ => show (j 2).val = win0_1.index t (2 : Fin 4) * 1024 + 1 * (j 2).val; omega
    | ⟨3, _⟩ => show (j 3).val = win0_1.index t (3 : Fin 4) * 1024 + 1 * (j 3).val; omega

/-- An index of the result array is in point t's block iff each coordinate is in the block's range on its axis. -/
theorem mem_blk (t : Fin cfg0.N) (i : S16x1x1024x1024.Idx) :
    i ∈ ((cfg0.win 1).blk t).view.set ↔ ∀ a : Fin 4, win0_1.index t a * S1x1x1024x1024.size a ≤ (i a).val ∧ (i a).val < win0_1.index t a * S1x1x1024x1024.size a + S1x1x1024x1024.size a := by
  show i ∈ ((View.whole main_v0).slice (win0_1.rect t)).set ↔ _
  rw [View.set_slice_whole, Rect.mem_set_unit]
  exact Iff.rfl

/-- Every index of the result array lies in the block of the point named by its image coordinate. -/
theorem cover (i : S16x1x1024x1024.Idx) : ∃ t : Fin cfg0.N, (cfg0.win 1).flush t = true ∧ i ∈ ((cfg0.win 1).blk t).view.set := by
  have h0 : (i 0).val < 16 := (i 0).isLt
  have h1 : (i 1).val < 1 := (i 1).isLt
  have h2 : (i 2).val < 1024 := (i 2).isLt
  have h3 : (i 3).val < 1024 := (i 3).isLt
  have hN : cfg0.N = 16 := N_0
  let t : Fin cfg0.N := ⟨(i 0).val, by rw [hN]; exact h0⟩
  have htv : t.val = (i 0).val := rfl
  obtain ⟨e0, e1, e2, e3, f0, f1, f2, f3⟩ := idx_facts t
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 1 ≤ (i 1).val ∧ (i 1).val < win0_1.index t (1 : Fin 4) * 1 + 1; omega
  | ⟨2, _⟩ => show win0_1.index t (2 : Fin 4) * 1024 ≤ (i 2).val ∧ (i 2).val < win0_1.index t (2 : Fin 4) * 1024 + 1024; omega
  | ⟨3, _⟩ => show win0_1.index t (3 : Fin 4) * 1024 ≤ (i 3).val ∧ (i 3).val < win0_1.index t (3 : Fin 4) * 1024 + 1024; omega

include hpay in
/-- The result array after the region is `Gf` of the input array, whole. -/
theorem final (c : Dev nD) : (dats m 0 c).arrAt 1 cfg0.N = Gf (V m c main_arg0) :=
  (dats m 0 c).arrAt_eq_of_cover 1 (Gf (V m c main_arg0)) (fun t _ => flushed_eq m Gf hpay c t) (fun i => cover i)

end Blocks

end Cert.KernelIdeal.Val

end
-- ==== Proof.NmsSpec.lean ====
/- The local-maximum mask as ONE pointwise function of the whole input, at the ideal instance (a float is an
   extended real). Pixel (r, c) of image b is kept when it equals the maximum of its 3×3 neighbourhood and is at
   least the threshold. A neighbour outside the image counts as ⊥ (−∞), the identity of max, so the maximum is
   over the up-to-nine neighbours that exist. The maximum is spelt in two layers — the maximum of three vertical
   neighbours in one column, then the maximum of that over three adjacent columns — and, since max on the extended
   reals is associative, commutative and has ⊥ as identity, it is also the left fold of max from ⊥ over the nine
   neighbours in row-major order (pool_eq_nine). No finiteness of the input is used. -/
import Idealize.ShloMosaic.PureOps.Ideal
import Idealize.ShloMosaic.Lib.ValueIdx

noncomputable section

namespace Cert.Nms

open Idealize.ShloMosaic Idealize.ShloMosaic.ValueIdx

/-- The input's shape: 16 images, one channel, 1024 × 1024 pixels. -/
abbrev SIn : Shape := ⟨4, ![16, 1, 1024, 1024]⟩

/-- The threshold: the extended real that the word 0x3F333333 denotes. It is never evaluated; both programs compare
    against this same word. -/
def thr : EReal := Ideal.ofBits .f32 0x3F333333#32

/-- The pixel `dr − 1` rows below pixel (r, c') of image b (so `dr = 0, 1, 2` is the row above, the row itself, the row
    below): the input there when that row exists, ⊥ when it does not. -/
def rowNb (x : SIn.Idx → EReal) (b : Fin 16) (r : Fin 1024) (dr : Nat) (c' : Fin 1024) : EReal :=
  if h : 1 ≤ r.val + dr ∧ r.val + dr - 1 < 1024 then x (ix4 b (0 : Fin 1) (⟨r.val + dr - 1, h.2⟩ : Fin 1024) c') else ⊥

/-- The maximum of the three vertical neighbours of (r, c') in column c'. -/
def vmax (x : SIn.Idx → EReal) (b : Fin 16) (r c' : Fin 1024) : EReal :=
  max (max (rowNb x b r 0 c') (rowNb x b r 1 c')) (rowNb x b r 2 c')

/-- The vertical maximum in the column `dc − 1` to the right of column c: ⊥ when that column does not exist. -/
def colNb (x : SIn.Idx → EReal) (b : Fin 16) (r c : Fin 1024) (dc : Nat) : EReal :=
  if h : 1 ≤ c.val + dc ∧ c.val + dc - 1 < 1024 then vmax x b r (⟨c.val + dc - 1, h.2⟩ : Fin 1024) else ⊥

/-- The maximum over the 3 × 3 neighbourhood of (r, c) in image b, a neighbour outside the image counting as ⊥. -/
def pool (x : SIn.Idx → EReal) (b : Fin 16) (r c : Fin 1024) : EReal :=
  max (max (colNb x b r c 0) (colNb x b r c 1)) (colNb x b r c 2)

/-- One neighbour: the pixel at (r + dr − 1, c + dc − 1) when it is inside the image, else ⊥. -/
def nb (x : SIn.Idx → EReal) (b : Fin 16) (r c : Fin 1024) (dr dc : Nat) : EReal :=
  if h : 1 ≤ c.val + dc ∧ c.val + dc - 1 < 1024 then rowNb x b r dr (⟨c.val + dc - 1, h.2⟩ : Fin 1024) else ⊥

/-- The mask bit of pixel (r, c) of image b: it equals its neighbourhood's maximum, and it is at least the threshold. -/
def maskAt (x : SIn.Idx → EReal) (b : Fin 16) (r c : Fin 1024) : BitVec 1 :=
  IntOp.andi (Ideal.cmp .oeq (x (ix4 b (0 : Fin 1) r c)) (pool x b r c)) (Ideal.cmp .oge (x (ix4 b (0 : Fin 1) r c)) thr)

/-- THE MASK, one function of the whole input. -/
def maskOf (x : SIn.Idx → EReal) : SIn.Idx → BitVec 1 := fun j => maskAt x (j 0) (j 2) (j 3)

/-- The mask at an index given by its coordinates. -/
theorem maskOf_ix4 (x : SIn.Idx → EReal) (b : Fin 16) (z : Fin 1) (r c : Fin 1024) :
    maskOf x (ix4 b z r c) = maskAt x b r c := rfl

/-- The mask bit spelt out: a conjunction of two decided propositions. -/
theorem maskAt_eq (x : SIn.Idx → EReal) (b : Fin 16) (r c : Fin 1024) :
    maskAt x b r c = BitVec.ofBool (decide (x (ix4 b (0 : Fin 1) r c) = pool x b r c))
      &&& BitVec.ofBool (decide (thr ≤ x (ix4 b (0 : Fin 1) r c))) := rfl

/-- The conjunction of two decided bits is set exactly when both propositions hold. -/
theorem and_ofBool_eq_one_iff (p q : Prop) [Decidable p] [Decidable q] :
    BitVec.ofBool (decide p) &&& BitVec.ofBool (decide q) = 1#1 ↔ p ∧ q := by
  by_cases hp : p <;> by_cases hq : q <;> simp [hp, hq]

/-- The mask bit is set exactly at a local maximum that reaches the threshold. -/
theorem maskAt_eq_one_iff (x : SIn.Idx → EReal) (b : Fin 16) (r c : Fin 1024) :
    maskAt x b r c = 1#1 ↔ x (ix4 b (0 : Fin 1) r c) = pool x b r c ∧ thr ≤ x (ix4 b (0 : Fin 1) r c) := by
  rw [maskAt_eq]
  exact and_ofBool_eq_one_iff _ _

/-- A column's vertical maximum, when the column exists, is the maximum of its three neighbours; when it does not,
    all three are ⊥ and so is their maximum. -/
theorem colNb_eq (x : SIn.Idx → EReal) (b : Fin 16) (r c : Fin 1024) (dc : Nat) :
    colNb x b r c dc = max (max (nb x b r c 0 dc) (nb x b r c 1 dc)) (nb x b r c 2 dc) := by
  unfold colNb nb
  by_cases h : 1 ≤ c.val + dc ∧ c.val + dc - 1 < 1024
  · rw [dif_pos h, dif_pos h, dif_pos h, dif_pos h]; rfl
  · rw [dif_neg h, dif_neg h, dif_neg h, dif_neg h]; simp

/-- The neighbourhood maximum is the left fold of max from ⊥ over the nine neighbours in row-major order: max is
    associative and commutative and ⊥ is its identity. -/
theorem pool_eq_nine (x : SIn.Idx → EReal) (b : Fin 16) (r c : Fin 1024) :
    pool x b r c =
      max (max (max (max (max (max (max (max (max ⊥ (nb x b r c 0 0)) (nb x b r c 0 1)) (nb x b r c 0 2))
        (nb x b r c 1 0)) (nb x b r c 1 1)) (nb x b r c 1 2)) (nb x b r c 2 0)) (nb x b r c 2 1)) (nb x b r c 2 2) := by
  unfold pool
  rw [colNb_eq, colNb_eq, colNb_eq, max_bot_left]
  ac_rfl

end Cert.Nms

end
-- ==== Proof.NmsKernelPay.lean ====
/- The kernel body's stored value, read at one pixel, is the mask bit of that pixel widened to 32 bits.
   The body computes the 3 × 3 maximum separably. First, per column, the maximum of the pixel, the pixel above and the
   pixel below: the block shifted down by one row (a ⊥ row in front of rows 0 … 1022) and shifted up by one row (rows
   1 … 1023 followed by a ⊥ row). Then, per row, the maximum of that vertical maximum with itself shifted right and
   shifted left by one column (a ⊥ column in front of, or behind, the other 1023 columns). Read at (r, c) each shifted
   block is the block one step away when that position exists and ⊥ when it does not, which is how the specification
   spells a neighbour; so the two stages are the specification's vertical maximum and its maximum over three columns. -/
import proofs.«166666_j11261404250300_1_alg».proof.Proof.NmsSpec
import proofs.«166666_j11261404250300_1_alg».proof.Proof.Gen.KernelIdeal.Skeleton
import Idealize.ShloMosaic.Lib.Pipeline.Value
import Idealize.ShloMosaic.Lib.ValueIdx

noncomputable section

namespace Cert.NmsKernelPay

open Cert.KernelIdeal Cert.KernelIdeal.Gen Idealize.ShloMosaic Idealize.ShloMosaic.ValueIdx

/-- One image's block of pixels. -/
abbrev Blk : Type := S1x1x1024x1024.Idx → EReal

/-- The block's pixel `dr − 1` rows below (r, c), or `e` when that row does not exist. -/
def rowNbBlk (w : Blk) (e : EReal) (r : Fin 1024) (dr : Nat) (c : Fin 1024) : EReal :=
  if h : 1 ≤ r.val + dr ∧ r.val + dr - 1 < 1024 then w (ix4 (0 : Fin 1) (0 : Fin 1) (⟨r.val + dr - 1, h.2⟩ : Fin 1024) c) else e

/-- The block's pixel `dc − 1` columns right of (r, c), or `e` when that column does not exist. -/
def colNbBlk (w : Blk) (e : EReal) (r c : Fin 1024) (dc : Nat) : EReal :=
  if h : 1 ≤ c.val + dc ∧ c.val + dc - 1 < 1024 then w (ix4 (0 : Fin 1) (0 : Fin 1) r (⟨c.val + dc - 1, h.2⟩ : Fin 1024)) else e

/-! ## The four shifted blocks read at a pixel -/

/-- A row of `e` in front of rows 0 … 1022: at (r, c) the pixel above, or `e` in row 0. -/
theorem shift_down_apply (hc : Shape.Concatenates [S1x1x1x1024, S1x1x1023x1024] S1x1x1024x1024 2)
    (hs : S1x1x1024x1024.Slices ![0, 0, 0, 0] S1x1x1023x1024) (w : Blk) (e : EReal) (r c : Fin 1024) :
    concatenate S1x1x1024x1024 2 [⟨S1x1x1x1024, broadcast S1x1x1x1024 e⟩,
      ⟨S1x1x1023x1024, extractStridedSlice S1x1x1023x1024 ![0, 0, 0, 0] w hs⟩] hc (ix4 (0 : Fin 1) (0 : Fin 1) r c)
      = rowNbBlk w e r 0 c := by
  unfold rowNbBlk
  by_cases h : 1 ≤ r.val + 0 ∧ r.val + 0 - 1 < 1024
  · rw [dif_pos h]
    have hr1 : r.val - 1 < 1023 := by have := r.isLt; omega
    refine (concatenate_pair_apply_right (t := S1x1x1024x1024) (s₁ := S1x1x1x1024) (s₂ := S1x1x1023x1024) 2 _ _ hc
      (ix4 (0 : Fin 1) (0 : Fin 1) r c) rfl rfl
      (ix4 (0 : Fin 1) (0 : Fin 1) (⟨r.val - 1, hr1⟩ : Fin 1023) c) ?_ ?_).trans ?_
    · intro a ha
      match a with
      | ⟨0, _⟩ => rfl
      | ⟨1, _⟩ => rfl
      | ⟨2, _⟩ => exact absurd rfl ha
      | ⟨3, _⟩ => rfl
    · show r.val - 1 + 1 = r.val
      omega
    · refine extractStridedSlice_apply _ w hs _ _ ?_
      intro a
      match a with
      | ⟨0, _⟩ => rfl
      | ⟨1, _⟩ => rfl
      | ⟨2, _⟩ => show r.val + 0 - 1 = 0 + (r.val - 1); omega
      | ⟨3, _⟩ => show c.val = 0 + c.val; omega
  · rw [dif_neg h]
    have hr0 : r.val = 0 := by omega
    refine (concatenate_pair_apply_left (t := S1x1x1024x1024) (s₁ := S1x1x1x1024) (s₂ := S1x1x1023x1024) 2 _ _ hc
      (ix4 (0 : Fin 1) (0 : Fin 1) r c) rfl
      (ix4 (0 : Fin 1) (0 : Fin 1) (0 : Fin 1) c) ?_).trans rfl
    intro a
    match a with
    | ⟨0, _⟩ => rfl
    | ⟨1, _⟩ => rfl
    | ⟨2, _⟩ => show 0 = r.val; omega
    | ⟨3, _⟩ => rfl

/-- Rows 1 … 1023 followed by a row of `e`: at (r, c) the pixel below, or `e` in row 1023. -/
theorem shift_up_apply (hc : Shape.Concatenates [S1x1x1023x1024, S1x1x1x1024] S1x1x1024x1024 2)
    (hs : S1x1x1024x1024.Slices ![0, 0, 1, 0] S1x1x1023x1024) (w : Blk) (e : EReal) (r c : Fin 1024) :
    concatenate S1x1x1024x1024 2 [⟨S1x1x1023x1024, extractStridedSlice S1x1x1023x1024 ![0, 0, 1, 0] w hs⟩,
      ⟨S1x1x1x1024, broadcast S1x1x1x1024 e⟩] hc (ix4 (0 : Fin 1) (0 : Fin 1) r c)
      = rowNbBlk w e r 2 c := by
  unfold rowNbBlk
  by_cases h : 1 ≤ r.val + 2 ∧ r.val + 2 - 1 < 1024
  · rw [dif_pos h]
    have hr1 : r.val < 1023 := by omega
    refine (concatenate_pair_apply_left (t := S1x1x1024x1024) (s₁ := S1x1x1023x1024) (s₂ := S1x1x1x1024) 2 _ _ hc
      (ix4 (0 : Fin 1) (0 : Fin 1) r c) rfl
      (ix4 (0 : Fin 1) (0 : Fin 1) (⟨r.val, hr1⟩ : Fin 1023) c) ?_).trans ?_
    · intro a
      match a with
      | ⟨0, _⟩ => rfl
      | ⟨1, _⟩ => rfl
      | ⟨2, _⟩ => rfl
      | ⟨3, _⟩ => rfl
    · refine extractStridedSlice_apply _ w hs _ _ ?_
      intro a
      match a with
      | ⟨0, _⟩ => rfl
      | ⟨1, _⟩ => rfl
      | ⟨2, _⟩ => show r.val + 2 - 1 = 1 + r.val; omega
      | ⟨3, _⟩ => show c.val = 0 + c.val; omega
  · rw [dif_neg h]
    have hr0 : r.val = 1023 := by have := r.isLt; omega
    refine (concatenate_pair_apply_right (t := S1x1x1024x1024) (s₁ := S1x1x1023x1024) (s₂ := S1x1x1x1024) 2 _ _ hc
      (ix4 (0 : Fin 1) (0 : Fin 1) r c) rfl rfl
      (ix4 (0 : Fin 1) (0 : Fin 1) (0 : Fin 1) c) ?_ ?_).trans rfl
    · intro a ha
      match a with
      | ⟨0, _⟩ => rfl
      | ⟨1, _⟩ => rfl
      | ⟨2, _⟩ => exact absurd rfl ha
      | ⟨3, _⟩ => rfl
    · show 0 + 1023 = r.val
      omega

/-- A column of `e` in front of columns 0 … 1022: at (r, c) the pixel to the left, or `e` in column 0. -/
theorem shift_right_apply (hc : Shape.Concatenates [S1x1x1024x1, S1x1x1024x1023] S1x1x1024x1024 3)
    (hs : S1x1x1024x1024.Slices ![0, 0, 0, 0] S1x1x1024x1023) (w : Blk) (e : EReal) (r c : Fin 1024) :
    concatenate S1x1x1024x1024 3 [⟨S1x1x1024x1, broadcast S1x1x1024x1 e⟩,
      ⟨S1x1x1024x1023, extractStridedSlice S1x1x1024x1023 ![0, 0, 0, 0] w hs⟩] hc (ix4 (0 : Fin 1) (0 : Fin 1) r c)
      = colNbBlk w e r c 0 := by
  unfold colNbBlk
  by_cases h : 1 ≤ c.val + 0 ∧ c.val + 0 - 1 < 1024
  · rw [dif_pos h]
    have hc1 : c.val - 1 < 1023 := by have := c.isLt; omega
    refine (concatenate_pair_apply_right (t := S1x1x1024x1024) (s₁ := S1x1x1024x1) (s₂ := S1x1x1024x1023) 3 _ _ hc
      (ix4 (0 : Fin 1) (0 : Fin 1) r c) rfl rfl
      (ix4 (0 : Fin 1) (0 : Fin 1) r (⟨c.val - 1, hc1⟩ : Fin 1023)) ?_ ?_).trans ?_
    · intro a ha
      match a with
      | ⟨0, _⟩ => rfl
      | ⟨1, _⟩ => rfl
      | ⟨2, _⟩ => rfl
      | ⟨3, _⟩ => exact absurd rfl ha
    · show c.val - 1 + 1 = c.val
      omega
    · refine extractStridedSlice_apply _ w hs _ _ ?_
      intro a
      match a with
      | ⟨0, _⟩ => rfl
      | ⟨1, _⟩ => rfl
      | ⟨2, _⟩ => show r.val = 0 + r.val; omega
      | ⟨3, _⟩ => show c.val + 0 - 1 = 0 + (c.val - 1); omega
  · rw [dif_neg h]
    have hc0 : c.val = 0 := by omega
    refine (concatenate_pair_apply_left (t := S1x1x1024x1024) (s₁ := S1x1x1024x1) (s₂ := S1x1x1024x1023) 3 _ _ hc
      (ix4 (0 : Fin 1) (0 : Fin 1) r c) rfl
      (ix4 (0 : Fin 1) (0 : Fin 1) r (0 : Fin 1)) ?_).trans rfl
    intro a
    match a with
    | ⟨0, _⟩ => rfl
    | ⟨1, _⟩ => rfl
    | ⟨2, _⟩ => rfl
    | ⟨3, _⟩ => show 0 = c.val; omega

/-- Columns 1 … 1023 followed by a column of `e`: at (r, c) the pixel to the right, or `e` in column 1023. -/
theorem shift_left_apply (hc : Shape.Concatenates [S1x1x1024x1023, S1x1x1024x1] S1x1x1024x1024 3)
    (hs : S1x1x1024x1024.Slices ![0, 0, 0, 1] S1x1x1024x1023) (w : Blk) (e : EReal) (r c : Fin 1024) :
    concatenate S1x1x1024x1024 3 [⟨S1x1x1024x1023, extractStridedSlice S1x1x1024x1023 ![0, 0, 0, 1] w hs⟩,
      ⟨S1x1x1024x1, broadcast S1x1x1024x1 e⟩] hc (ix4 (0 : Fin 1) (0 : Fin 1) r c)
      = colNbBlk w e r c 2 := by
  unfold colNbBlk
  by_cases h : 1 ≤ c.val + 2 ∧ c.val + 2 - 1 < 1024
  · rw [dif_pos h]
    have hc1 : c.val < 1023 := by omega
    refine (concatenate_pair_apply_left (t := S1x1x1024x1024) (s₁ := S1x1x1024x1023) (s₂ := S1x1x1024x1) 3 _ _ hc
      (ix4 (0 : Fin 1) (0 : Fin 1) r c) rfl
      (ix4 (0 : Fin 1) (0 : Fin 1) r (⟨c.val, hc1⟩ : Fin 1023)) ?_).trans ?_
    · intro a
      match a with
      | ⟨0, _⟩ => rfl
      | ⟨1, _⟩ => rfl
      | ⟨2, _⟩ => rfl
      | ⟨3, _⟩ => rfl
    · refine extractStridedSlice_apply _ w hs _ _ ?_
      intro a
      match a with
      | ⟨0, _⟩ => rfl
      | ⟨1, _⟩ => rfl
      | ⟨2, _⟩ => show r.val = 0 + r.val; omega
      | ⟨3, _⟩ => show c.val + 2 - 1 = 1 + c.val; omega
  · rw [dif_neg h]
    have hc0 : c.val = 1023 := by have := c.isLt; omega
    refine (concatenate_pair_apply_right (t := S1x1x1024x1024) (s₁ := S1x1x1024x1023) (s₂ := S1x1x1024x1) 3 _ _ hc
      (ix4 (0 : Fin 1) (0 : Fin 1) r c) rfl rfl
      (ix4 (0 : Fin 1) (0 : Fin 1) r (0 : Fin 1)) ?_ ?_).trans rfl
    · intro a ha
      match a with
      | ⟨0, _⟩ => rfl
      | ⟨1, _⟩ => rfl
      | ⟨2, _⟩ => rfl
      | ⟨3, _⟩ => exact absurd rfl ha
    · show 0 + 1023 = c.val
      omega

/-- The pixel itself is its own neighbour at displacement zero, in a row … -/
theorem rowNbBlk_one (w : Blk) (e : EReal) (r c : Fin 1024) :
    w (ix4 (0 : Fin 1) (0 : Fin 1) r c) = rowNbBlk w e r 1 c := by
  unfold rowNbBlk
  have h : 1 ≤ r.val + 1 ∧ r.val + 1 - 1 < 1024 := ⟨by omega, by have := r.isLt; omega⟩
  rw [dif_pos h]
  rfl

/-- … and in a column. -/
theorem colNbBlk_one (w : Blk) (e : EReal) (r c : Fin 1024) :
    w (ix4 (0 : Fin 1) (0 : Fin 1) r c) = colNbBlk w e r c 1 := by
  unfold colNbBlk
  have h : 1 ≤ c.val + 1 ∧ c.val + 1 - 1 < 1024 := ⟨by omega, by have := c.isLt; omega⟩
  rw [dif_pos h]
  rfl

/-! ## The two stages of the body -/

section Stages

/-- The vertical stage: the maximum of a block, the block shifted down one row and the block shifted up one row,
    the vacated row holding `e`. -/
def vstage (e : EReal) (w : Blk) : Blk :=
  maximumf (F := Ideal) (φ := .f32)
    (maximumf (F := Ideal) (φ := .f32)
      (concatenate S1x1x1024x1024 2 [⟨S1x1x1x1024, broadcast S1x1x1x1024 e⟩,
        ⟨S1x1x1023x1024, extractStridedSlice S1x1x1023x1024 ![0, 0, 0, 0] w slices_S1x1x1024x1024_o0_0_0_0_S1x1x1023x1024⟩]
        concatenates_S1x1x1x1024_S1x1x1023x1024_S1x1x1024x1024_d2) w)
    (concatenate S1x1x1024x1024 2 [⟨S1x1x1023x1024, extractStridedSlice S1x1x1023x1024 ![0, 0, 1, 0] w slices_S1x1x1024x1024_o0_0_1_0_S1x1x1023x1024⟩,
      ⟨S1x1x1x1024, broadcast S1x1x1x1024 e⟩] concatenates_S1x1x1023x1024_S1x1x1x1024_S1x1x1024x1024_d2)

/-- The horizontal stage: the maximum of a block, the block shifted right one column and the block shifted left one
    column, the vacated column holding `e`. -/
def hstage (e : EReal) (u : Blk) : Blk :=
  maximumf (F := Ideal) (φ := .f32)
    (maximumf (F := Ideal) (φ := .f32)
      (concatenate S1x1x1024x1024 3 [⟨S1x1x1024x1, broadcast S1x1x1024x1 e⟩,
        ⟨S1x1x1024x1023, extractStridedSlice S1x1x1024x1023 ![0, 0, 0, 0] u slices_S1x1x1024x1024_o0_0_0_0_S1x1x1024x1023⟩]
        concatenates_S1x1x1024x1_S1x1x1024x1023_S1x1x1024x1024_d3) u)
    (concatenate S1x1x1024x1024 3 [⟨S1x1x1024x1023, extractStridedSlice S1x1x1024x1023 ![0, 0, 0, 1] u slices_S1x1x1024x1024_o0_0_0_1_S1x1x1024x1023⟩,
      ⟨S1x1x1024x1, broadcast S1x1x1024x1 e⟩] concatenates_S1x1x1024x1023_S1x1x1024x1_S1x1x1024x1024_d3)

/-- The vertical stage at a pixel: the maximum of the three vertical neighbours. -/
theorem vstage_apply (e : EReal) (w : Blk) (r c : Fin 1024) :
    vstage e w (ix4 (0 : Fin 1) (0 : Fin 1) r c)
      = max (max (rowNbBlk w e r 0 c) (rowNbBlk w e r 1 c)) (rowNbBlk w e r 2 c) :=
  congrArg₂ max (congrArg₂ max (shift_down_apply _ _ w e r c) (rowNbBlk_one w e r c)) (shift_up_apply _ _ w e r c)

/-- The horizontal stage at a pixel: the maximum of the three horizontal neighbours. -/
theorem hstage_apply (e : EReal) (u : Blk) (r c : Fin 1024) :
    hstage e u (ix4 (0 : Fin 1) (0 : Fin 1) r c)
      = max (max (colNbBlk u e r c 0) (colNbBlk u e r c 1)) (colNbBlk u e r c 2) :=
  congrArg₂ max (congrArg₂ max (shift_right_apply _ _ u e r c) (colNbBlk_one u e r c)) (shift_left_apply _ _ u e r c)

/-- The stored value is the widened conjunction of two comparisons of the block: against its two-stage maximum
    (equality) and against the threshold (at least). The body's operations, grouped into the two stages. -/
theorem k0_pay1_eq_stages (v0 : Vec Ideal S1x1x1024x1024 .f32) :
    k0_pay1 (F := Ideal) v0
      = extui 32 (andi (cmpf (F := Ideal) (φ := .f32) .oeq v0
            (hstage (Scalar.ofBits (F := Ideal) .f32 0xFF800000#32) (vstage (Scalar.ofBits (F := Ideal) .f32 0xFF800000#32) v0)))
          (cmpf (F := Ideal) (φ := .f32) .oge v0 (broadcast S1x1x1024x1024 (Scalar.ofBits (F := Ideal) .f32 0x3F333333#32))))
          natLt_1_32 := rfl

end Stages

/-! ## The block is the image's slab: the stages are the specification's maxima -/

/-- The word 0xFF800000 denotes ⊥. -/
theorem ofBits_neg_inf : (Scalar.ofBits (F := Ideal) .f32 0xFF800000#32 : EReal) = ⊥ := by
  show Ideal.ofBits .f32 0xFF800000#32 = ⊥
  simp [Ideal.ofBits, Ideal.ieee]

section Slab
variable (v0 : Blk) (X : Cert.Nms.SIn.Idx → EReal) (b : Fin 16)
  (hv : ∀ (r c : Fin 1024), v0 (ix4 (0 : Fin 1) (0 : Fin 1) r c) = X (ix4 b (0 : Fin 1) r c))
include hv

/-- A vertical neighbour in the block is the image's. -/
theorem rowNbBlk_slab (r : Fin 1024) (dr : Nat) (c : Fin 1024) :
    rowNbBlk v0 ⊥ r dr c = Cert.Nms.rowNb X b r dr c := by
  unfold rowNbBlk Cert.Nms.rowNb
  by_cases h : 1 ≤ r.val + dr ∧ r.val + dr - 1 < 1024
  · rw [dif_pos h, dif_pos h]; exact hv _ _
  · rw [dif_neg h, dif_neg h]

/-- The vertical stage of the block is the specification's vertical maximum. -/
theorem vstage_slab (r c : Fin 1024) :
    vstage ⊥ v0 (ix4 (0 : Fin 1) (0 : Fin 1) r c) = Cert.Nms.vmax X b r c := by
  rw [vstage_apply, rowNbBlk_slab v0 X b hv, rowNbBlk_slab v0 X b hv, rowNbBlk_slab v0 X b hv]
  rfl

/-- A horizontal neighbour of the vertical stage is the specification's column maximum. -/
theorem colNbBlk_slab (r c : Fin 1024) (dc : Nat) :
    colNbBlk (vstage ⊥ v0) ⊥ r c dc = Cert.Nms.colNb X b r c dc := by
  unfold colNbBlk Cert.Nms.colNb
  by_cases h : 1 ≤ c.val + dc ∧ c.val + dc - 1 < 1024
  · rw [dif_pos h, dif_pos h]; exact vstage_slab v0 X b hv _ _
  · rw [dif_neg h, dif_neg h]

/-- The two stages of the block are the specification's neighbourhood maximum. -/
theorem hstage_slab (r c : Fin 1024) :
    hstage ⊥ (vstage ⊥ v0) (ix4 (0 : Fin 1) (0 : Fin 1) r c) = Cert.Nms.pool X b r c := by
  rw [hstage_apply, colNbBlk_slab v0 X b hv, colNbBlk_slab v0 X b hv, colNbBlk_slab v0 X b hv]
  rfl

end Slab

/-- THE STORED VALUE AT A PIXEL: when the loaded block is image `b`'s slab of the input, the body stores at (r, c) the
    mask bit of pixel (r, c) of image `b`, zero-extended to 32 bits. -/
theorem kernel_pay_eq (v0 : Vec Ideal S1x1x1024x1024 .f32) (X : FVec Ideal S16x1x1024x1024 .f32)
    (b : Fin 16) (hv : ∀ (r c : Fin 1024), v0 (ix4 (0 : Fin 1) (0 : Fin 1) r c) = X (ix4 b (0 : Fin 1) r c))
    (r c : Fin 1024) :
    k0_pay1 (F := Ideal) v0 (ix4 (0 : Fin 1) (0 : Fin 1) r c)
      = (Cert.Nms.maskOf X (ix4 b (0 : Fin 1) r c)).setWidth 32 := by
  rw [k0_pay1_eq_stages, ofBits_neg_inf, Cert.Nms.maskOf_ix4]
  show (IntOp.andi (Ideal.cmp .oeq (v0 (ix4 (0 : Fin 1) (0 : Fin 1) r c))
      (hstage ⊥ (vstage ⊥ v0) (ix4 (0 : Fin 1) (0 : Fin 1) r c)))
    (Ideal.cmp .oge (v0 (ix4 (0 : Fin 1) (0 : Fin 1) r c)) Cert.Nms.thr)).setWidth 32 = _
  rw [hstage_slab v0 X b hv, hv r c]
  rfl

end Cert.NmsKernelPay

end
-- ==== Proof.TailDef.lean ====
/-
  The host tail of the non-maximum-suppression program as one pure function of the i1 mask.

  From the mask (one bit per pixel of the sixteen 1024x1024 images) the program lists the positions of the set
  bits, in row-major order, into K = 3355443 slots, and returns their row and column coordinates:

    * the running count of set bits over the flattened mask (an inclusive prefix sum, a sliding-window sum whose
      window is the whole array, padded on the left);
    * each position's count, clipped below at zero and wrapped into range (a negative value plus K), is the slot it
      votes for; scattering ones with addition into K zeros counts the votes per slot, and the running sum of those
      counts is, at slot k, the number of positions whose count is at most k — which is the flat index of the
      (k+1)-th set bit;
    * the flat index is split by floor division and the sign-following remainder into the row, (index / 1024) mod
      1024, and the column, (index / 1) mod 1024;
    * slots at or beyond the total number of set bits (the sum of the mask) are filled with zero;
    * the two coordinate rows are stacked.

  Every operation is an integer operation, so nothing here depends on the float values. The sliding-window sums,
  the scatter and the total are kept as the library's functions of their operands; nothing in this file evaluates
  them.
-/
import proofs.«166666_j11261404250300_1_alg».proof.KernelIdeal

noncomputable section

namespace Cert.KernelIdeal.NmsTail

open Idealize.ShloMosaic Idealize.SL.Sem
open Cert.KernelIdeal Cert.KernelIdeal.Facts₀ Cert.KernelIdeal.Facts

variable [Cert.KernelIdeal.Facts]

/-- The scalar zero, as the running sums' initial value (a rank-zero broadcast of the constant). -/
def zero0 : IVec S_ 32 := broadcastInDim S_ ![] bcast_S_S_ (constantI S_ 32 0#32)

/-- The running count of set bits: the mask flattened, each bit widened to 32 bits, and the inclusive prefix sum
    (window the whole array, stride one, 16777215 zeros of padding on the left). -/
def runningCount (mask : IVec S16x1x1024x1024 1) : IVec S16777216 32 :=
  Host.reduceWindow IntOp.addi ![16777216] ![1] ![16777215] ![0]
    (extui 32 (shapeCast S16777216 mask shapeCasts_S16x1x1024x1024_S16777216) natLt_1_32)
    zero0 reduceWindows_S16777216_S16777216_w16777216s1p16777215_0 h_S_

/-- Clipping below: the elementwise signed maximum with the broadcast scalar. -/
def clipLow (a : IVec S16777216 32) (c : IVec S_ 32) : IVec S16777216 32 :=
  maxsi (broadcastInDim S16777216 ![] bcast_S_S16777216 c) a

/-- Wrapping an index into range: a negative value has K = 3355443 added. -/
def wrapIndex (a : IVec S16777216 32) : IVec S16777216 32 :=
  select (cmpi .slt a (broadcastInDim S16777216 ![] bcast_S_S16777216 (constantI S_ 32 0#32)))
    (addi a (broadcastInDim S16777216 ![] bcast_S_S16777216 (constantI S_ 32 3355443#32)))
    a

/-- The votes per slot: ones scattered with addition into K zeros, position p voting for slot `idx p`. -/
def votes (idx : IVec S16777216 32) : IVec S3355443 32 :=
  Host.scatter scatter_S3355443_S16777216x1_S16777216_n_0_0_1 IntOp.addi
    (broadcastInDim S3355443 ![] bcast_S_S3355443 (constantI S_ 32 0#32))
    (broadcastInDim S16777216x1 ![0] bcast_S16777216_S16777216x1_0 idx)
    (broadcastInDim S16777216 ![] bcast_S_S16777216 (constantI S_ 32 1#32))

/-- The inclusive prefix sum over the K slots. -/
def runningVotes (h : IVec S3355443 32) : IVec S3355443 32 :=
  Host.reduceWindow IntOp.addi ![3355443] ![1] ![3355442] ![0] h zero0
    reduceWindows_S3355443_S3355443_w3355443s1p3355442_0 h_S_

/-- Floor division by a scalar: the truncating quotient, less one where the signs differ and the remainder is
    not zero. -/
def floorDivide (a : IVec S3355443 32) (c : IVec S_ 32) : IVec S3355443 32 :=
  select
    (andi
      (cmpi .ne (signi a) (broadcastInDim S3355443 ![] bcast_S_S3355443 (signi c)))
      (cmpi .ne (Host.remsi a (broadcastInDim S3355443 ![] bcast_S_S3355443 c))
        (broadcastInDim S3355443 ![] bcast_S_S3355443 (constantI S_ 32 0#32))))
    (subi (Host.divsi a (broadcastInDim S3355443 ![] bcast_S_S3355443 c))
      (broadcastInDim S3355443 ![] bcast_S_S3355443 (constantI S_ 32 1#32)))
    (Host.divsi a (broadcastInDim S3355443 ![] bcast_S_S3355443 c))

/-- The divisor the remainder really uses: one in place of zero. -/
def safeDivisor (c : IVec S_ 32) : IVec S_ 32 :=
  select (cmpi .eq c (constantI S_ 32 0#32)) (constantI S_ 32 1#32) c

/-- The remainder of `a` by the scalar `d` that follows the divisor's sign: the truncating remainder, plus the
    divisor where it is not zero and its sign differs from the divisor's. -/
def remainderBy (a : IVec S3355443 32) (d : IVec S_ 32) : IVec S3355443 32 :=
  select
    (andi
      (cmpi .ne
        (cmpi .slt (Host.remsi a (broadcastInDim S3355443 ![] bcast_S_S3355443 d))
          (broadcastInDim S3355443 ![] bcast_S_S3355443 (constantI S_ 32 0#32)))
        (broadcastInDim S3355443 ![] bcast_S_S3355443 (cmpi .slt d (constantI S_ 32 0#32))))
      (cmpi .ne (Host.remsi a (broadcastInDim S3355443 ![] bcast_S_S3355443 d))
        (broadcastInDim S3355443 ![] bcast_S_S3355443 (constantI S_ 32 0#32))))
    (addi (Host.remsi a (broadcastInDim S3355443 ![] bcast_S_S3355443 d))
      (broadcastInDim S3355443 ![] bcast_S_S3355443 d))
    (Host.remsi a (broadcastInDim S3355443 ![] bcast_S_S3355443 d))

/-- The remainder by a scalar, zero guarded. -/
def remainder (a : IVec S3355443 32) (c : IVec S_ 32) : IVec S3355443 32 :=
  remainderBy a (safeDivisor c)

/-- `c` where `p`, else `a`. -/
def fill (p : IVec S3355443 1) (c : IVec S_ 32) (a : IVec S3355443 32) : IVec S3355443 32 :=
  select p (broadcastInDim S3355443 ![] bcast_S_S3355443 c) a

/-- The flat index of the (k+1)-th set bit at slot k (and the total count at the slots beyond). -/
def flatIndex (mask : IVec S16x1x1024x1024 1) : IVec S3355443 32 :=
  runningVotes (votes (wrapIndex (clipLow (runningCount mask) (constantI S_ 32 0#32))))

/-- The number of set bits. -/
def total (mask : IVec S16x1x1024x1024 1) : IVec S_ 32 :=
  Host.reduce IntOp.addi (extui 32 mask natLt_1_32) (constantI S_ 32 0#32) reducesTo_S16x1x1024x1024_S_d0_1_2_3 h_S_

/-- The slots that hold no set bit: those whose number is at least the total. -/
def beyond (mask : IVec S16x1x1024x1024 1) : IVec S3355443 1 :=
  cmpi .sge (iotaInDim S3355443 32 0) (broadcastInDim S3355443 ![] bcast_S_S3355443 (total mask))

/-- The row coordinates. -/
def rowOf (mask : IVec S16x1x1024x1024 1) : IVec S3355443 32 :=
  fill (beyond mask) (constantI S_ 32 0#32)
    (remainder (floorDivide (flatIndex mask) (constantI S_ 32 1024#32)) (constantI S_ 32 1024#32))

/-- The column coordinates. -/
def colOf (mask : IVec S16x1x1024x1024 1) : IVec S3355443 32 :=
  fill (beyond mask) (constantI S_ 32 0#32)
    (remainder (floorDivide (flatIndex mask) (constantI S_ 32 1#32)) (constantI S_ 32 1024#32))

/-- What the host computes from the mask: the rows and the columns of the set bits, stacked. -/
def Tail (mask : IVec S16x1x1024x1024 1) : IVec S2x3355443 32 :=
  concatenate S2x3355443 0
    [⟨S1x3355443, broadcastInDim S1x3355443 ![1] bcast_S3355443_S1x3355443_1 (rowOf mask)⟩,
     ⟨S1x3355443, broadcastInDim S1x3355443 ![1] bcast_S3355443_S1x3355443_1 (colOf mask)⟩]
    concatenates_S1x3355443_S1x3355443_S2x3355443_d0

end Cert.KernelIdeal.NmsTail
-- ==== Proof.KernelTail.lean ====
/-
  The host tail of the kernel's program, read back as the pure function `Tail` of the mask.

  After the comparison that produces the i1 mask, the program runs 206 integer operations, printed as thirty
  stretches in order (the outlined functions' bodies at their call sites, the program's own operations between
  them). What the result buffer holds afterwards is the fold of those operations over the buffers' contents.

  The fold is never compared with `Tail` as one term. Each stretch is read on its own over an ARBITRARY
  valuation of the buffers: the one or two buffers of it that something later reads hold a small function of the
  contents at the stretch's inputs (the operations' results rewritten one after the other, outermost first), and a
  buffer none of its operations writes holds what it held (the stretch's written buffers are listed; membership in
  the list is decided). The thirty stretches are then put together by rewriting only: the fold over a prefix of
  stretches followed by one more stretch is that stretch's fold over the prefix's, so the contents of each buffer
  still to be read after the first k stretches is a closed term in the mask, obtained from the terms after k - 1
  stretches. The sliding-window sums, the scatter and the total are opaque throughout: they occur at the same
  place on both sides of every equation and are never opened (their operands have 16777216 elements).

  Two of the four coordinates the program computes (by 1048576) reach no operation of the result, so no equation
  here mentions them; their stretches only have to leave the live buffers alone.
-/
import proofs.«166666_j11261404250300_1_alg».proof.Proof.TailDef
import proofs.«166666_j11261404250300_1_alg».proof.Proof.Gen.KernelIdeal.Launch
import Idealize.ShloMosaic.Lib.StableHlo.Run

noncomputable section

namespace Cert.KernelIdeal.NmsTail

open Cert.KernelIdeal Cert.KernelIdeal.Gen Idealize.ShloMosaic Idealize.ShloMosaic.TcCoe Idealize.ShloMosaic.StableHlo
open Idealize.SL.Sem

variable {F : FTy → Type} [FloatOps F] [Cert.KernelIdeal.Facts]

/-- The fold over two lines in a row is the fold over the second, started from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## What each stretch writes, and that it leaves every other buffer alone -/

/-- The buffers stretch 1 writes, one per operation. -/
abbrev W_1 : List (Ref sig .tc) := [main_call0_v0, main_call0_v1, main_call0_call0_c, main_call0_call0_v0, main_v3]
theorem writes_1 : (hostOps1_1 : List (HloOp τ sig (Elt F))).Forall fun op =>
    op.writes ⊆ (W_1.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide), List.mem_map_of_mem (by decide), List.mem_map_of_mem (by decide)⟩
/-- A buffer stretch 1 does not write holds after it what it held before. -/
theorem keep_1 (V : Valuation τ sig (Elt F)) (r : Ref sig .tc) (h : r ∉ W_1) :
    after hostOps1_1 V (Proc.devRef .tc r) = V (Proc.devRef .tc r) :=
  after_of_writes_sub hostOps1_1 V writes_1 h

/-- The buffers stretch 2 writes, one per operation. -/
abbrev W_2 : List (Ref sig .tc) := [main_c_0, main_v4, main_c_1]
theorem writes_2 : (hostOps1_2 : List (HloOp τ sig (Elt F))).Forall fun op =>
    op.writes ⊆ (W_2.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide)⟩
/-- A buffer stretch 2 does not write holds after it what it held before. -/
theorem keep_2 (V : Valuation τ sig (Elt F)) (r : Ref sig .tc) (h : r ∉ W_2) :
    after hostOps1_2 V (Proc.devRef .tc r) = V (Proc.devRef .tc r) :=
  after_of_writes_sub hostOps1_2 V writes_2 h

/-- The buffers stretch 3 writes, one per operation. -/
abbrev W_3 : List (Ref sig .tc) := [main_call1_v0, main_call1_v1, main_v5]
theorem writes_3 : (hostOps1_3 : List (HloOp τ sig (Elt F))).Forall fun op =>
    op.writes ⊆ (W_3.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide)⟩
/-- A buffer stretch 3 does not write holds after it what it held before. -/
theorem keep_3 (V : Valuation τ sig (Elt F)) (r : Ref sig .tc) (h : r ∉ W_3) :
    after hostOps1_3 V (Proc.devRef .tc r) = V (Proc.devRef .tc r) :=
  after_of_writes_sub hostOps1_3 V writes_3 h

/-- The buffers stretch 4 writes, one per operation. -/
abbrev W_4 : List (Ref sig .tc) := [main_c_2, main_v6, main_v7, main_c_3, main_v8, main_v9, main_v10, main_v11, main_c_4, main_v12, main_v13]
theorem writes_4 : (hostOps1_4 : List (HloOp τ sig (Elt F))).Forall fun op =>
    op.writes ⊆ (W_4.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- A buffer stretch 4 does not write holds after it what it held before. -/
theorem keep_4 (V : Valuation τ sig (Elt F)) (r : Ref sig .tc) (h : r ∉ W_4) :
    after hostOps1_4 V (Proc.devRef .tc r) = V (Proc.devRef .tc r) :=
  after_of_writes_sub hostOps1_4 V writes_4 h

/-- The buffers stretch 5 writes, one per operation. -/
abbrev W_5 : List (Ref sig .tc) := [main_call2_call0_c, main_call2_call0_v0, main_v14]
theorem writes_5 : (hostOps1_5 : List (HloOp τ sig (Elt F))).Forall fun op =>
    op.writes ⊆ (W_5.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide)⟩
/-- A buffer stretch 5 does not write holds after it what it held before. -/
theorem keep_5 (V : Valuation τ sig (Elt F)) (r : Ref sig .tc) (h : r ∉ W_5) :
    after hostOps1_5 V (Proc.devRef .tc r) = V (Proc.devRef .tc r) :=
  after_of_writes_sub hostOps1_5 V writes_5 h

/-- The buffers stretch 6 writes, one per operation. -/
abbrev W_6 : List (Ref sig .tc) := [main_c_5]
theorem writes_6 : (hostOps1_6 : List (HloOp τ sig (Elt F))).Forall fun op =>
    op.writes ⊆ (W_6.map (Proc.devRef (τ := τ) .tc)).toFinset := by
  simp only [List.Forall, nullary_writes, unary_writes, binary_writes, ternary_writes, reshape_writes, Finset.singleton_subset_iff, List.mem_toFinset]
  exact List.mem_map_of_mem (by decide)
/-- A buffer stretch 6 does not write holds after it what it held before. -/
theorem keep_6 (V : Valuation τ sig (Elt F)) (r : Ref sig .tc) (h : r ∉ W_6) :
    after hostOps1_6 V (Proc.devRef .tc r) = V (Proc.devRef .tc r) :=
  after_of_writes_sub hostOps1_6 V writes_6 h

/-- The buffers stretch 7 writes, one per operation. -/
abbrev W_7 : List (Ref sig .tc) := [main_call3_v0, main_call3_v1, main_call3_v2, main_call3_v3, main_call3_v4, main_call3_v5, main_call3_v6, main_call3_v7, main_call3_c, main_call3_v8, main_call3_v9, main_call3_v10, main_call3_c_0, main_call3_v11, main_call3_v12, main_v15]
theorem writes_7 : (hostOps1_7 : List (HloOp τ sig (Elt F))).Forall fun op =>
    op.writes ⊆ (W_7.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- A buffer stretch 7 does not write holds after it what it held before. -/
theorem keep_7 (V : Valuation τ sig (Elt F)) (r : Ref sig .tc) (h : r ∉ W_7) :
    after hostOps1_7 V (Proc.devRef .tc r) = V (Proc.devRef .tc r) :=
  after_of_writes_sub hostOps1_7 V writes_7 h

/-- The buffers stretch 8 writes, one per operation. -/
abbrev W_8 : List (Ref sig .tc) := [main_c_6]
theorem writes_8 : (hostOps1_8 : List (HloOp τ sig (Elt F))).Forall fun op =>
    op.writes ⊆ (W_8.map (Proc.devRef (τ := τ) .tc)).toFinset := by
  simp only [List.Forall, nullary_writes, unary_writes, binary_writes, ternary_writes, reshape_writes, Finset.singleton_subset_iff, List.mem_toFinset]
  exact List.mem_map_of_mem (by decide)
/-- A buffer stretch 8 does not write holds after it what it held before. -/
theorem keep_8 (V : Valuation τ sig (Elt F)) (r : Ref sig .tc) (h : r ∉ W_8) :
    after hostOps1_8 V (Proc.devRef .tc r) = V (Proc.devRef .tc r) :=
  after_of_writes_sub hostOps1_8 V writes_8 h

/-- The buffers stretch 9 writes, one per operation. -/
abbrev W_9 : List (Ref sig .tc) := [main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v16]
theorem writes_9 : (hostOps1_9 : List (HloOp τ sig (Elt F))).Forall fun op =>
    op.writes ⊆ (W_9.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- A buffer stretch 9 does not write holds after it what it held before. -/
theorem keep_9 (V : Valuation τ sig (Elt F)) (r : Ref sig .tc) (h : r ∉ W_9) :
    after hostOps1_9 V (Proc.devRef .tc r) = V (Proc.devRef .tc r) :=
  after_of_writes_sub hostOps1_9 V writes_9 h

/-- The buffers stretch 10 writes, one per operation. -/
abbrev W_10 : List (Ref sig .tc) := [main_c_7]
theorem writes_10 : (hostOps1_10 : List (HloOp τ sig (Elt F))).Forall fun op =>
    op.writes ⊆ (W_10.map (Proc.devRef (τ := τ) .tc)).toFinset := by
  simp only [List.Forall, nullary_writes, unary_writes, binary_writes, ternary_writes, reshape_writes, Finset.singleton_subset_iff, List.mem_toFinset]
  exact List.mem_map_of_mem (by decide)
/-- A buffer stretch 10 does not write holds after it what it held before. -/
theorem keep_10 (V : Valuation τ sig (Elt F)) (r : Ref sig .tc) (h : r ∉ W_10) :
    after hostOps1_10 V (Proc.devRef .tc r) = V (Proc.devRef .tc r) :=
  after_of_writes_sub hostOps1_10 V writes_10 h

/-- The buffers stretch 11 writes, one per operation. -/
abbrev W_11 : List (Ref sig .tc) := [main_call5_v0, main_call5_v1, main_call5_v2, main_call5_v3, main_call5_v4, main_call5_v5, main_call5_v6, main_call5_v7, main_call5_c, main_call5_v8, main_call5_v9, main_call5_v10, main_call5_c_0, main_call5_v11, main_call5_v12, main_v17]
theorem writes_11 : (hostOps1_11 : List (HloOp τ sig (Elt F))).Forall fun op =>
    op.writes ⊆ (W_11.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- A buffer stretch 11 does not write holds after it what it held before. -/
theorem keep_11 (V : Valuation τ sig (Elt F)) (r : Ref sig .tc) (h : r ∉ W_11) :
    after hostOps1_11 V (Proc.devRef .tc r) = V (Proc.devRef .tc r) :=
  after_of_writes_sub hostOps1_11 V writes_11 h

/-- The buffers stretch 12 writes, one per operation. -/
abbrev W_12 : List (Ref sig .tc) := [main_c_8]
theorem writes_12 : (hostOps1_12 : List (HloOp τ sig (Elt F))).Forall fun op =>
    op.writes ⊆ (W_12.map (Proc.devRef (τ := τ) .tc)).toFinset := by
  simp only [List.Forall, nullary_writes, unary_writes, binary_writes, ternary_writes, reshape_writes, Finset.singleton_subset_iff, List.mem_toFinset]
  exact List.mem_map_of_mem (by decide)
/-- A buffer stretch 12 does not write holds after it what it held before. -/
theorem keep_12 (V : Valuation τ sig (Elt F)) (r : Ref sig .tc) (h : r ∉ W_12) :
    after hostOps1_12 V (Proc.devRef .tc r) = V (Proc.devRef .tc r) :=
  after_of_writes_sub hostOps1_12 V writes_12 h

/-- The buffers stretch 13 writes, one per operation. -/
abbrev W_13 : List (Ref sig .tc) := [main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v18]
theorem writes_13 : (hostOps1_13 : List (HloOp τ sig (Elt F))).Forall fun op =>
    op.writes ⊆ (W_13.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- A buffer stretch 13 does not write holds after it what it held before. -/
theorem keep_13 (V : Valuation τ sig (Elt F)) (r : Ref sig .tc) (h : r ∉ W_13) :
    after hostOps1_13 V (Proc.devRef .tc r) = V (Proc.devRef .tc r) :=
  after_of_writes_sub hostOps1_13 V writes_13 h

/-- The buffers stretch 14 writes, one per operation. -/
abbrev W_14 : List (Ref sig .tc) := [main_c_9]
theorem writes_14 : (hostOps1_14 : List (HloOp τ sig (Elt F))).Forall fun op =>
    op.writes ⊆ (W_14.map (Proc.devRef (τ := τ) .tc)).toFinset := by
  simp only [List.Forall, nullary_writes, unary_writes, binary_writes, ternary_writes, reshape_writes, Finset.singleton_subset_iff, List.mem_toFinset]
  exact List.mem_map_of_mem (by decide)
/-- A buffer stretch 14 does not write holds after it what it held before. -/
theorem keep_14 (V : Valuation τ sig (Elt F)) (r : Ref sig .tc) (h : r ∉ W_14) :
    after hostOps1_14 V (Proc.devRef .tc r) = V (Proc.devRef .tc r) :=
  after_of_writes_sub hostOps1_14 V writes_14 h

/-- The buffers stretch 15 writes, one per operation. -/
abbrev W_15 : List (Ref sig .tc) := [main_call7_v0, main_call7_v1, main_call7_v2, main_call7_v3, main_call7_v4, main_call7_v5, main_call7_v6, main_call7_v7, main_call7_c, main_call7_v8, main_call7_v9, main_call7_v10, main_call7_c_0, main_call7_v11, main_call7_v12, main_v19]
theorem writes_15 : (hostOps1_15 : List (HloOp τ sig (Elt F))).Forall fun op =>
    op.writes ⊆ (W_15.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- A buffer stretch 15 does not write holds after it what it held before. -/
theorem keep_15 (V : Valuation τ sig (Elt F)) (r : Ref sig .tc) (h : r ∉ W_15) :
    after hostOps1_15 V (Proc.devRef .tc r) = V (Proc.devRef .tc r) :=
  after_of_writes_sub hostOps1_15 V writes_15 h

/-- The buffers stretch 16 writes, one per operation. -/
abbrev W_16 : List (Ref sig .tc) := [main_c_10]
theorem writes_16 : (hostOps1_16 : List (HloOp τ sig (Elt F))).Forall fun op =>
    op.writes ⊆ (W_16.map (Proc.devRef (τ := τ) .tc)).toFinset := by
  simp only [List.Forall, nullary_writes, unary_writes, binary_writes, ternary_writes, reshape_writes, Finset.singleton_subset_iff, List.mem_toFinset]
  exact List.mem_map_of_mem (by decide)
/-- A buffer stretch 16 does not write holds after it what it held before. -/
theorem keep_16 (V : Valuation τ sig (Elt F)) (r : Ref sig .tc) (h : r ∉ W_16) :
    after hostOps1_16 V (Proc.devRef .tc r) = V (Proc.devRef .tc r) :=
  after_of_writes_sub hostOps1_16 V writes_16 h

/-- The buffers stretch 17 writes, one per operation. -/
abbrev W_17 : List (Ref sig .tc) := [main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v20]
theorem writes_17 : (hostOps1_17 : List (HloOp τ sig (Elt F))).Forall fun op =>
    op.writes ⊆ (W_17.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- A buffer stretch 17 does not write holds after it what it held before. -/
theorem keep_17 (V : Valuation τ sig (Elt F)) (r : Ref sig .tc) (h : r ∉ W_17) :
    after hostOps1_17 V (Proc.devRef .tc r) = V (Proc.devRef .tc r) :=
  after_of_writes_sub hostOps1_17 V writes_17 h

/-- The buffers stretch 18 writes, one per operation. -/
abbrev W_18 : List (Ref sig .tc) := [main_c_11]
theorem writes_18 : (hostOps1_18 : List (HloOp τ sig (Elt F))).Forall fun op =>
    op.writes ⊆ (W_18.map (Proc.devRef (τ := τ) .tc)).toFinset := by
  simp only [List.Forall, nullary_writes, unary_writes, binary_writes, ternary_writes, reshape_writes, Finset.singleton_subset_iff, List.mem_toFinset]
  exact List.mem_map_of_mem (by decide)
/-- A buffer stretch 18 does not write holds after it what it held before. -/
theorem keep_18 (V : Valuation τ sig (Elt F)) (r : Ref sig .tc) (h : r ∉ W_18) :
    after hostOps1_18 V (Proc.devRef .tc r) = V (Proc.devRef .tc r) :=
  after_of_writes_sub hostOps1_18 V writes_18 h

/-- The buffers stretch 19 writes, one per operation. -/
abbrev W_19 : List (Ref sig .tc) := [main_call9_v0, main_call9_v1, main_call9_v2, main_call9_v3, main_call9_v4, main_call9_v5, main_call9_v6, main_call9_v7, main_call9_c, main_call9_v8, main_call9_v9, main_call9_v10, main_call9_c_0, main_call9_v11, main_call9_v12, main_v21]
theorem writes_19 : (hostOps1_19 : List (HloOp τ sig (Elt F))).Forall fun op =>
    op.writes ⊆ (W_19.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- A buffer stretch 19 does not write holds after it what it held before. -/
theorem keep_19 (V : Valuation τ sig (Elt F)) (r : Ref sig .tc) (h : r ∉ W_19) :
    after hostOps1_19 V (Proc.devRef .tc r) = V (Proc.devRef .tc r) :=
  after_of_writes_sub hostOps1_19 V writes_19 h

/-- The buffers stretch 20 writes, one per operation. -/
abbrev W_20 : List (Ref sig .tc) := [main_c_12]
theorem writes_20 : (hostOps1_20 : List (HloOp τ sig (Elt F))).Forall fun op =>
    op.writes ⊆ (W_20.map (Proc.devRef (τ := τ) .tc)).toFinset := by
  simp only [List.Forall, nullary_writes, unary_writes, binary_writes, ternary_writes, reshape_writes, Finset.singleton_subset_iff, List.mem_toFinset]
  exact List.mem_map_of_mem (by decide)
/-- A buffer stretch 20 does not write holds after it what it held before. -/
theorem keep_20 (V : Valuation τ sig (Elt F)) (r : Ref sig .tc) (h : r ∉ W_20) :
    after hostOps1_20 V (Proc.devRef .tc r) = V (Proc.devRef .tc r) :=
  after_of_writes_sub hostOps1_20 V writes_20 h

/-- The buffers stretch 21 writes, one per operation. -/
abbrev W_21 : List (Ref sig .tc) := [main_call10_v0, main_call10_c, main_call10_v1, main_call10_c_0, main_call10_v2, main_call10_v3, main_call10_v4, main_call10_c_1, main_call10_v5, main_call10_v6, main_call10_c_2, main_call10_v7, main_call10_v8, main_call10_c_3, main_call10_v9, main_call10_v10, main_call10_v11, main_call10_v12, main_call10_v13, main_call10_v14, main_v22]
theorem writes_21 : (hostOps1_21 : List (HloOp τ sig (Elt F))).Forall fun op =>
    op.writes ⊆ (W_21.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide), List.mem_map_of_mem (by decide)⟩
/-- A buffer stretch 21 does not write holds after it what it held before. -/
theorem keep_21 (V : Valuation τ sig (Elt F)) (r : Ref sig .tc) (h : r ∉ W_21) :
    after hostOps1_21 V (Proc.devRef .tc r) = V (Proc.devRef .tc r) :=
  after_of_writes_sub hostOps1_21 V writes_21 h

/-- The buffers stretch 22 writes, one per operation. -/
abbrev W_22 : List (Ref sig .tc) := [main_v23, main_v24, main_c_13, main_v25, main_v26, main_v27, main_c_14]
theorem writes_22 : (hostOps1_22 : List (HloOp τ sig (Elt F))).Forall fun op =>
    op.writes ⊆ (W_22.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide), List.mem_map_of_mem (by decide), List.mem_map_of_mem (by decide), List.mem_map_of_mem (by decide), List.mem_map_of_mem (by decide)⟩
/-- A buffer stretch 22 does not write holds after it what it held before. -/
theorem keep_22 (V : Valuation τ sig (Elt F)) (r : Ref sig .tc) (h : r ∉ W_22) :
    after hostOps1_22 V (Proc.devRef .tc r) = V (Proc.devRef .tc r) :=
  after_of_writes_sub hostOps1_22 V writes_22 h

/-- The buffers stretch 23 writes, one per operation. -/
abbrev W_23 : List (Ref sig .tc) := [main_call11_v0, main_call11_v1, main_v28]
theorem writes_23 : (hostOps1_23 : List (HloOp τ sig (Elt F))).Forall fun op =>
    op.writes ⊆ (W_23.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide)⟩
/-- A buffer stretch 23 does not write holds after it what it held before. -/
theorem keep_23 (V : Valuation τ sig (Elt F)) (r : Ref sig .tc) (h : r ∉ W_23) :
    after hostOps1_23 V (Proc.devRef .tc r) = V (Proc.devRef .tc r) :=
  after_of_writes_sub hostOps1_23 V writes_23 h

/-- The buffers stretch 24 writes, one per operation. -/
abbrev W_24 : List (Ref sig .tc) := [main_c_15]
theorem writes_24 : (hostOps1_24 : List (HloOp τ sig (Elt F))).Forall fun op =>
    op.writes ⊆ (W_24.map (Proc.devRef (τ := τ) .tc)).toFinset := by
  simp only [List.Forall, nullary_writes, unary_writes, binary_writes, ternary_writes, reshape_writes, Finset.singleton_subset_iff, List.mem_toFinset]
  exact List.mem_map_of_mem (by decide)
/-- A buffer stretch 24 does not write holds after it what it held before. -/
theorem keep_24 (V : Valuation τ sig (Elt F)) (r : Ref sig .tc) (h : r ∉ W_24) :
    after hostOps1_24 V (Proc.devRef .tc r) = V (Proc.devRef .tc r) :=
  after_of_writes_sub hostOps1_24 V writes_24 h

/-- The buffers stretch 25 writes, one per operation. -/
abbrev W_25 : List (Ref sig .tc) := [main_call12_v0, main_call12_v1, main_v29]
theorem writes_25 : (hostOps1_25 : List (HloOp τ sig (Elt F))).Forall fun op =>
    op.writes ⊆ (W_25.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide)⟩
/-- A buffer stretch 25 does not write holds after it what it held before. -/
theorem keep_25 (V : Valuation τ sig (Elt F)) (r : Ref sig .tc) (h : r ∉ W_25) :
    after hostOps1_25 V (Proc.devRef .tc r) = V (Proc.devRef .tc r) :=
  after_of_writes_sub hostOps1_25 V writes_25 h

/-- The buffers stretch 26 writes, one per operation. -/
abbrev W_26 : List (Ref sig .tc) := [main_c_16]
theorem writes_26 : (hostOps1_26 : List (HloOp τ sig (Elt F))).Forall fun op =>
    op.writes ⊆ (W_26.map (Proc.devRef (τ := τ) .tc)).toFinset := by
  simp only [List.Forall, nullary_writes, unary_writes, binary_writes, ternary_writes, reshape_writes, Finset.singleton_subset_iff, List.mem_toFinset]
  exact List.mem_map_of_mem (by decide)
/-- A buffer stretch 26 does not write holds after it what it held before. -/
theorem keep_26 (V : Valuation τ sig (Elt F)) (r : Ref sig .tc) (h : r ∉ W_26) :
    after hostOps1_26 V (Proc.devRef .tc r) = V (Proc.devRef .tc r) :=
  after_of_writes_sub hostOps1_26 V writes_26 h

/-- The buffers stretch 27 writes, one per operation. -/
abbrev W_27 : List (Ref sig .tc) := [main_call13_v0, main_call13_v1, main_v30]
theorem writes_27 : (hostOps1_27 : List (HloOp τ sig (Elt F))).Forall fun op =>
    op.writes ⊆ (W_27.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide)⟩
/-- A buffer stretch 27 does not write holds after it what it held before. -/
theorem keep_27 (V : Valuation τ sig (Elt F)) (r : Ref sig .tc) (h : r ∉ W_27) :
    after hostOps1_27 V (Proc.devRef .tc r) = V (Proc.devRef .tc r) :=
  after_of_writes_sub hostOps1_27 V writes_27 h

/-- The buffers stretch 28 writes, one per operation. -/
abbrev W_28 : List (Ref sig .tc) := [main_c_17]
theorem writes_28 : (hostOps1_28 : List (HloOp τ sig (Elt F))).Forall fun op =>
    op.writes ⊆ (W_28.map (Proc.devRef (τ := τ) .tc)).toFinset := by
  simp only [List.Forall, nullary_writes, unary_writes, binary_writes, ternary_writes, reshape_writes, Finset.singleton_subset_iff, List.mem_toFinset]
  exact List.mem_map_of_mem (by decide)
/-- A buffer stretch 28 does not write holds after it what it held before. -/
theorem keep_28 (V : Valuation τ sig (Elt F)) (r : Ref sig .tc) (h : r ∉ W_28) :
    after hostOps1_28 V (Proc.devRef .tc r) = V (Proc.devRef .tc r) :=
  after_of_writes_sub hostOps1_28 V writes_28 h

/-- The buffers stretch 29 writes, one per operation. -/
abbrev W_29 : List (Ref sig .tc) := [main_call14_v0, main_call14_v1, main_v31]
theorem writes_29 : (hostOps1_29 : List (HloOp τ sig (Elt F))).Forall fun op =>
    op.writes ⊆ (W_29.map (Proc.devRef (τ := τ) .tc)).toFinset := by
  simp only [List.Forall, nullary_writes, unary_writes, binary_writes, ternary_writes, reshape_writes, Finset.singleton_subset_iff, List.mem_toFinset]
  exact ⟨List.mem_map_of_mem (by decide), List.mem_map_of_mem (by decide), List.mem_map_of_mem (by decide)⟩
/-- A buffer stretch 29 does not write holds after it what it held before. -/
theorem keep_29 (V : Valuation τ sig (Elt F)) (r : Ref sig .tc) (h : r ∉ W_29) :
    after hostOps1_29 V (Proc.devRef .tc r) = V (Proc.devRef .tc r) :=
  after_of_writes_sub hostOps1_29 V writes_29 h

/-! ## What each stretch leaves at the buffers read later, over any contents -/

attribute [local irreducible] Host.reduceWindow Host.reduce Host.scatter iotaInDim in
set_option maxHeartbeats 1000000 in
/-- Stretch 1 leaves the running count of the mask's set bits. -/
theorem out_1 (V : Valuation τ sig (Elt F)) :
    after hostOps1_1 V (main_v3 : DevRef τ sig) = runningCount (V (main_v2 : DevRef τ sig)) := by
  after_results_simp
  unfold runningCount zero0
  rfl

attribute [local irreducible] Host.reduceWindow Host.reduce Host.scatter iotaInDim in
set_option maxHeartbeats 1000000 in
/-- Stretch 2 leaves K zeros, -/
theorem out_2a (V : Valuation τ sig (Elt F)) :
    after hostOps1_2 V (main_v4 : DevRef τ sig) = broadcastInDim S3355443 ![] bcast_S_S3355443 (constantI S_ 32 0#32) := by
  after_results_simp

attribute [local irreducible] Host.reduceWindow Host.reduce Host.scatter iotaInDim in
set_option maxHeartbeats 1000000 in
/-- and the scalar zero the clip takes. -/
theorem out_2b (V : Valuation τ sig (Elt F)) :
    after hostOps1_2 V (main_c_1 : DevRef τ sig) = constantI S_ 32 0#32 := by
  after_results_simp

attribute [local irreducible] Host.reduceWindow Host.reduce Host.scatter iotaInDim in
set_option maxHeartbeats 1000000 in
/-- Stretch 3 clips below at the scalar. -/
theorem out_3 (V : Valuation τ sig (Elt F)) :
    after hostOps1_3 V (main_v5 : DevRef τ sig) = clipLow (V (main_v3 : DevRef τ sig)) (V (main_c_1 : DevRef τ sig)) := by
  after_results_simp
  unfold clipLow
  rfl

attribute [local irreducible] Host.reduceWindow Host.reduce Host.scatter iotaInDim in
set_option maxHeartbeats 1000000 in
/-- Stretch 4, started from K zeros, leaves the votes per slot of the wrapped indices. -/
theorem out_4 (V : Valuation τ sig (Elt F)) (hz : (V (main_v4 : DevRef τ sig)) = broadcastInDim S3355443 ![] bcast_S_S3355443 (constantI S_ 32 0#32)) :
    after hostOps1_4 V (main_v13 : DevRef τ sig) = votes (wrapIndex (V (main_v5 : DevRef τ sig))) := by
  after_results_simp
  rw [hz]
  unfold votes wrapIndex
  rfl

attribute [local irreducible] Host.reduceWindow Host.reduce Host.scatter iotaInDim in
set_option maxHeartbeats 1000000 in
/-- Stretch 5 leaves the running sum over the slots. -/
theorem out_5 (V : Valuation τ sig (Elt F)) :
    after hostOps1_5 V (main_v14 : DevRef τ sig) = runningVotes (V (main_v13 : DevRef τ sig)) := by
  after_results_simp
  unfold runningVotes zero0
  rfl

attribute [local irreducible] Host.reduceWindow Host.reduce Host.scatter iotaInDim in
set_option maxHeartbeats 1000000 in
/-- The scalar 1024. -/
theorem out_14 (V : Valuation τ sig (Elt F)) :
    after hostOps1_14 V (main_c_9 : DevRef τ sig) = constantI S_ 32 1024#32 := by
  after_results_simp

attribute [local irreducible] Host.reduceWindow Host.reduce Host.scatter iotaInDim in
set_option maxHeartbeats 1000000 in
/-- Stretch 15 is the floor division by the scalar. -/
theorem out_15 (V : Valuation τ sig (Elt F)) :
    after hostOps1_15 V (main_v19 : DevRef τ sig) = floorDivide (V (main_v14 : DevRef τ sig)) (V (main_c_9 : DevRef τ sig)) := by
  after_results_simp
  unfold floorDivide
  rfl

attribute [local irreducible] Host.reduceWindow Host.reduce Host.scatter iotaInDim in
set_option maxHeartbeats 1000000 in
/-- The scalar 1024. -/
theorem out_16 (V : Valuation τ sig (Elt F)) :
    after hostOps1_16 V (main_c_10 : DevRef τ sig) = constantI S_ 32 1024#32 := by
  after_results_simp

attribute [local irreducible] Host.reduceWindow Host.reduce Host.scatter iotaInDim in
set_option maxHeartbeats 1000000 in
/-- Stretch 17 is the remainder by the scalar. -/
theorem out_17 (V : Valuation τ sig (Elt F)) :
    after hostOps1_17 V (main_v20 : DevRef τ sig) = remainder (V (main_v19 : DevRef τ sig)) (V (main_c_10 : DevRef τ sig)) := by
  after_results_simp
  unfold remainder remainderBy safeDivisor
  rfl

attribute [local irreducible] Host.reduceWindow Host.reduce Host.scatter iotaInDim in
set_option maxHeartbeats 1000000 in
/-- The scalar one. -/
theorem out_18 (V : Valuation τ sig (Elt F)) :
    after hostOps1_18 V (main_c_11 : DevRef τ sig) = constantI S_ 32 1#32 := by
  after_results_simp

attribute [local irreducible] Host.reduceWindow Host.reduce Host.scatter iotaInDim in
set_option maxHeartbeats 1000000 in
/-- Stretch 19 is the floor division by the scalar. -/
theorem out_19 (V : Valuation τ sig (Elt F)) :
    after hostOps1_19 V (main_v21 : DevRef τ sig) = floorDivide (V (main_v14 : DevRef τ sig)) (V (main_c_11 : DevRef τ sig)) := by
  after_results_simp
  unfold floorDivide
  rfl

attribute [local irreducible] Host.reduceWindow Host.reduce Host.scatter iotaInDim in
set_option maxHeartbeats 1000000 in
/-- The scalar 1024. -/
theorem out_20 (V : Valuation τ sig (Elt F)) :
    after hostOps1_20 V (main_c_12 : DevRef τ sig) = constantI S_ 32 1024#32 := by
  after_results_simp

attribute [local irreducible] Host.reduceWindow Host.reduce Host.scatter iotaInDim in
set_option maxHeartbeats 1000000 in
/-- Stretch 21 is the remainder by the scalar. -/
theorem out_21 (V : Valuation τ sig (Elt F)) :
    after hostOps1_21 V (main_v22 : DevRef τ sig) = remainder (V (main_v21 : DevRef τ sig)) (V (main_c_12 : DevRef τ sig)) := by
  after_results_simp
  unfold remainder remainderBy safeDivisor
  rfl

attribute [local irreducible] Host.reduceWindow Host.reduce Host.scatter iotaInDim in
set_option maxHeartbeats 1000000 in
/-- Stretch 22 marks the slots at or beyond the number of set bits. -/
theorem out_22 (V : Valuation τ sig (Elt F)) :
    after hostOps1_22 V (main_v27 : DevRef τ sig) = beyond (V (main_v2 : DevRef τ sig)) := by
  after_results_simp
  unfold beyond total
  rfl

attribute [local irreducible] Host.reduceWindow Host.reduce Host.scatter iotaInDim in
set_option maxHeartbeats 1000000 in
/-- The scalar zero. -/
theorem out_26 (V : Valuation τ sig (Elt F)) :
    after hostOps1_26 V (main_c_16 : DevRef τ sig) = constantI S_ 32 0#32 := by
  after_results_simp

attribute [local irreducible] Host.reduceWindow Host.reduce Host.scatter iotaInDim in
set_option maxHeartbeats 1000000 in
/-- Stretch 27 fills the marked slots of the rows with the scalar. -/
theorem out_27 (V : Valuation τ sig (Elt F)) :
    after hostOps1_27 V (main_v30 : DevRef τ sig) = fill (V (main_v27 : DevRef τ sig)) (V (main_c_16 : DevRef τ sig)) (V (main_v20 : DevRef τ sig)) := by
  after_results_simp
  unfold fill
  rfl

attribute [local irreducible] Host.reduceWindow Host.reduce Host.scatter iotaInDim in
set_option maxHeartbeats 1000000 in
/-- The scalar zero. -/
theorem out_28 (V : Valuation τ sig (Elt F)) :
    after hostOps1_28 V (main_c_17 : DevRef τ sig) = constantI S_ 32 0#32 := by
  after_results_simp

attribute [local irreducible] Host.reduceWindow Host.reduce Host.scatter iotaInDim in
set_option maxHeartbeats 1000000 in
/-- Stretch 29 fills the marked slots of the columns with the scalar. -/
theorem out_29 (V : Valuation τ sig (Elt F)) :
    after hostOps1_29 V (main_v31 : DevRef τ sig) = fill (V (main_v27 : DevRef τ sig)) (V (main_c_17 : DevRef τ sig)) (V (main_v22 : DevRef τ sig)) := by
  after_results_simp
  unfold fill
  rfl

attribute [local irreducible] Host.reduceWindow Host.reduce Host.scatter iotaInDim in
set_option maxHeartbeats 1000000 in
/-- Stretch 30 stacks the two coordinate rows. -/
theorem out_30 (V : Valuation τ sig (Elt F)) :
    after hostOps1_30 V (main_v34 : DevRef τ sig) = concatenate S2x3355443 0
      [⟨S1x3355443, broadcastInDim S1x3355443 ![1] bcast_S3355443_S1x3355443_1 (V (main_v30 : DevRef τ sig))⟩,
       ⟨S1x3355443, broadcastInDim S1x3355443 ![1] bcast_S3355443_S1x3355443_1 (V (main_v31 : DevRef τ sig))⟩]
      concatenates_S1x3355443_S1x3355443_S2x3355443_d0 := by
  after_results_simp
  rfl

/-! ## The stretches in a row -/

/-- The first stretch; `pre_k` is the first k stretches in a row. -/
def pre_1 : List (HloOp τ sig (Elt F)) := hostOps1_1
def pre_2 : List (HloOp τ sig (Elt F)) := pre_1 ++ hostOps1_2
def pre_3 : List (HloOp τ sig (Elt F)) := pre_2 ++ hostOps1_3
def pre_4 : List (HloOp τ sig (Elt F)) := pre_3 ++ hostOps1_4
def pre_5 : List (HloOp τ sig (Elt F)) := pre_4 ++ hostOps1_5
def pre_6 : List (HloOp τ sig (Elt F)) := pre_5 ++ hostOps1_6
def pre_7 : List (HloOp τ sig (Elt F)) := pre_6 ++ hostOps1_7
def pre_8 : List (HloOp τ sig (Elt F)) := pre_7 ++ hostOps1_8
def pre_9 : List (HloOp τ sig (Elt F)) := pre_8 ++ hostOps1_9
def pre_10 : List (HloOp τ sig (Elt F)) := pre_9 ++ hostOps1_10
def pre_11 : List (HloOp τ sig (Elt F)) := pre_10 ++ hostOps1_11
def pre_12 : List (HloOp τ sig (Elt F)) := pre_11 ++ hostOps1_12
def pre_13 : List (HloOp τ sig (Elt F)) := pre_12 ++ hostOps1_13
def pre_14 : List (HloOp τ sig (Elt F)) := pre_13 ++ hostOps1_14
def pre_15 : List (HloOp τ sig (Elt F)) := pre_14 ++ hostOps1_15
def pre_16 : List (HloOp τ sig (Elt F)) := pre_15 ++ hostOps1_16
def pre_17 : List (HloOp τ sig (Elt F)) := pre_16 ++ hostOps1_17
def pre_18 : List (HloOp τ sig (Elt F)) := pre_17 ++ hostOps1_18
def pre_19 : List (HloOp τ sig (Elt F)) := pre_18 ++ hostOps1_19
def pre_20 : List (HloOp τ sig (Elt F)) := pre_19 ++ hostOps1_20
def pre_21 : List (HloOp τ sig (Elt F)) := pre_20 ++ hostOps1_21
def pre_22 : List (HloOp τ sig (Elt F)) := pre_21 ++ hostOps1_22
def pre_23 : List (HloOp τ sig (Elt F)) := pre_22 ++ hostOps1_23
def pre_24 : List (HloOp τ sig (Elt F)) := pre_23 ++ hostOps1_24
def pre_25 : List (HloOp τ sig (Elt F)) := pre_24 ++ hostOps1_25
def pre_26 : List (HloOp τ sig (Elt F)) := pre_25 ++ hostOps1_26
def pre_27 : List (HloOp τ sig (Elt F)) := pre_26 ++ hostOps1_27
def pre_28 : List (HloOp τ sig (Elt F)) := pre_27 ++ hostOps1_28
def pre_29 : List (HloOp τ sig (Elt F)) := pre_28 ++ hostOps1_29
def pre_30 : List (HloOp τ sig (Elt F)) := pre_29 ++ hostOps1_30

/-! ## The live buffers after the first k stretches, as terms in the mask -/

theorem val_1_v2 (V : Valuation τ sig (Elt F)) :
    after pre_1 V (main_v2 : DevRef τ sig) = V (main_v2 : DevRef τ sig) := by
  rw [pre_1, keep_1 _ main_v2 (by decide)]
theorem val_1_v3 (V : Valuation τ sig (Elt F)) :
    after pre_1 V (main_v3 : DevRef τ sig) = runningCount (V (main_v2 : DevRef τ sig)) := by
  rw [pre_1, out_1]
theorem val_2_v2 (V : Valuation τ sig (Elt F)) :
    after pre_2 V (main_v2 : DevRef τ sig) = V (main_v2 : DevRef τ sig) := by
  rw [pre_2, after_app, keep_2 _ main_v2 (by decide), val_1_v2 V]
theorem val_2_v3 (V : Valuation τ sig (Elt F)) :
    after pre_2 V (main_v3 : DevRef τ sig) = runningCount (V (main_v2 : DevRef τ sig)) := by
  rw [pre_2, after_app, keep_2 _ main_v3 (by decide), val_1_v3 V]
theorem val_2_v4 (V : Valuation τ sig (Elt F)) :
    after pre_2 V (main_v4 : DevRef τ sig) = broadcastInDim S3355443 ![] bcast_S_S3355443 (constantI S_ 32 0#32) := by
  rw [pre_2, after_app, out_2a]
theorem val_2_c_1 (V : Valuation τ sig (Elt F)) :
    after pre_2 V (main_c_1 : DevRef τ sig) = constantI S_ 32 0#32 := by
  rw [pre_2, after_app, out_2b]
theorem val_3_v2 (V : Valuation τ sig (Elt F)) :
    after pre_3 V (main_v2 : DevRef τ sig) = V (main_v2 : DevRef τ sig) := by
  rw [pre_3, after_app, keep_3 _ main_v2 (by decide), val_2_v2 V]
theorem val_3_v4 (V : Valuation τ sig (Elt F)) :
    after pre_3 V (main_v4 : DevRef τ sig) = broadcastInDim S3355443 ![] bcast_S_S3355443 (constantI S_ 32 0#32) := by
  rw [pre_3, after_app, keep_3 _ main_v4 (by decide), val_2_v4 V]
theorem val_3_v5 (V : Valuation τ sig (Elt F)) :
    after pre_3 V (main_v5 : DevRef τ sig) = clipLow (runningCount (V (main_v2 : DevRef τ sig))) (constantI S_ 32 0#32) := by
  rw [pre_3, after_app, out_3, val_2_v3 V, val_2_c_1 V]
theorem val_4_v2 (V : Valuation τ sig (Elt F)) :
    after pre_4 V (main_v2 : DevRef τ sig) = V (main_v2 : DevRef τ sig) := by
  rw [pre_4, after_app, keep_4 _ main_v2 (by decide), val_3_v2 V]
theorem val_4_v13 (V : Valuation τ sig (Elt F)) :
    after pre_4 V (main_v13 : DevRef τ sig) = votes (wrapIndex (clipLow (runningCount (V (main_v2 : DevRef τ sig))) (constantI S_ 32 0#32))) := by
  rw [pre_4, after_app, out_4 _ (val_3_v4 V), val_3_v5 V]
theorem val_5_v2 (V : Valuation τ sig (Elt F)) :
    after pre_5 V (main_v2 : DevRef τ sig) = V (main_v2 : DevRef τ sig) := by
  rw [pre_5, after_app, keep_5 _ main_v2 (by decide), val_4_v2 V]
theorem val_5_v14 (V : Valuation τ sig (Elt F)) :
    after pre_5 V (main_v14 : DevRef τ sig) = runningVotes (votes (wrapIndex (clipLow (runningCount (V (main_v2 : DevRef τ sig))) (constantI S_ 32 0#32)))) := by
  rw [pre_5, after_app, out_5, val_4_v13 V]
theorem val_6_v2 (V : Valuation τ sig (Elt F)) :
    after pre_6 V (main_v2 : DevRef τ sig) = V (main_v2 : DevRef τ sig) := by
  rw [pre_6, after_app, keep_6 _ main_v2 (by decide), val_5_v2 V]
theorem val_6_v14 (V : Valuation τ sig (Elt F)) :
    after pre_6 V (main_v14 : DevRef τ sig) = runningVotes (votes (wrapIndex (clipLow (runningCount (V (main_v2 : DevRef τ sig))) (constantI S_ 32 0#32)))) := by
  rw [pre_6, after_app, keep_6 _ main_v14 (by decide), val_5_v14 V]
theorem val_7_v2 (V : Valuation τ sig (Elt F)) :
    after pre_7 V (main_v2 : DevRef τ sig) = V (main_v2 : DevRef τ sig) := by
  rw [pre_7, after_app, keep_7 _ main_v2 (by decide), val_6_v2 V]
theorem val_7_v14 (V : Valuation τ sig (Elt F)) :
    after pre_7 V (main_v14 : DevRef τ sig) = runningVotes (votes (wrapIndex (clipLow (runningCount (V (main_v2 : DevRef τ sig))) (constantI S_ 32 0#32)))) := by
  rw [pre_7, after_app, keep_7 _ main_v14 (by decide), val_6_v14 V]
theorem val_8_v2 (V : Valuation τ sig (Elt F)) :
    after pre_8 V (main_v2 : DevRef τ sig) = V (main_v2 : DevRef τ sig) := by
  rw [pre_8, after_app, keep_8 _ main_v2 (by decide), val_7_v2 V]
theorem val_8_v14 (V : Valuation τ sig (Elt F)) :
    after pre_8 V (main_v14 : DevRef τ sig) = runningVotes (votes (wrapIndex (clipLow (runningCount (V (main_v2 : DevRef τ sig))) (constantI S_ 32 0#32)))) := by
  rw [pre_8, after_app, keep_8 _ main_v14 (by decide), val_7_v14 V]
theorem val_9_v2 (V : Valuation τ sig (Elt F)) :
    after pre_9 V (main_v2 : DevRef τ sig) = V (main_v2 : DevRef τ sig) := by
  rw [pre_9, after_app, keep_9 _ main_v2 (by decide), val_8_v2 V]
theorem val_9_v14 (V : Valuation τ sig (Elt F)) :
    after pre_9 V (main_v14 : DevRef τ sig) = runningVotes (votes (wrapIndex (clipLow (runningCount (V (main_v2 : DevRef τ sig))) (constantI S_ 32 0#32)))) := by
  rw [pre_9, after_app, keep_9 _ main_v14 (by decide), val_8_v14 V]
theorem val_10_v2 (V : Valuation τ sig (Elt F)) :
    after pre_10 V (main_v2 : DevRef τ sig) = V (main_v2 : DevRef τ sig) := by
  rw [pre_10, after_app, keep_10 _ main_v2 (by decide), val_9_v2 V]
theorem val_10_v14 (V : Valuation τ sig (Elt F)) :
    after pre_10 V (main_v14 : DevRef τ sig) = runningVotes (votes (wrapIndex (clipLow (runningCount (V (main_v2 : DevRef τ sig))) (constantI S_ 32 0#32)))) := by
  rw [pre_10, after_app, keep_10 _ main_v14 (by decide), val_9_v14 V]
theorem val_11_v2 (V : Valuation τ sig (Elt F)) :
    after pre_11 V (main_v2 : DevRef τ sig) = V (main_v2 : DevRef τ sig) := by
  rw [pre_11, after_app, keep_11 _ main_v2 (by decide), val_10_v2 V]
theorem val_11_v14 (V : Valuation τ sig (Elt F)) :
    after pre_11 V (main_v14 : DevRef τ sig) = runningVotes (votes (wrapIndex (clipLow (runningCount (V (main_v2 : DevRef τ sig))) (constantI S_ 32 0#32)))) := by
  rw [pre_11, after_app, keep_11 _ main_v14 (by decide), val_10_v14 V]
theorem val_12_v2 (V : Valuation τ sig (Elt F)) :
    after pre_12 V (main_v2 : DevRef τ sig) = V (main_v2 : DevRef τ sig) := by
  rw [pre_12, after_app, keep_12 _ main_v2 (by decide), val_11_v2 V]
theorem val_12_v14 (V : Valuation τ sig (Elt F)) :
    after pre_12 V (main_v14 : DevRef τ sig) = runningVotes (votes (wrapIndex (clipLow (runningCount (V (main_v2 : DevRef τ sig))) (constantI S_ 32 0#32)))) := by
  rw [pre_12, after_app, keep_12 _ main_v14 (by decide), val_11_v14 V]
theorem val_13_v2 (V : Valuation τ sig (Elt F)) :
    after pre_13 V (main_v2 : DevRef τ sig) = V (main_v2 : DevRef τ sig) := by
  rw [pre_13, after_app, keep_13 _ main_v2 (by decide), val_12_v2 V]
theorem val_13_v14 (V : Valuation τ sig (Elt F)) :
    after pre_13 V (main_v14 : DevRef τ sig) = runningVotes (votes (wrapIndex (clipLow (runningCount (V (main_v2 : DevRef τ sig))) (constantI S_ 32 0#32)))) := by
  rw [pre_13, after_app, keep_13 _ main_v14 (by decide), val_12_v14 V]
theorem val_14_v2 (V : Valuation τ sig (Elt F)) :
    after pre_14 V (main_v2 : DevRef τ sig) = V (main_v2 : DevRef τ sig) := by
  rw [pre_14, after_app, keep_14 _ main_v2 (by decide), val_13_v2 V]
theorem val_14_v14 (V : Valuation τ sig (Elt F)) :
    after pre_14 V (main_v14 : DevRef τ sig) = runningVotes (votes (wrapIndex (clipLow (runningCount (V (main_v2 : DevRef τ sig))) (constantI S_ 32 0#32)))) := by
  rw [pre_14, after_app, keep_14 _ main_v14 (by decide), val_13_v14 V]
theorem val_14_c_9 (V : Valuation τ sig (Elt F)) :
    after pre_14 V (main_c_9 : DevRef τ sig) = constantI S_ 32 1024#32 := by
  rw [pre_14, after_app, out_14]
theorem val_15_v2 (V : Valuation τ sig (Elt F)) :
    after pre_15 V (main_v2 : DevRef τ sig) = V (main_v2 : DevRef τ sig) := by
  rw [pre_15, after_app, keep_15 _ main_v2 (by decide), val_14_v2 V]
theorem val_15_v14 (V : Valuation τ sig (Elt F)) :
    after pre_15 V (main_v14 : DevRef τ sig) = runningVotes (votes (wrapIndex (clipLow (runningCount (V (main_v2 : DevRef τ sig))) (constantI S_ 32 0#32)))) := by
  rw [pre_15, after_app, keep_15 _ main_v14 (by decide), val_14_v14 V]
theorem val_15_v19 (V : Valuation τ sig (Elt F)) :
    after pre_15 V (main_v19 : DevRef τ sig) = floorDivide (runningVotes (votes (wrapIndex (clipLow (runningCount (V (main_v2 : DevRef τ sig))) (constantI S_ 32 0#32))))) (constantI S_ 32 1024#32) := by
  rw [pre_15, after_app, out_15, val_14_v14 V, val_14_c_9 V]
theorem val_16_v2 (V : Valuation τ sig (Elt F)) :
    after pre_16 V (main_v2 : DevRef τ sig) = V (main_v2 : DevRef τ sig) := by
  rw [pre_16, after_app, keep_16 _ main_v2 (by decide), val_15_v2 V]
theorem val_16_v14 (V : Valuation τ sig (Elt F)) :
    after pre_16 V (main_v14 : DevRef τ sig) = runningVotes (votes (wrapIndex (clipLow (runningCount (V (main_v2 : DevRef τ sig))) (constantI S_ 32 0#32)))) := by
  rw [pre_16, after_app, keep_16 _ main_v14 (by decide), val_15_v14 V]
theorem val_16_v19 (V : Valuation τ sig (Elt F)) :
    after pre_16 V (main_v19 : DevRef τ sig) = floorDivide (runningVotes (votes (wrapIndex (clipLow (runningCount (V (main_v2 : DevRef τ sig))) (constantI S_ 32 0#32))))) (constantI S_ 32 1024#32) := by
  rw [pre_16, after_app, keep_16 _ main_v19 (by decide), val_15_v19 V]
theorem val_16_c_10 (V : Valuation τ sig (Elt F)) :
    after pre_16 V (main_c_10 : DevRef τ sig) = constantI S_ 32 1024#32 := by
  rw [pre_16, after_app, out_16]
theorem val_17_v2 (V : Valuation τ sig (Elt F)) :
    after pre_17 V (main_v2 : DevRef τ sig) = V (main_v2 : DevRef τ sig) := by
  rw [pre_17, after_app, keep_17 _ main_v2 (by decide), val_16_v2 V]
theorem val_17_v14 (V : Valuation τ sig (Elt F)) :
    after pre_17 V (main_v14 : DevRef τ sig) = runningVotes (votes (wrapIndex (clipLow (runningCount (V (main_v2 : DevRef τ sig))) (constantI S_ 32 0#32)))) := by
  rw [pre_17, after_app, keep_17 _ main_v14 (by decide), val_16_v14 V]
theorem val_17_v20 (V : Valuation τ sig (Elt F)) :
    after pre_17 V (main_v20 : DevRef τ sig) = remainder (floorDivide (runningVotes (votes (wrapIndex (clipLow (runningCount (V (main_v2 : DevRef τ sig))) (constantI S_ 32 0#32))))) (constantI S_ 32 1024#32)) (constantI S_ 32 1024#32) := by
  rw [pre_17, after_app, out_17, val_16_v19 V, val_16_c_10 V]
theorem val_18_v2 (V : Valuation τ sig (Elt F)) :
    after pre_18 V (main_v2 : DevRef τ sig) = V (main_v2 : DevRef τ sig) := by
  rw [pre_18, after_app, keep_18 _ main_v2 (by decide), val_17_v2 V]
theorem val_18_v14 (V : Valuation τ sig (Elt F)) :
    after pre_18 V (main_v14 : DevRef τ sig) = runningVotes (votes (wrapIndex (clipLow (runningCount (V (main_v2 : DevRef τ sig))) (constantI S_ 32 0#32)))) := by
  rw [pre_18, after_app, keep_18 _ main_v14 (by decide), val_17_v14 V]
theorem val_18_v20 (V : Valuation τ sig (Elt F)) :
    after pre_18 V (main_v20 : DevRef τ sig) = remainder (floorDivide (runningVotes (votes (wrapIndex (clipLow (runningCount (V (main_v2 : DevRef τ sig))) (constantI S_ 32 0#32))))) (constantI S_ 32 1024#32)) (constantI S_ 32 1024#32) := by
  rw [pre_18, after_app, keep_18 _ main_v20 (by decide), val_17_v20 V]
theorem val_18_c_11 (V : Valuation τ sig (Elt F)) :
    after pre_18 V (main_c_11 : DevRef τ sig) = constantI S_ 32 1#32 := by
  rw [pre_18, after_app, out_18]
theorem val_19_v2 (V : Valuation τ sig (Elt F)) :
    after pre_19 V (main_v2 : DevRef τ sig) = V (main_v2 : DevRef τ sig) := by
  rw [pre_19, after_app, keep_19 _ main_v2 (by decide), val_18_v2 V]
theorem val_19_v20 (V : Valuation τ sig (Elt F)) :
    after pre_19 V (main_v20 : DevRef τ sig) = remainder (floorDivide (runningVotes (votes (wrapIndex (clipLow (runningCount (V (main_v2 : DevRef τ sig))) (constantI S_ 32 0#32))))) (constantI S_ 32 1024#32)) (constantI S_ 32 1024#32) := by
  rw [pre_19, after_app, keep_19 _ main_v20 (by decide), val_18_v20 V]
theorem val_19_v21 (V : Valuation τ sig (Elt F)) :
    after pre_19 V (main_v21 : DevRef τ sig) = floorDivide (runningVotes (votes (wrapIndex (clipLow (runningCount (V (main_v2 : DevRef τ sig))) (constantI S_ 32 0#32))))) (constantI S_ 32 1#32) := by
  rw [pre_19, after_app, out_19, val_18_v14 V, val_18_c_11 V]
theorem val_20_v2 (V : Valuation τ sig (Elt F)) :
    after pre_20 V (main_v2 : DevRef τ sig) = V (main_v2 : DevRef τ sig) := by
  rw [pre_20, after_app, keep_20 _ main_v2 (by decide), val_19_v2 V]
theorem val_20_v20 (V : Valuation τ sig (Elt F)) :
    after pre_20 V (main_v20 : DevRef τ sig) = remainder (floorDivide (runningVotes (votes (wrapIndex (clipLow (runningCount (V (main_v2 : DevRef τ sig))) (constantI S_ 32 0#32))))) (constantI S_ 32 1024#32)) (constantI S_ 32 1024#32) := by
  rw [pre_20, after_app, keep_20 _ main_v20 (by decide), val_19_v20 V]
theorem val_20_v21 (V : Valuation τ sig (Elt F)) :
    after pre_20 V (main_v21 : DevRef τ sig) = floorDivide (runningVotes (votes (wrapIndex (clipLow (runningCount (V (main_v2 : DevRef τ sig))) (constantI S_ 32 0#32))))) (constantI S_ 32 1#32) := by
  rw [pre_20, after_app, keep_20 _ main_v21 (by decide), val_19_v21 V]
theorem val_20_c_12 (V : Valuation τ sig (Elt F)) :
    after pre_20 V (main_c_12 : DevRef τ sig) = constantI S_ 32 1024#32 := by
  rw [pre_20, after_app, out_20]
theorem val_21_v2 (V : Valuation τ sig (Elt F)) :
    after pre_21 V (main_v2 : DevRef τ sig) = V (main_v2 : DevRef τ sig) := by
  rw [pre_21, after_app, keep_21 _ main_v2 (by decide), val_20_v2 V]
theorem val_21_v20 (V : Valuation τ sig (Elt F)) :
    after pre_21 V (main_v20 : DevRef τ sig) = remainder (floorDivide (runningVotes (votes (wrapIndex (clipLow (runningCount (V (main_v2 : DevRef τ sig))) (constantI S_ 32 0#32))))) (constantI S_ 32 1024#32)) (constantI S_ 32 1024#32) := by
  rw [pre_21, after_app, keep_21 _ main_v20 (by decide), val_20_v20 V]
theorem val_21_v22 (V : Valuation τ sig (Elt F)) :
    after pre_21 V (main_v22 : DevRef τ sig) = remainder (floorDivide (runningVotes (votes (wrapIndex (clipLow (runningCount (V (main_v2 : DevRef τ sig))) (constantI S_ 32 0#32))))) (constantI S_ 32 1#32)) (constantI S_ 32 1024#32) := by
  rw [pre_21, after_app, out_21, val_20_v21 V, val_20_c_12 V]
theorem val_22_v20 (V : Valuation τ sig (Elt F)) :
    after pre_22 V (main_v20 : DevRef τ sig) = remainder (floorDivide (runningVotes (votes (wrapIndex (clipLow (runningCount (V (main_v2 : DevRef τ sig))) (constantI S_ 32 0#32))))) (constantI S_ 32 1024#32)) (constantI S_ 32 1024#32) := by
  rw [pre_22, after_app, keep_22 _ main_v20 (by decide), val_21_v20 V]
theorem val_22_v22 (V : Valuation τ sig (Elt F)) :
    after pre_22 V (main_v22 : DevRef τ sig) = remainder (floorDivide (runningVotes (votes (wrapIndex (clipLow (runningCount (V (main_v2 : DevRef τ sig))) (constantI S_ 32 0#32))))) (constantI S_ 32 1#32)) (constantI S_ 32 1024#32) := by
  rw [pre_22, after_app, keep_22 _ main_v22 (by decide), val_21_v22 V]
theorem val_22_v27 (V : Valuation τ sig (Elt F)) :
    after pre_22 V (main_v27 : DevRef τ sig) = beyond (V (main_v2 : DevRef τ sig)) := by
  rw [pre_22, after_app, out_22, val_21_v2 V]
theorem val_23_v20 (V : Valuation τ sig (Elt F)) :
    after pre_23 V (main_v20 : DevRef τ sig) = remainder (floorDivide (runningVotes (votes (wrapIndex (clipLow (runningCount (V (main_v2 : DevRef τ sig))) (constantI S_ 32 0#32))))) (constantI S_ 32 1024#32)) (constantI S_ 32 1024#32) := by
  rw [pre_23, after_app, keep_23 _ main_v20 (by decide), val_22_v20 V]
theorem val_23_v22 (V : Valuation τ sig (Elt F)) :
    after pre_23 V (main_v22 : DevRef τ sig) = remainder (floorDivide (runningVotes (votes (wrapIndex (clipLow (runningCount (V (main_v2 : DevRef τ sig))) (constantI S_ 32 0#32))))) (constantI S_ 32 1#32)) (constantI S_ 32 1024#32) := by
  rw [pre_23, after_app, keep_23 _ main_v22 (by decide), val_22_v22 V]
theorem val_23_v27 (V : Valuation τ sig (Elt F)) :
    after pre_23 V (main_v27 : DevRef τ sig) = beyond (V (main_v2 : DevRef τ sig)) := by
  rw [pre_23, after_app, keep_23 _ main_v27 (by decide), val_22_v27 V]
theorem val_24_v20 (V : Valuation τ sig (Elt F)) :
    after pre_24 V (main_v20 : DevRef τ sig) = remainder (floorDivide (runningVotes (votes (wrapIndex (clipLow (runningCount (V (main_v2 : DevRef τ sig))) (constantI S_ 32 0#32))))) (constantI S_ 32 1024#32)) (constantI S_ 32 1024#32) := by
  rw [pre_24, after_app, keep_24 _ main_v20 (by decide), val_23_v20 V]
theorem val_24_v22 (V : Valuation τ sig (Elt F)) :
    after pre_24 V (main_v22 : DevRef τ sig) = remainder (floorDivide (runningVotes (votes (wrapIndex (clipLow (runningCount (V (main_v2 : DevRef τ sig))) (constantI S_ 32 0#32))))) (constantI S_ 32 1#32)) (constantI S_ 32 1024#32) := by
  rw [pre_24, after_app, keep_24 _ main_v22 (by decide), val_23_v22 V]
theorem val_24_v27 (V : Valuation τ sig (Elt F)) :
    after pre_24 V (main_v27 : DevRef τ sig) = beyond (V (main_v2 : DevRef τ sig)) := by
  rw [pre_24, after_app, keep_24 _ main_v27 (by decide), val_23_v27 V]
theorem val_25_v20 (V : Valuation τ sig (Elt F)) :
    after pre_25 V (main_v20 : DevRef τ sig) = remainder (floorDivide (runningVotes (votes (wrapIndex (clipLow (runningCount (V (main_v2 : DevRef τ sig))) (constantI S_ 32 0#32))))) (constantI S_ 32 1024#32)) (constantI S_ 32 1024#32) := by
  rw [pre_25, after_app, keep_25 _ main_v20 (by decide), val_24_v20 V]
theorem val_25_v22 (V : Valuation τ sig (Elt F)) :
    after pre_25 V (main_v22 : DevRef τ sig) = remainder (floorDivide (runningVotes (votes (wrapIndex (clipLow (runningCount (V (main_v2 : DevRef τ sig))) (constantI S_ 32 0#32))))) (constantI S_ 32 1#32)) (constantI S_ 32 1024#32) := by
  rw [pre_25, after_app, keep_25 _ main_v22 (by decide), val_24_v22 V]
theorem val_25_v27 (V : Valuation τ sig (Elt F)) :
    after pre_25 V (main_v27 : DevRef τ sig) = beyond (V (main_v2 : DevRef τ sig)) := by
  rw [pre_25, after_app, keep_25 _ main_v27 (by decide), val_24_v27 V]
theorem val_26_v20 (V : Valuation τ sig (Elt F)) :
    after pre_26 V (main_v20 : DevRef τ sig) = remainder (floorDivide (runningVotes (votes (wrapIndex (clipLow (runningCount (V (main_v2 : DevRef τ sig))) (constantI S_ 32 0#32))))) (constantI S_ 32 1024#32)) (constantI S_ 32 1024#32) := by
  rw [pre_26, after_app, keep_26 _ main_v20 (by decide), val_25_v20 V]
theorem val_26_v22 (V : Valuation τ sig (Elt F)) :
    after pre_26 V (main_v22 : DevRef τ sig) = remainder (floorDivide (runningVotes (votes (wrapIndex (clipLow (runningCount (V (main_v2 : DevRef τ sig))) (constantI S_ 32 0#32))))) (constantI S_ 32 1#32)) (constantI S_ 32 1024#32) := by
  rw [pre_26, after_app, keep_26 _ main_v22 (by decide), val_25_v22 V]
theorem val_26_v27 (V : Valuation τ sig (Elt F)) :
    after pre_26 V (main_v27 : DevRef τ sig) = beyond (V (main_v2 : DevRef τ sig)) := by
  rw [pre_26, after_app, keep_26 _ main_v27 (by decide), val_25_v27 V]
theorem val_26_c_16 (V : Valuation τ sig (Elt F)) :
    after pre_26 V (main_c_16 : DevRef τ sig) = constantI S_ 32 0#32 := by
  rw [pre_26, after_app, out_26]
theorem val_27_v22 (V : Valuation τ sig (Elt F)) :
    after pre_27 V (main_v22 : DevRef τ sig) = remainder (floorDivide (runningVotes (votes (wrapIndex (clipLow (runningCount (V (main_v2 : DevRef τ sig))) (constantI S_ 32 0#32))))) (constantI S_ 32 1#32)) (constantI S_ 32 1024#32) := by
  rw [pre_27, after_app, keep_27 _ main_v22 (by decide), val_26_v22 V]
theorem val_27_v27 (V : Valuation τ sig (Elt F)) :
    after pre_27 V (main_v27 : DevRef τ sig) = beyond (V (main_v2 : DevRef τ sig)) := by
  rw [pre_27, after_app, keep_27 _ main_v27 (by decide), val_26_v27 V]
theorem val_27_v30 (V : Valuation τ sig (Elt F)) :
    after pre_27 V (main_v30 : DevRef τ sig) = fill (beyond (V (main_v2 : DevRef τ sig))) (constantI S_ 32 0#32) (remainder (floorDivide (runningVotes (votes (wrapIndex (clipLow (runningCount (V (main_v2 : DevRef τ sig))) (constantI S_ 32 0#32))))) (constantI S_ 32 1024#32)) (constantI S_ 32 1024#32)) := by
  rw [pre_27, after_app, out_27, val_26_v27 V, val_26_c_16 V, val_26_v20 V]
theorem val_28_v22 (V : Valuation τ sig (Elt F)) :
    after pre_28 V (main_v22 : DevRef τ sig) = remainder (floorDivide (runningVotes (votes (wrapIndex (clipLow (runningCount (V (main_v2 : DevRef τ sig))) (constantI S_ 32 0#32))))) (constantI S_ 32 1#32)) (constantI S_ 32 1024#32) := by
  rw [pre_28, after_app, keep_28 _ main_v22 (by decide), val_27_v22 V]
theorem val_28_v27 (V : Valuation τ sig (Elt F)) :
    after pre_28 V (main_v27 : DevRef τ sig) = beyond (V (main_v2 : DevRef τ sig)) := by
  rw [pre_28, after_app, keep_28 _ main_v27 (by decide), val_27_v27 V]
theorem val_28_v30 (V : Valuation τ sig (Elt F)) :
    after pre_28 V (main_v30 : DevRef τ sig) = fill (beyond (V (main_v2 : DevRef τ sig))) (constantI S_ 32 0#32) (remainder (floorDivide (runningVotes (votes (wrapIndex (clipLow (runningCount (V (main_v2 : DevRef τ sig))) (constantI S_ 32 0#32))))) (constantI S_ 32 1024#32)) (constantI S_ 32 1024#32)) := by
  rw [pre_28, after_app, keep_28 _ main_v30 (by decide), val_27_v30 V]
theorem val_28_c_17 (V : Valuation τ sig (Elt F)) :
    after pre_28 V (main_c_17 : DevRef τ sig) = constantI S_ 32 0#32 := by
  rw [pre_28, after_app, out_28]
theorem val_29_v30 (V : Valuation τ sig (Elt F)) :
    after pre_29 V (main_v30 : DevRef τ sig) = fill (beyond (V (main_v2 : DevRef τ sig))) (constantI S_ 32 0#32) (remainder (floorDivide (runningVotes (votes (wrapIndex (clipLow (runningCount (V (main_v2 : DevRef τ sig))) (constantI S_ 32 0#32))))) (constantI S_ 32 1024#32)) (constantI S_ 32 1024#32)) := by
  rw [pre_29, after_app, keep_29 _ main_v30 (by decide), val_28_v30 V]
theorem val_29_v31 (V : Valuation τ sig (Elt F)) :
    after pre_29 V (main_v31 : DevRef τ sig) = fill (beyond (V (main_v2 : DevRef τ sig))) (constantI S_ 32 0#32) (remainder (floorDivide (runningVotes (votes (wrapIndex (clipLow (runningCount (V (main_v2 : DevRef τ sig))) (constantI S_ 32 0#32))))) (constantI S_ 32 1#32)) (constantI S_ 32 1024#32)) := by
  rw [pre_29, after_app, out_29, val_28_v27 V, val_28_c_17 V, val_28_v22 V]
theorem val_30_v34 (V : Valuation τ sig (Elt F)) :
    after pre_30 V (main_v34 : DevRef τ sig) = concatenate S2x3355443 0
      [⟨S1x3355443, broadcastInDim S1x3355443 ![1] bcast_S3355443_S1x3355443_1 (fill (beyond (V (main_v2 : DevRef τ sig))) (constantI S_ 32 0#32) (remainder (floorDivide (runningVotes (votes (wrapIndex (clipLow (runningCount (V (main_v2 : DevRef τ sig))) (constantI S_ 32 0#32))))) (constantI S_ 32 1024#32)) (constantI S_ 32 1024#32)))⟩,
       ⟨S1x3355443, broadcastInDim S1x3355443 ![1] bcast_S3355443_S1x3355443_1 (fill (beyond (V (main_v2 : DevRef τ sig))) (constantI S_ 32 0#32) (remainder (floorDivide (runningVotes (votes (wrapIndex (clipLow (runningCount (V (main_v2 : DevRef τ sig))) (constantI S_ 32 0#32))))) (constantI S_ 32 1#32)) (constantI S_ 32 1024#32)))⟩]
      concatenates_S1x3355443_S1x3355443_S2x3355443_d0 := by
  rw [pre_30, after_app, out_30, val_29_v30 V, val_29_v31 V]

/-! ## The whole tail -/

/-- The 206 operations after the mask's comparison, in order. -/
abbrev tailOps : List (HloOp τ sig (Elt F)) :=
  hostOps1_1 ++ hostOps1_2 ++ hostOps1_3 ++ hostOps1_4 ++ hostOps1_5 ++ hostOps1_6 ++ hostOps1_7 ++ hostOps1_8 ++ hostOps1_9 ++ hostOps1_10 ++ hostOps1_11 ++ hostOps1_12 ++ hostOps1_13 ++ hostOps1_14 ++ hostOps1_15 ++ hostOps1_16 ++ hostOps1_17 ++ hostOps1_18 ++ hostOps1_19 ++ hostOps1_20 ++ hostOps1_21 ++ hostOps1_22 ++ hostOps1_23 ++ hostOps1_24 ++ hostOps1_25 ++ hostOps1_26 ++ hostOps1_27 ++ hostOps1_28 ++ hostOps1_29 ++ hostOps1_30

theorem tailOps_eq : (tailOps : List (HloOp τ sig (Elt F))) = pre_30 := rfl

/-- After the tail the result buffer holds `Tail` of what the mask's buffer held before it. -/
theorem kernel_tail_eq (V : Valuation τ sig (Elt F)) :
    after tailOps V (main_v34 : DevRef τ sig) = Tail (V (main_v2 : DevRef τ sig)) := by
  rw [tailOps_eq, val_30_v34]
  unfold Tail rowOf colOf flatIndex
  rfl

end Cert.KernelIdeal.NmsTail
-- ==== Proof.KIRun.lean ====
/-
  The kernel program's result at the ideal instance. After the region the result array holds the mask's bits as 0/1
  words; the host's first three operations compare it with zero, which gives the one-bit mask back; the 206 later
  operations are the pure function `Tail` of that mask. So the program ends with its result buffer at `Tail` of the
  mask of the argument array, and the argument array unchanged.
-/
import proofs.«166666_j11261404250300_1_alg».proof.Proof.KIValue
import proofs.«166666_j11261404250300_1_alg».proof.Proof.NmsSpec
import proofs.«166666_j11261404250300_1_alg».proof.Proof.NmsKernelPay
import proofs.«166666_j11261404250300_1_alg».proof.Proof.KernelTail
import Idealize.ShloMosaic.Lib.StableHlo.Run
import Idealize.ShloMosaic.Lib.IdealHost
import Idealize.ShloMosaic.Lib.ValueLayout

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem Idealize.ShloMosaic.StableHlo

section AnyInstance

variable {F : FTy → Type} [FloatOps F]

/-- A one-bit word widened to 32 bits differs from zero exactly when it is one. -/
theorem ne_zero_setWidth (b : BitVec 1) : IntOp.cmpi .ne (b.setWidth 32) 0#32 = b := by
  rcases BitVec.eq_zero_or_eq_one b with h | h <;> subst h <;> decide

/-- Comparing the 0/1 words of a one-bit array with zero gives the array back. -/
theorem host_mask (a : IVec S16x1x1024x1024 1) :
    cmpi .ne (fun i => (a i).setWidth 32) (broadcastInDim S16x1x1024x1024 ![] bcast_S_S16x1x1024x1024 (constantI S_ 32 0#32)) = a := by
  funext i
  show IntOp.cmpi .ne ((a i).setWidth 32) (broadcastInDim S16x1x1024x1024 ![] bcast_S_S16x1x1024x1024 (constantI S_ 32 0#32) i) = a i
  rw [broadcastInDim_scalar_apply, constantI_apply]
  exact ne_zero_setWidth _

/-- The first stretch after the region, read at its result: the comparison of the region's result array with zero. -/
theorem after_hostOps1 (W : Valuation τ sig (Elt F)) :
    after hostOps1 W (main_v2 : DevRef τ sig)
      = cmpi .ne (W (main_v0 : DevRef τ sig)) (broadcastInDim S16x1x1024x1024 ![] bcast_S_S16x1x1024x1024 (constantI S_ 32 0#32)) := by
  after_results

end AnyInstance

/-- The mask's bits as 0/1 words: what the region's result array ends holding. -/
def maskWords (X : S16x1x1024x1024.Idx → EReal) : IVec S16x1x1024x1024 32 := fun i => (Cert.Nms.maskOf X i).setWidth 32

variable (m : (ℓ : Loc nD τ sig) → Buf (Elt Ideal) ℓ) (ρ : Dev nD → PrngReg)

/-- After the region the result array is the mask's words of the argument array. -/
theorem final_mask (c : Dev nD) : (dats m 0 c).arrAt 1 cfg0.N = maskWords (V m c main_arg0) :=
  final m maskWords (fun v0 X b hv r cc => Cert.NmsKernelPay.kernel_pay_eq v0 X b hv r cc) c

/-- The stretches after the region are the first one followed by the 206 operations of the tail. -/
theorem flatten_eq : (opss (F := Ideal)).flatten = hostOps1 ++ NmsTail.tailOps := rfl

/-- The program's result buffer after the later stretches: `Tail` of the mask of the argument array. -/
theorem result_eq (c : Dev nD) :
    Pipeline.afterTail₀ cfgs (dats m) 0 (V0 m) opss c main_v34
      = NmsTail.Tail (Cert.Nms.maskOf (m ((c : Thread nD τ).loc main_arg0))) := by
  unfold Pipeline.afterTail₀
  rw [flatten_eq, StableHlo.after_append]
  refine (NmsTail.kernel_tail_eq _).trans (congrArg NmsTail.Tail ?_)
  rw [after_hostOps1]
  refine Eq.trans (congrArg (fun a => cmpi .ne a (broadcastInDim S16x1x1024x1024 ![] bcast_S_S16x1x1024x1024 (constantI S_ 32 0#32)))
    ((Pipeline.withArrays_arr spec0 launch0.win.arr_inj c (V0 m c) (fun w => (dats m 0 c).arrAt w cfg0.N) 1).trans (final_mask m c))) ?_
  exact host_mask _

/-- THE RUN: every weakly fair execution terminates with the result buffer at `Tail` of the mask of the argument array
    and the argument array unchanged. -/
theorem run : θ_run defs (onTc (τ := τ) (main (F := Ideal))) ⟨m, fun _ => 0, ρ⟩ fun r => ∀ c : Dev nD,
      r.2.mem ((c.tc : Thread nD τ).loc main_v34) = NmsTail.Tail (Cert.Nms.maskOf (m ((c.tc : Thread nD τ).loc main_arg0)))
      ∧ r.2.mem ((c.tc : Thread nD τ).loc main_arg0) = m ((c.tc : Thread nD τ).loc main_arg0) :=
  (θ_run defs _ _).mono (fun _ h c =>
      ⟨((h c).2 main_v34 (Pipeline.mem_restRefs_of main_v34 (by decide) (by decide))).trans (result_eq m c),
       ((h c).1 0).trans (((dats m 0 c).arrAt_in 0 rfl _).trans ((A_eq m c 0).trans (V_main_arg0 m c)))⟩)
    (run_main m ρ)

end Cert.KernelIdeal.Val

end
-- ==== Proof.RefOps.lean ====
/-
  The reference program's @main as the list of its 214 operations, and its run.

  The first eight operations compute the mask (`maskOps`): the 3x3 window maximum with -inf padding, the
  comparison of the input with it, the comparison of the input with the threshold, and their conjunction.
  The other 206 (`tailOps`) turn the mask into the table of coordinates; the outlined functions' operations
  stand inline at their call sites, over the buffer records of the calls. The list is cut into stretches, one
  per maximal run of @main's own operations and one per call of @main, and @main is the sequence of the
  stretches. Hence every weakly fair execution of @main terminates with every buffer at the fold `after ops`
  of the operations' results over the launch contents.
-/
import proofs.«166666_j11261404250300_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Lists -/

/-- What holds of every element of two lists holds of every element of their concatenation. -/
theorem forall_append {α : Type _} {p : α → Prop} {a b : List α} (ha : a.Forall p) (hb : b.Forall p) :
    (a ++ b).Forall p :=
  List.forall_iff_forall_mem.2 fun x hx =>
    (List.mem_append.1 hx).elim (List.forall_iff_forall_mem.1 ha x) (List.forall_iff_forall_mem.1 hb x)

/-- What holds of every element of every list of a family holds of every element of their concatenation. -/
theorem forall_flatten {α : Type _} {p : α → Prop} :
    ∀ {L : List (List α)}, (L.Forall fun l => l.Forall p) → L.flatten.Forall p
  | [], _ => List.forall_iff_forall_mem.2 fun _ hx => nomatch hx
  | l :: L, h => by
    have h' := List.forall_iff_forall_mem.1 h
    rw [List.flatten_cons]
    exact forall_append (h' l List.mem_cons_self)
      (forall_flatten (List.forall_iff_forall_mem.2 fun x hx => h' x (List.mem_cons_of_mem _ hx)))

/-- Stretches run one after the other are their concatenation run as one line. -/
theorem chain_map_seq {Λ : Labels} : ∀ L : List (List (HloOp τ sig (Elt F))),
    (Pipeline.chain (L.map seq) : Prog (TpuEff nD τ sig (Elt F) Λ .tc) PUnit) = seq L.flatten
  | [] => rfl
  | l :: L => by
    rw [List.map_cons, Pipeline.chain_cons, chain_map_seq L, List.flatten_cons, seq_append]

/-! ## The operations -/

/-- The mask: the eight operations of @main from the window maximum's initial value to the conjunction of the two comparisons. -/
abbrev maskOps : List (HloOp τ sig (Elt F)) :=
  [ StableHlo.nullary main_cst (constant S_ .f32 0xFF800000#32),
    StableHlo.unary main_cst main_v0 (broadcastInDim S_ ![] bcast_S_S_ : (⟨S_, .f32⟩ : BufTy).Contents (Elt F) → (⟨S_, .f32⟩ : BufTy).Contents (Elt F)),
    StableHlo.binary main_arg0 main_v0 main_v1 ((fun x v => Host.reduceWindow FloatOps.maximumf ![1, 1, 3, 3] ![1, 1, 1, 1] ![0, 0, 1, 1] ![0, 0, 1, 1] x v reduceWindows_S16x1x1024x1024_S16x1x1024x1024_w1s1p0_0_w1s1p0_0_w3s1p1_1_w3s1p1_1 h_S_) : (⟨S16x1x1024x1024, .f32⟩ : BufTy).Contents (Elt F) → (⟨S_, .f32⟩ : BufTy).Contents (Elt F) → (⟨S16x1x1024x1024, .f32⟩ : BufTy).Contents (Elt F)),
    StableHlo.binary main_arg0 main_v1 main_v2 (cmpf .oeq : (⟨S16x1x1024x1024, .f32⟩ : BufTy).Contents (Elt F) → (⟨S16x1x1024x1024, .f32⟩ : BufTy).Contents (Elt F) → (⟨S16x1x1024x1024, .i1⟩ : BufTy).Contents (Elt F)),
    StableHlo.nullary main_cst_0 (constant S_ .f32 0x3F333333#32),
    StableHlo.unary main_cst_0 main_v3 (broadcastInDim S16x1x1024x1024 ![] bcast_S_S16x1x1024x1024 : (⟨S_, .f32⟩ : BufTy).Contents (Elt F) → (⟨S16x1x1024x1024, .f32⟩ : BufTy).Contents (Elt F)),
    StableHlo.binary main_arg0 main_v3 main_v4 (cmpf .oge : (⟨S16x1x1024x1024, .f32⟩ : BufTy).Contents (Elt F) → (⟨S16x1x1024x1024, .f32⟩ : BufTy).Contents (Elt F) → (⟨S16x1x1024x1024, .i1⟩ : BufTy).Contents (Elt F)),
    StableHlo.binary main_v2 main_v4 main_v5 (andi : (⟨S16x1x1024x1024, .i1⟩ : BufTy).Contents (Elt F) → (⟨S16x1x1024x1024, .i1⟩ : BufTy).Contents (Elt F) → (⟨S16x1x1024x1024, .i1⟩ : BufTy).Contents (Elt F)) ]
theorem maskOps_sub : (maskOps : List (HloOp τ sig (Elt F))).Forall fun op => op.bufs ⊆ tcRefs τ sig :=
  ⟨nullary_bufs_sub .., unary_bufs_sub .., binary_bufs_sub .., binary_bufs_sub .., nullary_bufs_sub .., unary_bufs_sub ..,
    binary_bufs_sub .., binary_bufs_sub ..⟩
theorem maskOps_fresh : (maskOps : List (HloOp τ sig (Elt F))).Forall fun op => op.fresh = ∅ :=
  ⟨rfl, rfl, rfl, rfl, rfl, rfl, rfl, rfl⟩

/-- 5 operations of the outlined function @cumsum, inline at its call site over the call's record main_call0, in order. -/
abbrev tail1 : List (HloOp τ sig (Elt F)) :=
  [ StableHlo.TRef.reshape (.of main_v5 : StableHlo.TRef sig ⟨S16x1x1024x1024, .i1⟩) main_call0.v0 rfl shapeCasts_S16x1x1024x1024_S16777216,
    StableHlo.TRef.unary main_call0.v0 main_call0.v1 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v1 main_call0.call0.v0 main_call0.call0.v1 (fun x v => Host.reduceWindow IntOp.addi ![16777216] ![1] ![16777215] ![0] x v reduceWindows_S16777216_S16777216_w16777216s1p16777215_0 h_S_) ]
theorem tail1_sub : (tail1 : List (HloOp τ sig (Elt F))).Forall fun op => op.bufs ⊆ tcRefs τ sig :=
  ⟨reshape_bufs_sub .., unary_bufs_sub .., nullary_bufs_sub .., unary_bufs_sub .., binary_bufs_sub ..⟩
theorem tail1_fresh : (tail1 : List (HloOp τ sig (Elt F))).Forall fun op => op.fresh = ∅ :=
  ⟨rfl, rfl, rfl, rfl, rfl⟩

/-- 3 operations of @main, in order. -/
abbrev tail2 : List (HloOp τ sig (Elt F)) :=
  [ StableHlo.nullary main_c (constantI S_ 32 0#32),
    StableHlo.unary main_c main_v7 (broadcastInDim S3355443 ![] bcast_S_S3355443 : (⟨S_, .i32⟩ : BufTy).Contents (Elt F) → (⟨S3355443, .i32⟩ : BufTy).Contents (Elt F)),
    StableHlo.nullary main_c_1 (constantI S_ 32 0#32) ]
theorem tail2_sub : (tail2 : List (HloOp τ sig (Elt F))).Forall fun op => op.bufs ⊆ tcRefs τ sig :=
  ⟨nullary_bufs_sub .., unary_bufs_sub .., nullary_bufs_sub ..⟩
theorem tail2_fresh : (tail2 : List (HloOp τ sig (Elt F))).Forall fun op => op.fresh = ∅ :=
  ⟨rfl, rfl, rfl⟩

/-- 3 operations of the outlined function @clip, inline at its call site over the call's record main_call1, in order. -/
abbrev tail3 : List (HloOp τ sig (Elt F)) :=
  [ StableHlo.TRef.unary (.of main_c_1 : StableHlo.TRef sig ⟨S_, .i32⟩) main_call1.v0 id,
    StableHlo.TRef.unary main_call1.v0 main_call1.v1 (broadcastInDim S16777216 ![] bcast_S_S16777216),
    StableHlo.TRef.binary main_call1.v1 (.of main_v6 : StableHlo.TRef sig ⟨S16777216, .i32⟩) main_call1.v2 maxsi ]
theorem tail3_sub : (tail3 : List (HloOp τ sig (Elt F))).Forall fun op => op.bufs ⊆ tcRefs τ sig :=
  ⟨unary_bufs_sub .., unary_bufs_sub .., binary_bufs_sub ..⟩
theorem tail3_fresh : (tail3 : List (HloOp τ sig (Elt F))).Forall fun op => op.fresh = ∅ :=
  ⟨rfl, rfl, rfl⟩

/-- 11 operations of @main, in order. -/
abbrev tail4 : List (HloOp τ sig (Elt F)) :=
  [ StableHlo.nullary main_c_2 (constantI S_ 32 0#32),
    StableHlo.unary main_c_2 main_v9 (broadcastInDim S16777216 ![] bcast_S_S16777216 : (⟨S_, .i32⟩ : BufTy).Contents (Elt F) → (⟨S16777216, .i32⟩ : BufTy).Contents (Elt F)),
    StableHlo.binary main_v8 main_v9 main_v10 (cmpi .slt : (⟨S16777216, .i32⟩ : BufTy).Contents (Elt F) → (⟨S16777216, .i32⟩ : BufTy).Contents (Elt F) → (⟨S16777216, .i1⟩ : BufTy).Contents (Elt F)),
    StableHlo.nullary main_c_3 (constantI S_ 32 3355443#32),
    StableHlo.unary main_c_3 main_v11 (broadcastInDim S16777216 ![] bcast_S_S16777216 : (⟨S_, .i32⟩ : BufTy).Contents (Elt F) → (⟨S16777216, .i32⟩ : BufTy).Contents (Elt F)),
    StableHlo.binary main_v8 main_v11 main_v12 (addi : (⟨S16777216, .i32⟩ : BufTy).Contents (Elt F) → (⟨S16777216, .i32⟩ : BufTy).Contents (Elt F) → (⟨S16777216, .i32⟩ : BufTy).Contents (Elt F)),
    StableHlo.ternary main_v10 main_v12 main_v8 main_v13 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v13 main_v14 (broadcastInDim S16777216x1 ![0] bcast_S16777216_S16777216x1_0 : (⟨S16777216, .i32⟩ : BufTy).Contents (Elt F) → (⟨S16777216x1, .i32⟩ : BufTy).Contents (Elt F)),
    StableHlo.nullary main_c_4 (constantI S_ 32 1#32),
    StableHlo.unary main_c_4 main_v15 (broadcastInDim S16777216 ![] bcast_S_S16777216 : (⟨S_, .i32⟩ : BufTy).Contents (Elt F) → (⟨S16777216, .i32⟩ : BufTy).Contents (Elt F)),
    StableHlo.ternary main_v7 main_v14 main_v15 main_v16 ((fun x i u => Host.scatter scatter_S3355443_S16777216x1_S16777216_n_0_0_1 IntOp.addi x i u) : (⟨S3355443, .i32⟩ : BufTy).Contents (Elt F) → (⟨S16777216x1, .i32⟩ : BufTy).Contents (Elt F) → (⟨S16777216, .i32⟩ : BufTy).Contents (Elt F) → (⟨S3355443, .i32⟩ : BufTy).Contents (Elt F)) ]
theorem tail4_sub : (tail4 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub ..⟩
theorem tail4_fresh : (tail4 : List (HloOp τ sig (Elt F))).Forall fun op => op.fresh = ∅ :=
  ⟨rfl, rfl, rfl, rfl, rfl, rfl, rfl, rfl, rfl, rfl, rfl⟩

/-- 3 operations of the outlined function @cumsum_1, inline at its call site over the call's record main_call2, in order. -/
abbrev tail5 : List (HloOp τ sig (Elt F)) :=
  [ StableHlo.TRef.nullary main_call2.call0.c (constantI S_ 32 0#32),
    StableHlo.TRef.unary main_call2.call0.c main_call2.call0.v0 (broadcastInDim S_ ![] bcast_S_S_),
    StableHlo.TRef.binary (.of main_v16 : StableHlo.TRef sig ⟨S3355443, .i32⟩) main_call2.call0.v0 main_call2.call0.v1 (fun x v => Host.reduceWindow IntOp.addi ![3355443] ![1] ![3355442] ![0] x v reduceWindows_S3355443_S3355443_w3355443s1p3355442_0 h_S_) ]
theorem tail5_sub : (tail5 : List (HloOp τ sig (Elt F))).Forall fun op => op.bufs ⊆ tcRefs τ sig :=
  ⟨nullary_bufs_sub .., unary_bufs_sub .., binary_bufs_sub ..⟩
theorem tail5_fresh : (tail5 : List (HloOp τ sig (Elt F))).Forall fun op => op.fresh = ∅ :=
  ⟨rfl, rfl, rfl⟩

/-- 1 operation of @main, in order. -/
abbrev tail6 : List (HloOp τ sig (Elt F)) :=
  [ StableHlo.nullary main_c_5 (constantI S_ 32 1048576#32) ]
theorem tail6_sub : (tail6 : List (HloOp τ sig (Elt F))).Forall fun op => op.bufs ⊆ tcRefs τ sig :=
  nullary_bufs_sub ..
theorem tail6_fresh : (tail6 : List (HloOp τ sig (Elt F))).Forall fun op => op.fresh = ∅ :=
  rfl

/-- 16 operations of the outlined function @floor_divide, inline at its call site over the call's record main_call3, in order. -/
abbrev tail7 : List (HloOp τ sig (Elt F)) :=
  [ StableHlo.TRef.unary (.of main_c_5 : StableHlo.TRef sig ⟨S_, .i32⟩) main_call3.v0 (broadcastInDim S3355443 ![] bcast_S_S3355443),
    StableHlo.TRef.binary (.of main_v17 : StableHlo.TRef sig ⟨S3355443, .i32⟩) main_call3.v0 main_call3.v1 Host.divsi,
    StableHlo.TRef.unary (.of main_v17 : StableHlo.TRef sig ⟨S3355443, .i32⟩) main_call3.v2 signi,
    StableHlo.TRef.unary (.of main_c_5 : StableHlo.TRef sig ⟨S_, .i32⟩) main_call3.v3 signi,
    StableHlo.TRef.unary main_call3.v3 main_call3.v4 (broadcastInDim S3355443 ![] bcast_S_S3355443),
    StableHlo.TRef.binary main_call3.v2 main_call3.v4 main_call3.v5 (cmpi .ne),
    StableHlo.TRef.unary (.of main_c_5 : StableHlo.TRef sig ⟨S_, .i32⟩) main_call3.v6 (broadcastInDim S3355443 ![] bcast_S_S3355443),
    StableHlo.TRef.binary (.of main_v17 : StableHlo.TRef sig ⟨S3355443, .i32⟩) main_call3.v6 main_call3.v7 Host.remsi,
    StableHlo.TRef.nullary main_call3.c (constantI S_ 32 0#32),
    StableHlo.TRef.unary main_call3.c main_call3.v8 (broadcastInDim S3355443 ![] bcast_S_S3355443),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S3355443 ![] bcast_S_S3355443),
    StableHlo.TRef.binary main_call3.v1 main_call3.v11 main_call3.v12 subi,
    StableHlo.TRef.ternary main_call3.v10 main_call3.v12 main_call3.v1 main_call3.call0.v0 select ]
theorem tail7_sub : (tail7 : List (HloOp τ sig (Elt F))).Forall fun op => op.bufs ⊆ tcRefs τ sig :=
  ⟨unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub ..⟩
theorem tail7_fresh : (tail7 : List (HloOp τ sig (Elt F))).Forall fun op => op.fresh = ∅ :=
  ⟨rfl, rfl, rfl, rfl, rfl, rfl, rfl, rfl, rfl, rfl, rfl, rfl, rfl, rfl, rfl, rfl⟩

/-- 1 operation of @main, in order. -/
abbrev tail8 : List (HloOp τ sig (Elt F)) :=
  [ StableHlo.nullary main_c_6 (constantI S_ 32 16#32) ]
theorem tail8_sub : (tail8 : List (HloOp τ sig (Elt F))).Forall fun op => op.bufs ⊆ tcRefs τ sig :=
  nullary_bufs_sub ..
theorem tail8_fresh : (tail8 : List (HloOp τ sig (Elt F))).Forall fun op => op.fresh = ∅ :=
  rfl

/-- 21 operations of the outlined function @remainder, inline at its call site over the call's record main_call4, in order. -/
abbrev tail9 : List (HloOp τ sig (Elt F)) :=
  [ StableHlo.TRef.unary (.of main_c_6 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S3355443 ![] bcast_S_S3355443),
    StableHlo.TRef.binary (.of main_v18 : StableHlo.TRef sig ⟨S3355443, .i32⟩) main_call4.v3 main_call4.v4 Host.remsi,
    StableHlo.TRef.nullary main_call4.c_1 (constantI S_ 32 0#32),
    StableHlo.TRef.unary main_call4.c_1 main_call4.v5 (broadcastInDim S3355443 ![] bcast_S_S3355443),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S3355443 ![] bcast_S_S3355443),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S3355443 ![] bcast_S_S3355443),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S3355443 ![] bcast_S_S3355443),
    StableHlo.TRef.binary main_call4.v4 main_call4.v13 main_call4.v14 addi,
    StableHlo.TRef.ternary main_call4.v12 main_call4.v14 main_call4.v4 main_call4.v15 select ]
theorem tail9_sub : (tail9 : List (HloOp τ sig (Elt F))).Forall fun op => op.bufs ⊆ tcRefs τ sig :=
  ⟨unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..⟩
theorem tail9_fresh : (tail9 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl⟩

/-- 1 operation of @main, in order. -/
abbrev tail10 : List (HloOp τ sig (Elt F)) :=
  [ StableHlo.nullary main_c_7 (constantI S_ 32 1048576#32) ]
theorem tail10_sub : (tail10 : List (HloOp τ sig (Elt F))).Forall fun op => op.bufs ⊆ tcRefs τ sig :=
  nullary_bufs_sub ..
theorem tail10_fresh : (tail10 : List (HloOp τ sig (Elt F))).Forall fun op => op.fresh = ∅ :=
  rfl

/-- 16 operations of the outlined function @floor_divide, inline at its call site over the call's record main_call5, in order. -/
abbrev tail11 : List (HloOp τ sig (Elt F)) :=
  [ StableHlo.TRef.unary (.of main_c_7 : StableHlo.TRef sig ⟨S_, .i32⟩) main_call5.v0 (broadcastInDim S3355443 ![] bcast_S_S3355443),
    StableHlo.TRef.binary (.of main_v17 : StableHlo.TRef sig ⟨S3355443, .i32⟩) main_call5.v0 main_call5.v1 Host.divsi,
    StableHlo.TRef.unary (.of main_v17 : StableHlo.TRef sig ⟨S3355443, .i32⟩) main_call5.v2 signi,
    StableHlo.TRef.unary (.of main_c_7 : StableHlo.TRef sig ⟨S_, .i32⟩) main_call5.v3 signi,
    StableHlo.TRef.unary main_call5.v3 main_call5.v4 (broadcastInDim S3355443 ![] bcast_S_S3355443),
    StableHlo.TRef.binary main_call5.v2 main_call5.v4 main_call5.v5 (cmpi .ne),
    StableHlo.TRef.unary (.of main_c_7 : StableHlo.TRef sig ⟨S_, .i32⟩) main_call5.v6 (broadcastInDim S3355443 ![] bcast_S_S3355443),
    StableHlo.TRef.binary (.of main_v17 : StableHlo.TRef sig ⟨S3355443, .i32⟩) main_call5.v6 main_call5.v7 Host.remsi,
    StableHlo.TRef.nullary main_call5.c (constantI S_ 32 0#32),
    StableHlo.TRef.unary main_call5.c main_call5.v8 (broadcastInDim S3355443 ![] bcast_S_S3355443),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S3355443 ![] bcast_S_S3355443),
    StableHlo.TRef.binary main_call5.v1 main_call5.v11 main_call5.v12 subi,
    StableHlo.TRef.ternary main_call5.v10 main_call5.v12 main_call5.v1 main_call5.call0.v0 select ]
theorem tail11_sub : (tail11 : List (HloOp τ sig (Elt F))).Forall fun op => op.bufs ⊆ tcRefs τ sig :=
  ⟨unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub ..⟩
theorem tail11_fresh : (tail11 : List (HloOp τ sig (Elt F))).Forall fun op => op.fresh = ∅ :=
  ⟨rfl, rfl, rfl, rfl, rfl, rfl, rfl, rfl, rfl, rfl, rfl, rfl, rfl, rfl, rfl, rfl⟩

/-- 1 operation of @main, in order. -/
abbrev tail12 : List (HloOp τ sig (Elt F)) :=
  [ StableHlo.nullary main_c_8 (constantI S_ 32 1#32) ]
theorem tail12_sub : (tail12 : List (HloOp τ sig (Elt F))).Forall fun op => op.bufs ⊆ tcRefs τ sig :=
  nullary_bufs_sub ..
theorem tail12_fresh : (tail12 : List (HloOp τ sig (Elt F))).Forall fun op => op.fresh = ∅ :=
  rfl

/-- 21 operations of the outlined function @remainder, inline at its call site over the call's record main_call6, in order. -/
abbrev tail13 : List (HloOp τ sig (Elt F)) :=
  [ StableHlo.TRef.unary (.of main_c_8 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S3355443 ![] bcast_S_S3355443),
    StableHlo.TRef.binary (.of main_v20 : StableHlo.TRef sig ⟨S3355443, .i32⟩) main_call6.v3 main_call6.v4 Host.remsi,
    StableHlo.TRef.nullary main_call6.c_1 (constantI S_ 32 0#32),
    StableHlo.TRef.unary main_call6.c_1 main_call6.v5 (broadcastInDim S3355443 ![] bcast_S_S3355443),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S3355443 ![] bcast_S_S3355443),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S3355443 ![] bcast_S_S3355443),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S3355443 ![] bcast_S_S3355443),
    StableHlo.TRef.binary main_call6.v4 main_call6.v13 main_call6.v14 addi,
    StableHlo.TRef.ternary main_call6.v12 main_call6.v14 main_call6.v4 main_call6.v15 select ]
theorem tail13_sub : (tail13 : List (HloOp τ sig (Elt F))).Forall fun op => op.bufs ⊆ tcRefs τ sig :=
  ⟨unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..⟩
theorem tail13_fresh : (tail13 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl⟩

/-- 1 operation of @main, in order. -/
abbrev tail14 : List (HloOp τ sig (Elt F)) :=
  [ StableHlo.nullary main_c_9 (constantI S_ 32 1024#32) ]
theorem tail14_sub : (tail14 : List (HloOp τ sig (Elt F))).Forall fun op => op.bufs ⊆ tcRefs τ sig :=
  nullary_bufs_sub ..
theorem tail14_fresh : (tail14 : List (HloOp τ sig (Elt F))).Forall fun op => op.fresh = ∅ :=
  rfl

/-- 16 operations of the outlined function @floor_divide, inline at its call site over the call's record main_call7, in order. -/
abbrev tail15 : List (HloOp τ sig (Elt F)) :=
  [ StableHlo.TRef.unary (.of main_c_9 : StableHlo.TRef sig ⟨S_, .i32⟩) main_call7.v0 (broadcastInDim S3355443 ![] bcast_S_S3355443),
    StableHlo.TRef.binary (.of main_v17 : StableHlo.TRef sig ⟨S3355443, .i32⟩) main_call7.v0 main_call7.v1 Host.divsi,
    StableHlo.TRef.unary (.of main_v17 : StableHlo.TRef sig ⟨S3355443, .i32⟩) main_call7.v2 signi,
    StableHlo.TRef.unary (.of main_c_9 : StableHlo.TRef sig ⟨S_, .i32⟩) main_call7.v3 signi,
    StableHlo.TRef.unary main_call7.v3 main_call7.v4 (broadcastInDim S3355443 ![] bcast_S_S3355443),
    StableHlo.TRef.binary main_call7.v2 main_call7.v4 main_call7.v5 (cmpi .ne),
    StableHlo.TRef.unary (.of main_c_9 : StableHlo.TRef sig ⟨S_, .i32⟩) main_call7.v6 (broadcastInDim S3355443 ![] bcast_S_S3355443),
    StableHlo.TRef.binary (.of main_v17 : StableHlo.TRef sig ⟨S3355443, .i32⟩) main_call7.v6 main_call7.v7 Host.remsi,
    StableHlo.TRef.nullary main_call7.c (constantI S_ 32 0#32),
    StableHlo.TRef.unary main_call7.c main_call7.v8 (broadcastInDim S3355443 ![] bcast_S_S3355443),
    StableHlo.TRef.binary main_call7.v7 main_call7.v8 main_call7.v9 (cmpi .ne),
    StableHlo.TRef.binary main_call7.v5 main_call7.v9 main_call7.v10 andi,
    StableHlo.TRef.nullary main_call7.c_0 (constantI S_ 32 1#32),
    StableHlo.TRef.unary main_call7.c_0 main_call7.v11 (broadcastInDim S3355443 ![] bcast_S_S3355443),
    StableHlo.TRef.binary main_call7.v1 main_call7.v11 main_call7.v12 subi,
    StableHlo.TRef.ternary main_call7.v10 main_call7.v12 main_call7.v1 main_call7.call0.v0 select ]
theorem tail15_sub : (tail15 : List (HloOp τ sig (Elt F))).Forall fun op => op.bufs ⊆ tcRefs τ sig :=
  ⟨unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub ..⟩
theorem tail15_fresh : (tail15 : List (HloOp τ sig (Elt F))).Forall fun op => op.fresh = ∅ :=
  ⟨rfl, rfl, rfl, rfl, rfl, rfl, rfl, rfl, rfl, rfl, rfl, rfl, rfl, rfl, rfl, rfl⟩

/-- 1 operation of @main, in order. -/
abbrev tail16 : List (HloOp τ sig (Elt F)) :=
  [ StableHlo.nullary main_c_10 (constantI S_ 32 1024#32) ]
theorem tail16_sub : (tail16 : List (HloOp τ sig (Elt F))).Forall fun op => op.bufs ⊆ tcRefs τ sig :=
  nullary_bufs_sub ..
theorem tail16_fresh : (tail16 : List (HloOp τ sig (Elt F))).Forall fun op => op.fresh = ∅ :=
  rfl

/-- 21 operations of the outlined function @remainder, inline at its call site over the call's record main_call8, in order. -/
abbrev tail17 : List (HloOp τ sig (Elt F)) :=
  [ StableHlo.TRef.unary (.of main_c_10 : StableHlo.TRef sig ⟨S_, .i32⟩) main_call8.v0 id,
    StableHlo.TRef.nullary main_call8.c (constantI S_ 32 0#32),
    StableHlo.TRef.binary main_call8.v0 main_call8.c main_call8.v1 (cmpi .eq),
    StableHlo.TRef.nullary main_call8.c_0 (constantI S_ 32 1#32),
    StableHlo.TRef.ternary main_call8.v1 main_call8.c_0 main_call8.v0 main_call8.call0.v0 select,
    StableHlo.TRef.unary main_call8.call0.v0 main_call8.v3 (broadcastInDim S3355443 ![] bcast_S_S3355443),
    StableHlo.TRef.binary (.of main_v22 : StableHlo.TRef sig ⟨S3355443, .i32⟩) main_call8.v3 main_call8.v4 Host.remsi,
    StableHlo.TRef.nullary main_call8.c_1 (constantI S_ 32 0#32),
    StableHlo.TRef.unary main_call8.c_1 main_call8.v5 (broadcastInDim S3355443 ![] bcast_S_S3355443),
    StableHlo.TRef.binary main_call8.v4 main_call8.v5 main_call8.v6 (cmpi .ne),
    StableHlo.TRef.nullary main_call8.c_2 (constantI S_ 32 0#32),
    StableHlo.TRef.unary main_call8.c_2 main_call8.v7 (broadcastInDim S3355443 ![] bcast_S_S3355443),
    StableHlo.TRef.binary main_call8.v4 main_call8.v7 main_call8.v8 (cmpi .slt),
    StableHlo.TRef.nullary main_call8.c_3 (constantI S_ 32 0#32),
    StableHlo.TRef.binary main_call8.call0.v0 main_call8.c_3 main_call8.v9 (cmpi .slt),
    StableHlo.TRef.unary main_call8.v9 main_call8.v10 (broadcastInDim S3355443 ![] bcast_S_S3355443),
    StableHlo.TRef.binary main_call8.v8 main_call8.v10 main_call8.v11 (cmpi .ne),
    StableHlo.TRef.binary main_call8.v11 main_call8.v6 main_call8.v12 andi,
    StableHlo.TRef.unary main_call8.call0.v0 main_call8.v13 (broadcastInDim S3355443 ![] bcast_S_S3355443),
    StableHlo.TRef.binary main_call8.v4 main_call8.v13 main_call8.v14 addi,
    StableHlo.TRef.ternary main_call8.v12 main_call8.v14 main_call8.v4 main_call8.v15 select ]
theorem tail17_sub : (tail17 : List (HloOp τ sig (Elt F))).Forall fun op => op.bufs ⊆ tcRefs τ sig :=
  ⟨unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..⟩
theorem tail17_fresh : (tail17 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl⟩

/-- 1 operation of @main, in order. -/
abbrev tail18 : List (HloOp τ sig (Elt F)) :=
  [ StableHlo.nullary main_c_11 (constantI S_ 32 1#32) ]
theorem tail18_sub : (tail18 : List (HloOp τ sig (Elt F))).Forall fun op => op.bufs ⊆ tcRefs τ sig :=
  nullary_bufs_sub ..
theorem tail18_fresh : (tail18 : List (HloOp τ sig (Elt F))).Forall fun op => op.fresh = ∅ :=
  rfl

/-- 16 operations of the outlined function @floor_divide, inline at its call site over the call's record main_call9, in order. -/
abbrev tail19 : List (HloOp τ sig (Elt F)) :=
  [ StableHlo.TRef.unary (.of main_c_11 : StableHlo.TRef sig ⟨S_, .i32⟩) main_call9.v0 (broadcastInDim S3355443 ![] bcast_S_S3355443),
    StableHlo.TRef.binary (.of main_v17 : StableHlo.TRef sig ⟨S3355443, .i32⟩) main_call9.v0 main_call9.v1 Host.divsi,
    StableHlo.TRef.unary (.of main_v17 : StableHlo.TRef sig ⟨S3355443, .i32⟩) main_call9.v2 signi,
    StableHlo.TRef.unary (.of main_c_11 : StableHlo.TRef sig ⟨S_, .i32⟩) main_call9.v3 signi,
    StableHlo.TRef.unary main_call9.v3 main_call9.v4 (broadcastInDim S3355443 ![] bcast_S_S3355443),
    StableHlo.TRef.binary main_call9.v2 main_call9.v4 main_call9.v5 (cmpi .ne),
    StableHlo.TRef.unary (.of main_c_11 : StableHlo.TRef sig ⟨S_, .i32⟩) main_call9.v6 (broadcastInDim S3355443 ![] bcast_S_S3355443),
    StableHlo.TRef.binary (.of main_v17 : StableHlo.TRef sig ⟨S3355443, .i32⟩) main_call9.v6 main_call9.v7 Host.remsi,
    StableHlo.TRef.nullary main_call9.c (constantI S_ 32 0#32),
    StableHlo.TRef.unary main_call9.c main_call9.v8 (broadcastInDim S3355443 ![] bcast_S_S3355443),
    StableHlo.TRef.binary main_call9.v7 main_call9.v8 main_call9.v9 (cmpi .ne),
    StableHlo.TRef.binary main_call9.v5 main_call9.v9 main_call9.v10 andi,
    StableHlo.TRef.nullary main_call9.c_0 (constantI S_ 32 1#32),
    StableHlo.TRef.unary main_call9.c_0 main_call9.v11 (broadcastInDim S3355443 ![] bcast_S_S3355443),
    StableHlo.TRef.binary main_call9.v1 main_call9.v11 main_call9.v12 subi,
    StableHlo.TRef.ternary main_call9.v10 main_call9.v12 main_call9.v1 main_call9.call0.v0 select ]
theorem tail19_sub : (tail19 : List (HloOp τ sig (Elt F))).Forall fun op => op.bufs ⊆ tcRefs τ sig :=
  ⟨unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub ..⟩
theorem tail19_fresh : (tail19 : List (HloOp τ sig (Elt F))).Forall fun op => op.fresh = ∅ :=
  ⟨rfl, rfl, rfl, rfl, rfl, rfl, rfl, rfl, rfl, rfl, rfl, rfl, rfl, rfl, rfl, rfl⟩

/-- 1 operation of @main, in order. -/
abbrev tail20 : List (HloOp τ sig (Elt F)) :=
  [ StableHlo.nullary main_c_12 (constantI S_ 32 1024#32) ]
theorem tail20_sub : (tail20 : List (HloOp τ sig (Elt F))).Forall fun op => op.bufs ⊆ tcRefs τ sig :=
  nullary_bufs_sub ..
theorem tail20_fresh : (tail20 : List (HloOp τ sig (Elt F))).Forall fun op => op.fresh = ∅ :=
  rfl

/-- 21 operations of the outlined function @remainder, inline at its call site over the call's record main_call10, in order. -/
abbrev tail21 : List (HloOp τ sig (Elt F)) :=
  [ StableHlo.TRef.unary (.of main_c_12 : StableHlo.TRef sig ⟨S_, .i32⟩) main_call10.v0 id,
    StableHlo.TRef.nullary main_call10.c (constantI S_ 32 0#32),
    StableHlo.TRef.binary main_call10.v0 main_call10.c main_call10.v1 (cmpi .eq),
    StableHlo.TRef.nullary main_call10.c_0 (constantI S_ 32 1#32),
    StableHlo.TRef.ternary main_call10.v1 main_call10.c_0 main_call10.v0 main_call10.call0.v0 select,
    StableHlo.TRef.unary main_call10.call0.v0 main_call10.v3 (broadcastInDim S3355443 ![] bcast_S_S3355443),
    StableHlo.TRef.binary (.of main_v24 : StableHlo.TRef sig ⟨S3355443, .i32⟩) main_call10.v3 main_call10.v4 Host.remsi,
    StableHlo.TRef.nullary main_call10.c_1 (constantI S_ 32 0#32),
    StableHlo.TRef.unary main_call10.c_1 main_call10.v5 (broadcastInDim S3355443 ![] bcast_S_S3355443),
    StableHlo.TRef.binary main_call10.v4 main_call10.v5 main_call10.v6 (cmpi .ne),
    StableHlo.TRef.nullary main_call10.c_2 (constantI S_ 32 0#32),
    StableHlo.TRef.unary main_call10.c_2 main_call10.v7 (broadcastInDim S3355443 ![] bcast_S_S3355443),
    StableHlo.TRef.binary main_call10.v4 main_call10.v7 main_call10.v8 (cmpi .slt),
    StableHlo.TRef.nullary main_call10.c_3 (constantI S_ 32 0#32),
    StableHlo.TRef.binary main_call10.call0.v0 main_call10.c_3 main_call10.v9 (cmpi .slt),
    StableHlo.TRef.unary main_call10.v9 main_call10.v10 (broadcastInDim S3355443 ![] bcast_S_S3355443),
    StableHlo.TRef.binary main_call10.v8 main_call10.v10 main_call10.v11 (cmpi .ne),
    StableHlo.TRef.binary main_call10.v11 main_call10.v6 main_call10.v12 andi,
    StableHlo.TRef.unary main_call10.call0.v0 main_call10.v13 (broadcastInDim S3355443 ![] bcast_S_S3355443),
    StableHlo.TRef.binary main_call10.v4 main_call10.v13 main_call10.v14 addi,
    StableHlo.TRef.ternary main_call10.v12 main_call10.v14 main_call10.v4 main_call10.v15 select ]
theorem tail21_sub : (tail21 : List (HloOp τ sig (Elt F))).Forall fun op => op.bufs ⊆ tcRefs τ sig :=
  ⟨unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..⟩
theorem tail21_fresh : (tail21 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl⟩

/-- 7 operations of @main, in order. -/
abbrev tail22 : List (HloOp τ sig (Elt F)) :=
  [ StableHlo.nullary main_v26 (iotaInDim S3355443 32 0),
    StableHlo.unary main_v5 main_v27 ((extui 32 · natLt_1_32) : (⟨S16x1x1024x1024, .i1⟩ : BufTy).Contents (Elt F) → (⟨S16x1x1024x1024, .i32⟩ : BufTy).Contents (Elt F)),
    StableHlo.nullary main_c_13 (constantI S_ 32 0#32),
    StableHlo.binary main_v27 main_c_13 main_v28 ((fun x v => Host.reduce IntOp.addi x v reducesTo_S16x1x1024x1024_S_d0_1_2_3 h_S_) : (⟨S16x1x1024x1024, .i32⟩ : BufTy).Contents (Elt F) → (⟨S_, .i32⟩ : BufTy).Contents (Elt F) → (⟨S_, .i32⟩ : BufTy).Contents (Elt F)),
    StableHlo.unary main_v28 main_v29 (broadcastInDim S3355443 ![] bcast_S_S3355443 : (⟨S_, .i32⟩ : BufTy).Contents (Elt F) → (⟨S3355443, .i32⟩ : BufTy).Contents (Elt F)),
    StableHlo.binary main_v26 main_v29 main_v30 (cmpi .sge : (⟨S3355443, .i32⟩ : BufTy).Contents (Elt F) → (⟨S3355443, .i32⟩ : BufTy).Contents (Elt F) → (⟨S3355443, .i1⟩ : BufTy).Contents (Elt F)),
    StableHlo.nullary main_c_14 (constantI S_ 32 0#32) ]
theorem tail22_sub : (tail22 : List (HloOp τ sig (Elt F))).Forall fun op => op.bufs ⊆ tcRefs τ sig :=
  ⟨nullary_bufs_sub .., unary_bufs_sub .., nullary_bufs_sub .., binary_bufs_sub .., unary_bufs_sub .., binary_bufs_sub ..,
    nullary_bufs_sub ..⟩
theorem tail22_fresh : (tail22 : List (HloOp τ sig (Elt F))).Forall fun op => op.fresh = ∅ :=
  ⟨rfl, rfl, rfl, rfl, rfl, rfl, rfl⟩

/-- 3 operations of the outlined function @_where_4, inline at its call site over the call's record main_call11, in order. -/
abbrev tail23 : List (HloOp τ sig (Elt F)) :=
  [ StableHlo.TRef.unary (.of main_c_14 : StableHlo.TRef sig ⟨S_, .i32⟩) main_call11.v0 id,
    StableHlo.TRef.unary main_call11.v0 main_call11.v1 (broadcastInDim S3355443 ![] bcast_S_S3355443),
    StableHlo.TRef.ternary (.of main_v30 : StableHlo.TRef sig ⟨S3355443, .i1⟩) main_call11.v1 (.of main_v19 : StableHlo.TRef sig ⟨S3355443, .i32⟩) main_call11.v2 select ]
theorem tail23_sub : (tail23 : List (HloOp τ sig (Elt F))).Forall fun op => op.bufs ⊆ tcRefs τ sig :=
  ⟨unary_bufs_sub .., unary_bufs_sub .., ternary_bufs_sub ..⟩
theorem tail23_fresh : (tail23 : List (HloOp τ sig (Elt F))).Forall fun op => op.fresh = ∅ :=
  ⟨rfl, rfl, rfl⟩

/-- 1 operation of @main, in order. -/
abbrev tail24 : List (HloOp τ sig (Elt F)) :=
  [ StableHlo.nullary main_c_15 (constantI S_ 32 0#32) ]
theorem tail24_sub : (tail24 : List (HloOp τ sig (Elt F))).Forall fun op => op.bufs ⊆ tcRefs τ sig :=
  nullary_bufs_sub ..
theorem tail24_fresh : (tail24 : List (HloOp τ sig (Elt F))).Forall fun op => op.fresh = ∅ :=
  rfl

/-- 3 operations of the outlined function @_where_4, inline at its call site over the call's record main_call12, in order. -/
abbrev tail25 : List (HloOp τ sig (Elt F)) :=
  [ StableHlo.TRef.unary (.of main_c_15 : StableHlo.TRef sig ⟨S_, .i32⟩) main_call12.v0 id,
    StableHlo.TRef.unary main_call12.v0 main_call12.v1 (broadcastInDim S3355443 ![] bcast_S_S3355443),
    StableHlo.TRef.ternary (.of main_v30 : StableHlo.TRef sig ⟨S3355443, .i1⟩) main_call12.v1 (.of main_v21 : StableHlo.TRef sig ⟨S3355443, .i32⟩) main_call12.v2 select ]
theorem tail25_sub : (tail25 : List (HloOp τ sig (Elt F))).Forall fun op => op.bufs ⊆ tcRefs τ sig :=
  ⟨unary_bufs_sub .., unary_bufs_sub .., ternary_bufs_sub ..⟩
theorem tail25_fresh : (tail25 : List (HloOp τ sig (Elt F))).Forall fun op => op.fresh = ∅ :=
  ⟨rfl, rfl, rfl⟩

/-- 1 operation of @main, in order. -/
abbrev tail26 : List (HloOp τ sig (Elt F)) :=
  [ StableHlo.nullary main_c_16 (constantI S_ 32 0#32) ]
theorem tail26_sub : (tail26 : List (HloOp τ sig (Elt F))).Forall fun op => op.bufs ⊆ tcRefs τ sig :=
  nullary_bufs_sub ..
theorem tail26_fresh : (tail26 : List (HloOp τ sig (Elt F))).Forall fun op => op.fresh = ∅ :=
  rfl

/-- 3 operations of the outlined function @_where_4, inline at its call site over the call's record main_call13, in order. -/
abbrev tail27 : List (HloOp τ sig (Elt F)) :=
  [ StableHlo.TRef.unary (.of main_c_16 : StableHlo.TRef sig ⟨S_, .i32⟩) main_call13.v0 id,
    StableHlo.TRef.unary main_call13.v0 main_call13.v1 (broadcastInDim S3355443 ![] bcast_S_S3355443),
    StableHlo.TRef.ternary (.of main_v30 : StableHlo.TRef sig ⟨S3355443, .i1⟩) main_call13.v1 (.of main_v23 : StableHlo.TRef sig ⟨S3355443, .i32⟩) main_call13.v2 select ]
theorem tail27_sub : (tail27 : List (HloOp τ sig (Elt F))).Forall fun op => op.bufs ⊆ tcRefs τ sig :=
  ⟨unary_bufs_sub .., unary_bufs_sub .., ternary_bufs_sub ..⟩
theorem tail27_fresh : (tail27 : List (HloOp τ sig (Elt F))).Forall fun op => op.fresh = ∅ :=
  ⟨rfl, rfl, rfl⟩

/-- 1 operation of @main, in order. -/
abbrev tail28 : List (HloOp τ sig (Elt F)) :=
  [ StableHlo.nullary main_c_17 (constantI S_ 32 0#32) ]
theorem tail28_sub : (tail28 : List (HloOp τ sig (Elt F))).Forall fun op => op.bufs ⊆ tcRefs τ sig :=
  nullary_bufs_sub ..
theorem tail28_fresh : (tail28 : List (HloOp τ sig (Elt F))).Forall fun op => op.fresh = ∅ :=
  rfl

/-- 3 operations of the outlined function @_where_4, inline at its call site over the call's record main_call14, in order. -/
abbrev tail29 : List (HloOp τ sig (Elt F)) :=
  [ StableHlo.TRef.unary (.of main_c_17 : StableHlo.TRef sig ⟨S_, .i32⟩) main_call14.v0 id,
    StableHlo.TRef.unary main_call14.v0 main_call14.v1 (broadcastInDim S3355443 ![] bcast_S_S3355443),
    StableHlo.TRef.ternary (.of main_v30 : StableHlo.TRef sig ⟨S3355443, .i1⟩) main_call14.v1 (.of main_v25 : StableHlo.TRef sig ⟨S3355443, .i32⟩) main_call14.v2 select ]
theorem tail29_sub : (tail29 : List (HloOp τ sig (Elt F))).Forall fun op => op.bufs ⊆ tcRefs τ sig :=
  ⟨unary_bufs_sub .., unary_bufs_sub .., ternary_bufs_sub ..⟩
theorem tail29_fresh : (tail29 : List (HloOp τ sig (Elt F))).Forall fun op => op.fresh = ∅ :=
  ⟨rfl, rfl, rfl⟩

/-- 3 operations of @main, in order. -/
abbrev tail30 : List (HloOp τ sig (Elt F)) :=
  [ StableHlo.unary main_v33 main_v35 (broadcastInDim S1x3355443 ![1] bcast_S3355443_S1x3355443_1 : (⟨S3355443, .i32⟩ : BufTy).Contents (Elt F) → (⟨S1x3355443, .i32⟩ : BufTy).Contents (Elt F)),
    StableHlo.unary main_v34 main_v36 (broadcastInDim S1x3355443 ![1] bcast_S3355443_S1x3355443_1 : (⟨S3355443, .i32⟩ : BufTy).Contents (Elt F) → (⟨S1x3355443, .i32⟩ : BufTy).Contents (Elt F)),
    StableHlo.binary main_v35 main_v36 main_v37 ((fun a b => concatenate S2x3355443 0 [⟨S1x3355443, a⟩, ⟨S1x3355443, b⟩] concatenates_S1x3355443_S1x3355443_S2x3355443_d0) : (⟨S1x3355443, .i32⟩ : BufTy).Contents (Elt F) → (⟨S1x3355443, .i32⟩ : BufTy).Contents (Elt F) → (⟨S2x3355443, .i32⟩ : BufTy).Contents (Elt F)) ]
theorem tail30_sub : (tail30 : List (HloOp τ sig (Elt F))).Forall fun op => op.bufs ⊆ tcRefs τ sig :=
  ⟨unary_bufs_sub .., unary_bufs_sub .., binary_bufs_sub ..⟩
theorem tail30_fresh : (tail30 : List (HloOp τ sig (Elt F))).Forall fun op => op.fresh = ∅ :=
  ⟨rfl, rfl, rfl⟩

/-- The 206 operations after the mask: the stretches from the call of @cumsum to the concatenation, in order. -/
abbrev tailOps : List (HloOp τ sig (Elt F)) :=
  List.flatten [ tail1, tail2, tail3, tail4, tail5, tail6, tail7, tail8, tail9, tail10,
    tail11, tail12, tail13, tail14, tail15, tail16, tail17, tail18, tail19, tail20,
    tail21, tail22, tail23, tail24, tail25, tail26, tail27, tail28, tail29, tail30 ]

/-- @main's 214 operations, in order: the mask's, then the rest. -/
abbrev ops : List (HloOp τ sig (Elt F)) := maskOps ++ tailOps

/-! ## @main is the line of its operations -/

/-- @main is the sequence of its stretches: the printed block peeled against the stretches, the outlined
    functions' definitions unfolding at their calls and the records at their fields. -/
theorem main_chain (c : Dev nD) : main (F := F) c = (Pipeline.chain
  [ seq maskOps, seq tail1, seq tail2, seq tail3, seq tail4, seq tail5,
    seq tail6, seq tail7, seq tail8, seq tail9, seq tail10, seq tail11,
    seq tail12, seq tail13, seq tail14, seq tail15, seq tail16, seq tail17,
    seq tail18, seq tail19, seq tail20, seq tail21, seq tail22, seq tail23,
    seq tail24, seq tail25, seq tail26, seq tail27, seq tail28, seq tail29,
    seq tail30 ] : Prog (TpuEff nD τ sig (Elt F) (Pipeline.Sig Λ₀ (Fin 0) fun p => (pcfgs (F := F) p).Adm) .tc) PUnit) := by
  chain_rfl

/-- @main is the line of its 214 operations. -/
theorem main_eq (c : Dev nD) : main (F := F) c = seq ops :=
  (main_chain c).trans (chain_map_seq [ maskOps, tail1, tail2, tail3, tail4, tail5, tail6, tail7, tail8, tail9,
    tail10, tail11, tail12, tail13, tail14, tail15, tail16, tail17, tail18, tail19,
    tail20, tail21, tail22, tail23, tail24, tail25, tail26, tail27, tail28, tail29,
    tail30 ])

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  forall_append maskOps_sub (forall_flatten
    ⟨tail1_sub, tail2_sub, tail3_sub, tail4_sub, tail5_sub, tail6_sub, tail7_sub, tail8_sub,
      tail9_sub, tail10_sub, tail11_sub, tail12_sub, tail13_sub, tail14_sub, tail15_sub, tail16_sub,
      tail17_sub, tail18_sub, tail19_sub, tail20_sub, tail21_sub, tail22_sub, tail23_sub, tail24_sub,
      tail25_sub, tail26_sub, tail27_sub, tail28_sub, tail29_sub, tail30_sub⟩)

/-- Every operation determines its results. -/
theorem ops_fresh : (ops : List (HloOp τ sig (Elt F))).Forall fun op => op.fresh = ∅ :=
  forall_append maskOps_fresh (forall_flatten
    ⟨tail1_fresh, tail2_fresh, tail3_fresh, tail4_fresh, tail5_fresh, tail6_fresh, tail7_fresh, tail8_fresh,
      tail9_fresh, tail10_fresh, tail11_fresh, tail12_fresh, tail13_fresh, tail14_fresh, tail15_fresh, tail16_fresh,
      tail17_fresh, tail18_fresh, tail19_fresh, tail20_fresh, tail21_fresh, tail22_fresh, tail23_fresh, tail24_fresh,
      tail25_fresh, tail26_fresh, tail27_fresh, tail28_fresh, tail29_fresh, tail30_fresh⟩)

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

end Cert.ReferenceIdeal.RefRun

end
-- ==== Proof.RefValue.lean ====
/-
  The reference program's result read back: the fold of its 214 operations over any contents of the buffers, at
  the result buffer, is the tail function of the mask, and the mask is one function of the input.

  The mask: the eight operations' composed term (`refMask`). The tail: the 206 operations are read in fourteen
  blocks of consecutive stretches, each over ARBITRARY contents `W` of the buffers, so every term stays small —
  per block, what it leaves in the buffers a later block reads, as a function of what it found in the buffers it
  reads (the operations' results composed), and that it leaves alone the earlier buffers still to be read (no
  operation of it writes them). The blocks are then chained from the first to the last, each block's contents
  replaced by a variable once its equations are recorded; the two sliding-window sums, the scatter and the total
  are never opened. What comes out at the result buffer is the stack of the two coordinate rows of the set bits
  of the mask: `Tail`.
-/
import proofs.«166666_j11261404250300_1_alg».proof.Proof.RefOps
import proofs.«166666_j11261404250300_1_alg».proof.Proof.TailDef

-- one declaration at a time: the memory of two unfoldings of a long line is not held at once
set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.KernelIdeal.NmsTail

variable {F : FTy → Type} [FloatOps F]

/-! ## Folds over concatenations -/

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The contents after a family of lines run in order. -/
theorem after_flatten : ∀ (L : List (List (HloOp τ sig (Elt F)))) (V : Valuation τ sig (Elt F)),
    after L.flatten V = L.foldl (fun V l => after l V) V
  | [], _ => rfl
  | l :: L, V => by rw [List.flatten_cons, after_append, after_flatten L, List.foldl_cons]

/-! ## The mask -/

/-- The mask as one function of the input: the input equals its 3x3 window maximum (the window padded with
    -inf) and is at least the threshold. -/
def refMask (x : FVec F S16x1x1024x1024 .f32) : IVec S16x1x1024x1024 1 :=
  andi (cmpf .oeq x (Host.reduceWindow FloatOps.maximumf ![1, 1, 3, 3] ![1, 1, 1, 1] ![0, 0, 1, 1] ![0, 0, 1, 1] x (broadcastInDim S_ ![] bcast_S_S_ (constant S_ .f32 0xFF800000#32)) reduceWindows_S16x1x1024x1024_S16x1x1024x1024_w1s1p0_0_w1s1p0_0_w3s1p1_1_w3s1p1_1 h_S_)) (cmpf .oge x (broadcastInDim S16x1x1024x1024 ![] bcast_S_S16x1x1024x1024 (constant S_ .f32 0x3F333333#32)))

-- the sliding-window functions, the scatter, the total and the iota stay closed: nothing here looks inside them
attribute [local irreducible] Host.reduceWindow Host.reduce Host.scatter iotaInDim

/-- After the first eight operations the mask's buffer holds `refMask` of the input. -/
theorem ref_mask (V : Valuation τ sig (Elt F)) : after maskOps V (main_v5 : DevRef τ sig) = refMask (V (main_arg0 : DevRef τ sig)) := by
  simp only [after_cons, after_nil]
  rfl

/-! ## The tail, block by block -/

section Tail

variable [Cert.KernelIdeal.Facts]

/-- Stretch 1 (the call of @cumsum): the running count of the mask. -/
theorem A1_out (W : Valuation τ sig (Elt F)) :
    after tail1 W (main_v6 : DevRef τ sig) = runningCount (W (main_v5 : DevRef τ sig)) := by
  after_results_simp
  rfl
theorem A1_keep_v5 (W : Valuation τ sig (Elt F)) :
    after tail1 W (main_v5 : DevRef τ sig) = W (main_v5 : DevRef τ sig) := by simp only [after_cons, after_nil]; rfl

/-- Stretches 2–3 (two constants, the vector of zeros, the call of @clip): the count clipped below at zero, -/
theorem A2_out_v8 (W : Valuation τ sig (Elt F)) :
    after tail3 (after tail2 W) (main_v8 : DevRef τ sig) = clipLow (W (main_v6 : DevRef τ sig)) (constantI S_ 32 0#32) := by
  after_results_simp
  rfl
/-- and the K zeros the votes are added into. -/
theorem A2_out_v7 (W : Valuation τ sig (Elt F)) :
    after tail3 (after tail2 W) (main_v7 : DevRef τ sig) = broadcastInDim S3355443 ![] bcast_S_S3355443 (constantI S_ 32 0#32) := by
  after_results_simp
theorem A2_keep_v5 (W : Valuation τ sig (Elt F)) :
    after tail3 (after tail2 W) (main_v5 : DevRef τ sig) = W (main_v5 : DevRef τ sig) := by simp only [after_cons, after_nil]; rfl

/-- Stretch 4 (the wrap into range and the scatter): the votes per slot, from the K zeros. -/
theorem A3_out (W : Valuation τ sig (Elt F))
    (h7 : W (main_v7 : DevRef τ sig) = broadcastInDim S3355443 ![] bcast_S_S3355443 (constantI S_ 32 0#32)) :
    after tail4 W (main_v16 : DevRef τ sig) = votes (wrapIndex (W (main_v8 : DevRef τ sig))) := by
  after_results_simp
  rw [h7]
  rfl
theorem A3_keep_v5 (W : Valuation τ sig (Elt F)) :
    after tail4 W (main_v5 : DevRef τ sig) = W (main_v5 : DevRef τ sig) := by simp only [after_cons, after_nil]; rfl

/-- Stretch 5 (the call of @cumsum_1): the running sum of the votes. -/
theorem A4_out (W : Valuation τ sig (Elt F)) :
    after tail5 W (main_v17 : DevRef τ sig) = runningVotes (W (main_v16 : DevRef τ sig)) := by
  after_results_simp
  rfl
theorem A4_keep_v5 (W : Valuation τ sig (Elt F)) :
    after tail5 W (main_v5 : DevRef τ sig) = W (main_v5 : DevRef τ sig) := by simp only [after_cons, after_nil]; rfl

/-! Stretches 6–13 (the two coordinates by 1048576) feed nothing that reaches the result. -/
theorem B_keep_v5 (W : Valuation τ sig (Elt F)) :
    after tail13 (after tail12 (after tail11 (after tail10 (after tail9 (after tail8 (after tail7 (after tail6 W))))))) (main_v5 : DevRef τ sig) = W (main_v5 : DevRef τ sig) := by simp only [after_cons, after_nil]; rfl
theorem B_keep_v17 (W : Valuation τ sig (Elt F)) :
    after tail13 (after tail12 (after tail11 (after tail10 (after tail9 (after tail8 (after tail7 (after tail6 W))))))) (main_v17 : DevRef τ sig) = W (main_v17 : DevRef τ sig) := by simp only [after_cons, after_nil]; rfl

/-- Stretches 14–15: the flat index floor-divided by 1024. -/
theorem C1_out (W : Valuation τ sig (Elt F)) :
    after tail15 (after tail14 W) (main_v22 : DevRef τ sig) = floorDivide (W (main_v17 : DevRef τ sig)) (constantI S_ 32 1024#32) := by
  after_results_simp
  rfl
theorem C1_keep_v5 (W : Valuation τ sig (Elt F)) :
    after tail15 (after tail14 W) (main_v5 : DevRef τ sig) = W (main_v5 : DevRef τ sig) := by simp only [after_cons, after_nil]; rfl
theorem C1_keep_v17 (W : Valuation τ sig (Elt F)) :
    after tail15 (after tail14 W) (main_v17 : DevRef τ sig) = W (main_v17 : DevRef τ sig) := by simp only [after_cons, after_nil]; rfl

/-- Stretches 16–17: its remainder by 1024 — the row. -/
theorem C2_out (W : Valuation τ sig (Elt F)) :
    after tail17 (after tail16 W) (main_v23 : DevRef τ sig) = remainder (W (main_v22 : DevRef τ sig)) (constantI S_ 32 1024#32) := by
  after_results_simp
  rfl
theorem C2_keep_v5 (W : Valuation τ sig (Elt F)) :
    after tail17 (after tail16 W) (main_v5 : DevRef τ sig) = W (main_v5 : DevRef τ sig) := by simp only [after_cons, after_nil]; rfl
theorem C2_keep_v17 (W : Valuation τ sig (Elt F)) :
    after tail17 (after tail16 W) (main_v17 : DevRef τ sig) = W (main_v17 : DevRef τ sig) := by simp only [after_cons, after_nil]; rfl

/-- Stretches 18–19: the flat index floor-divided by 1. -/
theorem D1_out (W : Valuation τ sig (Elt F)) :
    after tail19 (after tail18 W) (main_v24 : DevRef τ sig) = floorDivide (W (main_v17 : DevRef τ sig)) (constantI S_ 32 1#32) := by
  after_results_simp
  rfl
theorem D1_keep_v5 (W : Valuation τ sig (Elt F)) :
    after tail19 (after tail18 W) (main_v5 : DevRef τ sig) = W (main_v5 : DevRef τ sig) := by simp only [after_cons, after_nil]; rfl
theorem D1_keep_v23 (W : Valuation τ sig (Elt F)) :
    after tail19 (after tail18 W) (main_v23 : DevRef τ sig) = W (main_v23 : DevRef τ sig) := by simp only [after_cons, after_nil]; rfl

/-- Stretches 20–21: its remainder by 1024 — the column. -/
theorem D2_out (W : Valuation τ sig (Elt F)) :
    after tail21 (after tail20 W) (main_v25 : DevRef τ sig) = remainder (W (main_v24 : DevRef τ sig)) (constantI S_ 32 1024#32) := by
  after_results_simp
  rfl
theorem D2_keep_v5 (W : Valuation τ sig (Elt F)) :
    after tail21 (after tail20 W) (main_v5 : DevRef τ sig) = W (main_v5 : DevRef τ sig) := by simp only [after_cons, after_nil]; rfl
theorem D2_keep_v23 (W : Valuation τ sig (Elt F)) :
    after tail21 (after tail20 W) (main_v23 : DevRef τ sig) = W (main_v23 : DevRef τ sig) := by simp only [after_cons, after_nil]; rfl

/-- Stretch 22: the slots at or beyond the number of set bits. -/
theorem E_out (W : Valuation τ sig (Elt F)) :
    after tail22 W (main_v30 : DevRef τ sig) = beyond (W (main_v5 : DevRef τ sig)) := by
  after_results_simp
  rfl
theorem E_keep_v23 (W : Valuation τ sig (Elt F)) :
    after tail22 W (main_v23 : DevRef τ sig) = W (main_v23 : DevRef τ sig) := by simp only [after_cons, after_nil]; rfl
theorem E_keep_v25 (W : Valuation τ sig (Elt F)) :
    after tail22 W (main_v25 : DevRef τ sig) = W (main_v25 : DevRef τ sig) := by simp only [after_cons, after_nil]; rfl

/-! Stretches 23–25 (the fills of the two dead coordinates) feed nothing that reaches the result. -/
theorem Fd_keep_v23 (W : Valuation τ sig (Elt F)) :
    after tail25 (after tail24 (after tail23 W)) (main_v23 : DevRef τ sig) = W (main_v23 : DevRef τ sig) := by simp only [after_cons, after_nil]; rfl
theorem Fd_keep_v25 (W : Valuation τ sig (Elt F)) :
    after tail25 (after tail24 (after tail23 W)) (main_v25 : DevRef τ sig) = W (main_v25 : DevRef τ sig) := by simp only [after_cons, after_nil]; rfl
theorem Fd_keep_v30 (W : Valuation τ sig (Elt F)) :
    after tail25 (after tail24 (after tail23 W)) (main_v30 : DevRef τ sig) = W (main_v30 : DevRef τ sig) := by simp only [after_cons, after_nil]; rfl

/-- Stretches 26–27: the rows, zero at the slots beyond. -/
theorem G1_out (W : Valuation τ sig (Elt F)) :
    after tail27 (after tail26 W) (main_v33 : DevRef τ sig) = fill (W (main_v30 : DevRef τ sig)) (constantI S_ 32 0#32) (W (main_v23 : DevRef τ sig)) := by
  after_results_simp
  rfl
theorem G1_keep_v25 (W : Valuation τ sig (Elt F)) :
    after tail27 (after tail26 W) (main_v25 : DevRef τ sig) = W (main_v25 : DevRef τ sig) := by simp only [after_cons, after_nil]; rfl
theorem G1_keep_v30 (W : Valuation τ sig (Elt F)) :
    after tail27 (after tail26 W) (main_v30 : DevRef τ sig) = W (main_v30 : DevRef τ sig) := by simp only [after_cons, after_nil]; rfl

/-- Stretches 28–29: the columns, zero at the slots beyond. -/
theorem G2_out (W : Valuation τ sig (Elt F)) :
    after tail29 (after tail28 W) (main_v34 : DevRef τ sig) = fill (W (main_v30 : DevRef τ sig)) (constantI S_ 32 0#32) (W (main_v25 : DevRef τ sig)) := by
  after_results_simp
  rfl
theorem G2_keep_v33 (W : Valuation τ sig (Elt F)) :
    after tail29 (after tail28 W) (main_v33 : DevRef τ sig) = W (main_v33 : DevRef τ sig) := by simp only [after_cons, after_nil]; rfl

/-- Stretch 30: the two rows stacked. -/
theorem G3_out (W : Valuation τ sig (Elt F)) :
    after tail30 W (main_v37 : DevRef τ sig) = concatenate S2x3355443 0 [⟨S1x3355443, broadcastInDim S1x3355443 ![1] bcast_S3355443_S1x3355443_1 (W (main_v33 : DevRef τ sig))⟩, ⟨S1x3355443, broadcastInDim S1x3355443 ![1] bcast_S3355443_S1x3355443_1 (W (main_v34 : DevRef τ sig))⟩] concatenates_S1x3355443_S1x3355443_S2x3355443_d0 := by
  after_results_simp
  rfl

/-! ## The tail, chained -/

/-- From any contents, after the 206 operations the result buffer holds `Tail` of what the mask's buffer held. -/
theorem tail_value (W : Valuation τ sig (Elt F)) :
    after tailOps W (main_v37 : DevRef τ sig) = Tail (W (main_v5 : DevRef τ sig)) := by
  rw [show (tailOps : List (HloOp τ sig (Elt F))) = List.flatten [ tail1, tail2, tail3, tail4, tail5, tail6, tail7, tail8, tail9, tail10,
    tail11, tail12, tail13, tail14, tail15, tail16, tail17, tail18, tail19, tail20,
    tail21, tail22, tail23, tail24, tail25, tail26, tail27, tail28, tail29, tail30 ] from rfl, after_flatten]
  simp only [List.foldl_cons, List.foldl_nil]
  generalize hM : W (main_v5 : DevRef τ sig) = M
  -- stretch 1
  have m1 : after tail1 W (main_v5 : DevRef τ sig) = M := by rw [A1_keep_v5, hM]
  have a1 : after tail1 W (main_v6 : DevRef τ sig) = runningCount M := by rw [A1_out, hM]
  generalize after tail1 W = W₁ at m1 a1 ⊢
  -- stretches 2–3
  have m2 : after tail3 (after tail2 W₁) (main_v5 : DevRef τ sig) = M := by rw [A2_keep_v5, m1]
  have a2 : after tail3 (after tail2 W₁) (main_v8 : DevRef τ sig) = clipLow (runningCount M) (constantI S_ 32 0#32) := by rw [A2_out_v8, a1]
  have z2 : after tail3 (after tail2 W₁) (main_v7 : DevRef τ sig) = broadcastInDim S3355443 ![] bcast_S_S3355443 (constantI S_ 32 0#32) := A2_out_v7 W₁
  generalize after tail3 (after tail2 W₁) = W₂ at m2 a2 z2 ⊢
  -- stretch 4
  have m3 : after tail4 W₂ (main_v5 : DevRef τ sig) = M := by rw [A3_keep_v5, m2]
  have a3 : after tail4 W₂ (main_v16 : DevRef τ sig) = votes (wrapIndex (clipLow (runningCount M) (constantI S_ 32 0#32))) := by rw [A3_out W₂ z2, a2]
  generalize after tail4 W₂ = W₃ at m3 a3 ⊢
  -- stretch 5
  have m4 : after tail5 W₃ (main_v5 : DevRef τ sig) = M := by rw [A4_keep_v5, m3]
  have a4 : after tail5 W₃ (main_v17 : DevRef τ sig) = flatIndex M := by rw [A4_out, a3]; rfl
  generalize after tail5 W₃ = W₄ at m4 a4 ⊢
  -- stretches 6–13
  have m5 : after tail13 (after tail12 (after tail11 (after tail10 (after tail9 (after tail8 (after tail7 (after tail6 W₄))))))) (main_v5 : DevRef τ sig) = M := by rw [B_keep_v5, m4]
  have a5 : after tail13 (after tail12 (after tail11 (after tail10 (after tail9 (after tail8 (after tail7 (after tail6 W₄))))))) (main_v17 : DevRef τ sig) = flatIndex M := by rw [B_keep_v17, a4]
  generalize after tail13 (after tail12 (after tail11 (after tail10 (after tail9 (after tail8 (after tail7 (after tail6 W₄))))))) = W₅ at m5 a5 ⊢
  -- stretches 14–15
  have m6 : after tail15 (after tail14 W₅) (main_v5 : DevRef τ sig) = M := by rw [C1_keep_v5, m5]
  have a6 : after tail15 (after tail14 W₅) (main_v17 : DevRef τ sig) = flatIndex M := by rw [C1_keep_v17, a5]
  have q6 : after tail15 (after tail14 W₅) (main_v22 : DevRef τ sig) = floorDivide (flatIndex M) (constantI S_ 32 1024#32) := by rw [C1_out, a5]
  generalize after tail15 (after tail14 W₅) = W₆ at m6 a6 q6 ⊢
  -- stretches 16–17
  have m7 : after tail17 (after tail16 W₆) (main_v5 : DevRef τ sig) = M := by rw [C2_keep_v5, m6]
  have a7 : after tail17 (after tail16 W₆) (main_v17 : DevRef τ sig) = flatIndex M := by rw [C2_keep_v17, a6]
  have r7 : after tail17 (after tail16 W₆) (main_v23 : DevRef τ sig) = remainder (floorDivide (flatIndex M) (constantI S_ 32 1024#32)) (constantI S_ 32 1024#32) := by rw [C2_out, q6]
  generalize after tail17 (after tail16 W₆) = W₇ at m7 a7 r7 ⊢
  -- stretches 18–19
  have m8 : after tail19 (after tail18 W₇) (main_v5 : DevRef τ sig) = M := by rw [D1_keep_v5, m7]
  have r8 : after tail19 (after tail18 W₇) (main_v23 : DevRef τ sig) = remainder (floorDivide (flatIndex M) (constantI S_ 32 1024#32)) (constantI S_ 32 1024#32) := by rw [D1_keep_v23, r7]
  have q8 : after tail19 (after tail18 W₇) (main_v24 : DevRef τ sig) = floorDivide (flatIndex M) (constantI S_ 32 1#32) := by rw [D1_out, a7]
  generalize after tail19 (after tail18 W₇) = W₈ at m8 r8 q8 ⊢
  -- stretches 20–21
  have m9 : after tail21 (after tail20 W₈) (main_v5 : DevRef τ sig) = M := by rw [D2_keep_v5, m8]
  have r9 : after tail21 (after tail20 W₈) (main_v23 : DevRef τ sig) = remainder (floorDivide (flatIndex M) (constantI S_ 32 1024#32)) (constantI S_ 32 1024#32) := by rw [D2_keep_v23, r8]
  have c9 : after tail21 (after tail20 W₈) (main_v25 : DevRef τ sig) = remainder (floorDivide (flatIndex M) (constantI S_ 32 1#32)) (constantI S_ 32 1024#32) := by rw [D2_out, q8]
  generalize after tail21 (after tail20 W₈) = W₉ at m9 r9 c9 ⊢
  -- stretch 22
  have r10 : after tail22 W₉ (main_v23 : DevRef τ sig) = remainder (floorDivide (flatIndex M) (constantI S_ 32 1024#32)) (constantI S_ 32 1024#32) := by rw [E_keep_v23, r9]
  have c10 : after tail22 W₉ (main_v25 : DevRef τ sig) = remainder (floorDivide (flatIndex M) (constantI S_ 32 1#32)) (constantI S_ 32 1024#32) := by rw [E_keep_v25, c9]
  have b10 : after tail22 W₉ (main_v30 : DevRef τ sig) = beyond M := by rw [E_out, m9]
  generalize after tail22 W₉ = W₁₀ at r10 c10 b10 ⊢
  -- stretches 23–25
  have r11 : after tail25 (after tail24 (after tail23 W₁₀)) (main_v23 : DevRef τ sig) = remainder (floorDivide (flatIndex M) (constantI S_ 32 1024#32)) (constantI S_ 32 1024#32) := by rw [Fd_keep_v23, r10]
  have c11 : after tail25 (after tail24 (after tail23 W₁₀)) (main_v25 : DevRef τ sig) = remainder (floorDivide (flatIndex M) (constantI S_ 32 1#32)) (constantI S_ 32 1024#32) := by rw [Fd_keep_v25, c10]
  have b11 : after tail25 (after tail24 (after tail23 W₁₀)) (main_v30 : DevRef τ sig) = beyond M := by rw [Fd_keep_v30, b10]
  generalize after tail25 (after tail24 (after tail23 W₁₀)) = W₁₁ at r11 c11 b11 ⊢
  -- stretches 26–27
  have c12 : after tail27 (after tail26 W₁₁) (main_v25 : DevRef τ sig) = remainder (floorDivide (flatIndex M) (constantI S_ 32 1#32)) (constantI S_ 32 1024#32) := by rw [G1_keep_v25, c11]
  have b12 : after tail27 (after tail26 W₁₁) (main_v30 : DevRef τ sig) = beyond M := by rw [G1_keep_v30, b11]
  have y12 : after tail27 (after tail26 W₁₁) (main_v33 : DevRef τ sig) = rowOf M := by rw [G1_out, b11, r11]; rfl
  generalize after tail27 (after tail26 W₁₁) = W₁₂ at c12 b12 y12 ⊢
  -- stretches 28–29
  have y13 : after tail29 (after tail28 W₁₂) (main_v33 : DevRef τ sig) = rowOf M := by rw [G2_keep_v33, y12]
  have x13 : after tail29 (after tail28 W₁₂) (main_v34 : DevRef τ sig) = colOf M := by rw [G2_out, b12, c12]; rfl
  generalize after tail29 (after tail28 W₁₂) = W₁₃ at y13 x13 ⊢
  -- stretch 30
  rw [G3_out, y13, x13]
  rfl

end Tail

/-! ## The result and the argument -/

/-- The reference program's result: the tail function of the mask of the input. -/
theorem ref_value [Cert.KernelIdeal.Facts] (V : Valuation τ sig (Elt F)) :
    after ops V (main_v37 : DevRef τ sig) = Cert.KernelIdeal.NmsTail.Tail (refMask (V (main_arg0 : DevRef τ sig))) := by
  rw [show (ops : List (HloOp τ sig (Elt F))) = maskOps ++ tailOps from rfl, after_append, tail_value, ref_mask]

set_option maxRecDepth 4096 in
/-- No operation writes the argument's buffer. -/
theorem ref_arg0 (V : Valuation τ sig (Elt F)) : after ops V (main_arg0 : DevRef τ sig) = V (main_arg0 : DevRef τ sig) := by
  rw [show (ops : List (HloOp τ sig (Elt F))) = maskOps ++ List.flatten [ tail1, tail2, tail3, tail4, tail5, tail6, tail7, tail8, tail9, tail10,
    tail11, tail12, tail13, tail14, tail15, tail16, tail17, tail18, tail19, tail20,
    tail21, tail22, tail23, tail24, tail25, tail26, tail27, tail28, tail29, tail30 ] from rfl, after_append, after_flatten]
  simp only [List.foldl_cons, List.foldl_nil, after_cons, after_nil]
  rfl

end Cert.ReferenceIdeal.RefRun

end
-- ==== Proof.NmsRefMask.lean ====
/- The reference's mask is the specification's mask.
   The reference computes the neighbourhood maximum with one windowed reduction: at each pixel the left fold of max,
   from the initial value, over the nine positions of a 1 × 1 × 3 × 3 window in row-major order, a position
   contributing the input there when it is inside the image (after taking off the padding of one on the two pixel axes)
   and the initial value otherwise. The initial value is the constant −∞, which is ⊥. Position n of the window has
   coordinates (0, 0, n / 3, n % 3), so its term is the specification's neighbour at displacement (n / 3, n % 3), and
   the fold is the specification's maximum, max being associative and commutative with identity ⊥. -/
import proofs.«166666_j11261404250300_1_alg».proof.Proof.NmsSpec
import proofs.«166666_j11261404250300_1_alg».proof.ReferenceIdeal

noncomputable section

namespace Cert.NmsRefMask

open Cert.ReferenceIdeal Idealize.ShloMosaic Idealize.ShloMosaic.ValueIdx

/-- The window's shape: one image, one channel, three rows, three columns. -/
abbrev W : Shape := ⟨4, ![1, 1, 3, 3]⟩

/-- The window has nine positions. -/
theorem W_numel : W.numel = 9 := by
  show ∏ a, (![1, 1, 3, 3] : Fin 4 → Nat) a = 9
  rw [← Shape.prodPi_eq]
  rfl

/-- The term one window position contributes at pixel (r, c) of image b: with `q` the position's coordinates, the input
    at (pixel + q − low padding) when that is inside the array on every axis, else `v`. -/
def winTerm (x : Cert.Nms.SIn.Idx → EReal) (v : EReal) (b : Fin 16) (r c : Fin 1024) (q : Fin 4 → Nat) : EReal :=
  if hin : ∀ a : Fin 4, (![0, 0, 1, 1] : Fin 4 → Nat) a
        ≤ ((ix4 b (0 : Fin 1) r c : Cert.Nms.SIn.Idx) a).val * (![1, 1, 1, 1] : Fin 4 → Nat) a + q a
      ∧ ((ix4 b (0 : Fin 1) r c : Cert.Nms.SIn.Idx) a).val * (![1, 1, 1, 1] : Fin 4 → Nat) a + q a
          - (![0, 0, 1, 1] : Fin 4 → Nat) a < Cert.Nms.SIn.size a then
    x (fun a => ⟨((ix4 b (0 : Fin 1) r c : Cert.Nms.SIn.Idx) a).val * (![1, 1, 1, 1] : Fin 4 → Nat) a + q a
      - (![0, 0, 1, 1] : Fin 4 → Nat) a, (hin a).2⟩)
  else v

/-- A conditional does not depend on which decision procedure decides its condition. -/
theorem dite_inst_irrel {α : Type} {p : Prop} (i₁ i₂ : Decidable p) (t : p → α) (e : ¬p → α) :
    @dite α p i₁ t e = @dite α p i₂ t e := by
  cases i₁ with
  | isTrue h₁ => cases i₂ with
    | isTrue h₂ => rfl
    | isFalse h₂ => exact absurd h₁ h₂
  | isFalse h₁ => cases i₂ with
    | isTrue h₂ => exact absurd h₂ h₁
    | isFalse h₂ => rfl

/-- The windowed reduction read at a pixel: the fold over the window's positions of the positions' terms. -/
theorem reduceWindow_apply (f : EReal → EReal → EReal) (x : S16x1x1024x1024.Idx → EReal) (init : S_.Idx → EReal)
    (h : S16x1x1024x1024.ReduceWindows (![1, 1, 3, 3] : Fin 4 → Nat) ![1, 1, 1, 1] ![0, 0, 1, 1] ![0, 0, 1, 1] S16x1x1024x1024)
    (hu : 0 < S_.numel) (b : Fin 16) (r c : Fin 1024) :
    Host.reduceWindow f ![1, 1, 3, 3] ![1, 1, 1, 1] ![0, 0, 1, 1] ![0, 0, 1, 1] x init h hu (ix4 b (0 : Fin 1) r c)
      = (List.finRange W.numel).foldl (fun acc n =>
          f acc (winTerm x (init (Shape.Idx.first hu)) b r c (fun a => (W.rowMajor.symm n a).val)))
          (init (Shape.Idx.first hu)) := by
  unfold Host.reduceWindow
  refine congrArg (fun g => List.foldl g (init (Shape.Idx.first hu)) (List.finRange W.numel)) ?_
  funext acc n
  refine congrArg (f acc) ?_
  unfold winTerm
  -- the two conditionals differ only in how the decision of the condition is found
  exact dite_inst_irrel _ _ _ _

/-- A left fold over the nine positions, written out. -/
theorem foldl_finRange_nine {α : Type} (f : α → α → α) (N : Nat) (hN : N = 9) (g : Fin N → α) (v : α) :
    (List.finRange N).foldl (fun acc n => f acc (g n)) v
      = f (f (f (f (f (f (f (f (f v (g ⟨0, by omega⟩)) (g ⟨1, by omega⟩)) (g ⟨2, by omega⟩)) (g ⟨3, by omega⟩))
          (g ⟨4, by omega⟩)) (g ⟨5, by omega⟩)) (g ⟨6, by omega⟩)) (g ⟨7, by omega⟩)) (g ⟨8, by omega⟩) := by
  subst hN
  rfl

/-- Position `k` of the window in row-major order has coordinates (0, 0, k / 3, k % 3). -/
theorem W_coord (k : Nat) (hk : k < W.numel) :
    (W.rowMajor.symm ⟨k, hk⟩ 0).val = 0 ∧ (W.rowMajor.symm ⟨k, hk⟩ 1).val = 0
      ∧ (W.rowMajor.symm ⟨k, hk⟩ 2).val = k / 3 ∧ (W.rowMajor.symm ⟨k, hk⟩ 3).val = k % 3 := by
  have h9 : k < 9 := by rw [W_numel] at hk; exact hk
  refine ⟨?_, ?_, ?_, ?_⟩
  · show k / 9 = 0
    omega
  · show k % 9 / 9 = 0
    omega
  · show k % 9 % 9 / 3 = k / 3
    omega
  · show k % 9 % 9 % 3 / 1 = k % 3
    omega

/-- A window position's term is the specification's neighbour at the position's displacement. -/
theorem winTerm_eq (x : Cert.Nms.SIn.Idx → EReal) (b : Fin 16) (r c : Fin 1024) (q : Fin 4 → Nat) (dr dc : Nat)
    (h0 : q 0 = 0) (h1 : q 1 = 0) (h2 : q 2 = dr) (h3 : q 3 = dc) :
    winTerm x ⊥ b r c q = Cert.Nms.nb x b r c dr dc := by
  subst h2 h3
  unfold winTerm Cert.Nms.nb Cert.Nms.rowNb
  have hb := b.isLt
  by_cases hc : 1 ≤ c.val + q 3 ∧ c.val + q 3 - 1 < 1024
  · by_cases hr : 1 ≤ r.val + q 2 ∧ r.val + q 2 - 1 < 1024
    · have hin : ∀ a : Fin 4, (![0, 0, 1, 1] : Fin 4 → Nat) a
            ≤ ((ix4 b (0 : Fin 1) r c : Cert.Nms.SIn.Idx) a).val * (![1, 1, 1, 1] : Fin 4 → Nat) a + q a
          ∧ ((ix4 b (0 : Fin 1) r c : Cert.Nms.SIn.Idx) a).val * (![1, 1, 1, 1] : Fin 4 → Nat) a + q a
              - (![0, 0, 1, 1] : Fin 4 → Nat) a < Cert.Nms.SIn.size a := by
        intro a
        match a with
        | ⟨0, _⟩ => show 0 ≤ b.val * 1 + q 0 ∧ b.val * 1 + q 0 - 0 < 16; omega
        | ⟨1, _⟩ => show 0 ≤ 0 * 1 + q 1 ∧ 0 * 1 + q 1 - 0 < 1; omega
        | ⟨2, _⟩ => show 1 ≤ r.val * 1 + q 2 ∧ r.val * 1 + q 2 - 1 < 1024; omega
        | ⟨3, _⟩ => show 1 ≤ c.val * 1 + q 3 ∧ c.val * 1 + q 3 - 1 < 1024; omega
      rw [dif_pos hin, dif_pos hc, dif_pos hr]
      refine congrArg x (funext fun a => ?_)
      match a with
      | ⟨0, _⟩ => exact Fin.ext (show b.val * 1 + q 0 - 0 = b.val by omega)
      | ⟨1, _⟩ => exact Fin.ext (show 0 * 1 + q 1 - 0 = 0 by omega)
      | ⟨2, _⟩ => exact Fin.ext (show r.val * 1 + q 2 - 1 = r.val + q 2 - 1 by omega)
      | ⟨3, _⟩ => exact Fin.ext (show c.val * 1 + q 3 - 1 = c.val + q 3 - 1 by omega)
    · have hnin : ¬ ∀ a : Fin 4, (![0, 0, 1, 1] : Fin 4 → Nat) a
            ≤ ((ix4 b (0 : Fin 1) r c : Cert.Nms.SIn.Idx) a).val * (![1, 1, 1, 1] : Fin 4 → Nat) a + q a
          ∧ ((ix4 b (0 : Fin 1) r c : Cert.Nms.SIn.Idx) a).val * (![1, 1, 1, 1] : Fin 4 → Nat) a + q a
              - (![0, 0, 1, 1] : Fin 4 → Nat) a < Cert.Nms.SIn.size a := by
        intro hin
        have h := hin 2
        have h' : 1 ≤ r.val * 1 + q 2 ∧ r.val * 1 + q 2 - 1 < 1024 := h
        omega
      rw [dif_neg hnin, dif_pos hc, dif_neg hr]
  · have hnin : ¬ ∀ a : Fin 4, (![0, 0, 1, 1] : Fin 4 → Nat) a
          ≤ ((ix4 b (0 : Fin 1) r c : Cert.Nms.SIn.Idx) a).val * (![1, 1, 1, 1] : Fin 4 → Nat) a + q a
        ∧ ((ix4 b (0 : Fin 1) r c : Cert.Nms.SIn.Idx) a).val * (![1, 1, 1, 1] : Fin 4 → Nat) a + q a
            - (![0, 0, 1, 1] : Fin 4 → Nat) a < Cert.Nms.SIn.size a := by
      intro hin
      have h := hin 3
      have h' : 1 ≤ c.val * 1 + q 3 ∧ c.val * 1 + q 3 - 1 < 1024 := h
      omega
    rw [dif_neg hnin, dif_neg hc]

/-- The term of window position `k` is the neighbour at displacement (k / 3, k % 3). -/
theorem winTerm_pos (x : Cert.Nms.SIn.Idx → EReal) (b : Fin 16) (r c : Fin 1024) (k : Nat) (hk : k < W.numel) :
    winTerm x ⊥ b r c (fun a => (W.rowMajor.symm ⟨k, hk⟩ a).val) = Cert.Nms.nb x b r c (k / 3) (k % 3) :=
  winTerm_eq x b r c _ _ _ (W_coord k hk).1 (W_coord k hk).2.1 (W_coord k hk).2.2.1 (W_coord k hk).2.2.2

/-- The windowed maximum from ⊥ read at a pixel is the specification's neighbourhood maximum. -/
theorem reduceWindow_max_apply (x : S16x1x1024x1024.Idx → EReal) (init : S_.Idx → EReal)
    (h : S16x1x1024x1024.ReduceWindows (![1, 1, 3, 3] : Fin 4 → Nat) ![1, 1, 1, 1] ![0, 0, 1, 1] ![0, 0, 1, 1] S16x1x1024x1024)
    (hu : 0 < S_.numel) (hinit : init (Shape.Idx.first hu) = ⊥) (b : Fin 16) (r c : Fin 1024) :
    Host.reduceWindow (FloatOps.maximumf (F := Ideal) (φ := .f32)) ![1, 1, 3, 3] ![1, 1, 1, 1] ![0, 0, 1, 1] ![0, 0, 1, 1]
        x init h hu (ix4 b (0 : Fin 1) r c)
      = Cert.Nms.pool x b r c := by
  rw [reduceWindow_apply, hinit, foldl_finRange_nine _ _ W_numel, Cert.Nms.pool_eq_nine]
  rw [winTerm_pos, winTerm_pos, winTerm_pos, winTerm_pos, winTerm_pos, winTerm_pos, winTerm_pos, winTerm_pos,
    winTerm_pos]
  rfl

/-- THE REFERENCE'S MASK: its first eight operations, composed, are the specification's mask of the input. -/
theorem ref_mask_eq [Cert.ReferenceIdeal.Facts] (x : FVec Ideal S16x1x1024x1024 .f32) :
    andi (cmpf .oeq x (Host.reduceWindow FloatOps.maximumf ![1, 1, 3, 3] ![1, 1, 1, 1] ![0, 0, 1, 1] ![0, 0, 1, 1] x
            (broadcastInDim S_ ![] Facts₀.bcast_S_S_ (constant (F := Ideal) S_ .f32 0xFF800000#32))
            Facts₀.reduceWindows_S16x1x1024x1024_S16x1x1024x1024_w1s1p0_0_w1s1p0_0_w3s1p1_1_w3s1p1_1 Facts₀.h_S_))
        (cmpf .oge x (broadcastInDim S16x1x1024x1024 ![] Facts₀.bcast_S_S16x1x1024x1024
          (constant (F := Ideal) S_ .f32 0x3F333333#32)))
      = Cert.Nms.maskOf x := by
  funext j
  obtain ⟨b, z, r, c, rfl⟩ : ∃ (b : Fin 16) (z : Fin 1) (r c : Fin 1024), j = ix4 b z r c :=
    ⟨j 0, j 1, j 2, j 3, eq_ix4 j⟩
  obtain rfl : z = 0 := Subsingleton.elim _ _
  rw [Cert.Nms.maskOf_ix4]
  refine congrArg₂ IntOp.andi (congrArg (Ideal.cmp .oeq (x (ix4 b (0 : Fin 1) r c))) ?_) rfl
  refine reduceWindow_max_apply x _ _ _ ?_ b r c
  show Ideal.ofBits .f32 0xFF800000#32 = ⊥
  simp [Ideal.ofBits, Ideal.ieee]

end Cert.NmsRefMask

end
-- ==== Proof.lean ====
/-
  The claim: the kernel program and its reference compute the same [2, K] table of coordinates.

  Both programs first compute a one-bit mask over the [16, 1, 1024, 1024] input — a pixel is kept when it equals the
  maximum of its 3 × 3 neighbourhood (−∞ outside the image) and reaches the threshold — and then apply the same 206 host
  operations to it (a running count, a bincount by scatter, a second running count, floor divisions and remainders that
  unravel a flat position into a row and a column, a fill of the unused slots, and a stack of the two coordinate rows).
  The kernel computes the neighbourhood maximum separably (three rows, then three columns, by shifted slices padded with
  −∞) per image on a grid of sixteen points and stores the mask as 0/1 words, which the host compares with zero; the
  reference takes one 3 × 3 window maximum on the host. On the extended reals max is associative and commutative with
  −∞ its identity, so the two maxima are one function (`Cert.Nms.maskOf`), and the 206 later operations are one pure
  function `Tail` of the mask on both sides. No finiteness of the input is used.

  The three frames: each kernel program's run is its one region followed by the later host operations, none of which
  writes the argument array; the reference is a straight line of host operations.
-/
import proofs.«166666_j11261404250300_1_alg».proof.Defs
import proofs.«166666_j11261404250300_1_alg».proof.Proof.Gen.Kernel
import proofs.«166666_j11261404250300_1_alg».proof.Proof.Gen.KernelIdeal
import proofs.«166666_j11261404250300_1_alg».proof.Proof.Gen.ReferenceIdeal
import proofs.«166666_j11261404250300_1_alg».proof.Proof.Gen.Pre_finite_inputs
import proofs.«166666_j11261404250300_1_alg».proof.Proof.KFrame
import proofs.«166666_j11261404250300_1_alg».proof.Proof.KIFrame
import proofs.«166666_j11261404250300_1_alg».proof.Proof.KIRun
import proofs.«166666_j11261404250300_1_alg».proof.Proof.RefOps
import proofs.«166666_j11261404250300_1_alg».proof.Proof.RefValue
import proofs.«166666_j11261404250300_1_alg».proof.Proof.NmsRefMask
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ

/-- The reference's frame: its run read at the argument array, which no operation writes. -/
theorem frame_ri : Cert.frame_ReferenceIdeal := fun m ρ _ =>
  (θ_run Cert.ReferenceIdeal.defs _ _).mono (fun _ h c => (h c Cert.ReferenceIdeal.main_arg0).trans (Cert.ReferenceIdeal.RefRun.ref_arg0 _))
    (Cert.ReferenceIdeal.RefRun.run_main (F := Ideal) m ρ)

/-- Both runs end at `Tail` of `maskOf` of the argument array; the argument arrays agree. -/
theorem algebraic : Cert.algebraic_KernelIdeal_ReferenceIdeal := by
  intro m ρ m' ρ' _ hagree
  refine ⟨fun c => Cert.KernelIdeal.NmsTail.Tail (Cert.Nms.maskOf (m ((c.tc : Thread Cert.KernelIdeal.nD Cert.KernelIdeal.τ).loc Cert.KernelIdeal.main_arg0))),
    Cert.KernelIdeal.Val.run m ρ, ?_⟩
  refine (θ_run Cert.ReferenceIdeal.defs _ _).mono (fun _ h c => ⟨?_, (h c Cert.ReferenceIdeal.main_arg0).trans (Cert.ReferenceIdeal.RefRun.ref_arg0 _)⟩)
    (Cert.ReferenceIdeal.RefRun.run_main (F := Ideal) m' ρ')
  rw [h c Cert.ReferenceIdeal.main_v37, Cert.ReferenceIdeal.RefRun.ref_value]
  refine congrArg Cert.KernelIdeal.NmsTail.Tail ?_
  refine (Cert.NmsRefMask.ref_mask_eq _).trans ?_
  exact congrArg Cert.Nms.maskOf (hagree c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
